-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1280000 : Shape := ⟨2, ![2, 1280000]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S64x32 .f32) (main_arg6 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S80000x64 .f32) (main_arg1 : FVec F S64x64 .f32) (main_arg2 : FVec F S64 .f32) (main_arg3 : FVec F S64x64 .f32) (main_arg4 : FVec F S64 .f32) (main_arg5 : FVec F S64x32 .f32) (main_arg6 : FVec F S32 .f32) (main_arg7 : IVec S2x1280000 32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S80000x64 : Shape := ⟨2, ![80000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1280000 : Shape := ⟨2, ![2, 1280000]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S8000x64 : Shape := ⟨2, ![8000, 64]⟩
abbrev S1360000x64 : Shape := ⟨2, ![1360000, 64]⟩
abbrev S1x64 : Shape := ⟨2, ![1, 64]⟩
abbrev S80000x32 : Shape := ⟨2, ![80000, 32]⟩
abbrev S8000x32 : Shape := ⟨2, ![8000, 32]⟩
abbrev S1360000x32 : Shape := ⟨2, ![1360000, 32]⟩
abbrev S1x32 : Shape := ⟨2, ![1, 32]⟩

abbrev nBuf : Space → Nat
  | .hbm => 105
  | .vmem => 30
  | .smem => 0
  | _ => 0

abbrev bufTy : (tb : Table) → Fin (tcTables nBuf tb) → BufTy
  | .hbm, ⟨0, _⟩ => ⟨S80000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S2x1280000, .i32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S80000, .i32⟩
  | .hbm, ⟨13, _⟩ => ⟨S1360000, .i32⟩
  | .hbm, ⟨14, _⟩ => ⟨S1360000, .i32⟩
  | .hbm, ⟨15, _⟩ => ⟨S_, .f32⟩
  | .hbm, ⟨16, _⟩ => ⟨S1360000, .f32⟩
  | .hbm, ⟨17, _⟩ => ⟨S_, .f32⟩
  | .hbm, ⟨18, _⟩ => ⟨S80000, .f32⟩
  | .hbm, ⟨19, _⟩ => ⟨S1360000x1, .i32⟩
  | .hbm, ⟨20, _⟩ => ⟨S80000, .f32⟩
  | .hbm, ⟨21, _⟩ => ⟨S_, .f32⟩
  | .hbm, ⟨22, _⟩ => ⟨S80000, .f32⟩
  | .hbm, ⟨23, _⟩ => ⟨S80000, .i1⟩
  | .hbm, ⟨24, _⟩ => ⟨S80000, .f32⟩
  | .hbm, ⟨25, _⟩ => ⟨S_, .f32⟩
  | .hbm, ⟨26, _⟩ => ⟨S_, .f32⟩
  | .hbm, ⟨27, _⟩ => ⟨S80000, .f32⟩
  | .hbm, ⟨28, _⟩ => ⟨S80000, .f32⟩
  | .hbm, ⟨29, _⟩ => ⟨S_, .i32⟩
  | .hbm, ⟨30, _⟩ => ⟨S1360000, .i32⟩
  | .hbm, ⟨31, _⟩ => ⟨S1360000, .i1⟩
  | .hbm, ⟨32, _⟩ => ⟨S_, .i32⟩
  | .hbm, ⟨33, _⟩ => ⟨S1360000, .i32⟩
  | .hbm, ⟨34, _⟩ => ⟨S1360000, .i32⟩
  | .hbm, ⟨35, _⟩ => ⟨S1360000, .i32⟩
  | .hbm, ⟨36, _⟩ => ⟨S1360000x1, .i32⟩
  | .hbm, ⟨37, _⟩ => ⟨S1360000, .f32⟩
  | .hbm, ⟨38, _⟩ => ⟨S_, .i32⟩
  | .hbm, ⟨39, _⟩ => ⟨S1360000, .i32⟩
  | .hbm, ⟨40, _⟩ => ⟨S1360000, .i1⟩
  | .hbm, ⟨41, _⟩ => ⟨S_, .i32⟩
  | .hbm, ⟨42, _⟩ => ⟨S1360000, .i32⟩
  | .hbm, ⟨43, _⟩ => ⟨S1360000, .i32⟩
  | .hbm, ⟨44, _⟩ => ⟨S1360000, .i32⟩
  | .hbm, ⟨45, _⟩ => ⟨S1360000x1, .i32⟩
  | .hbm, ⟨46, _⟩ => ⟨S1360000, .f32⟩
  | .hbm, ⟨47, _⟩ => ⟨S1360000, .f32⟩
  | .hbm, ⟨48, _⟩ => ⟨S80000x64, .f32⟩
  | .hbm, ⟨49, _⟩ => ⟨S_, .i32⟩
  | .hbm, ⟨50, _⟩ => ⟨S1360000, .i32⟩
  | .hbm, ⟨51, _⟩ => ⟨S1360000, .i1⟩
  | .hbm, ⟨52, _⟩ => ⟨S_, .i32⟩
  | .hbm, ⟨53, _⟩ => ⟨S1360000, .i32⟩
  | .hbm, ⟨54, _⟩ => ⟨S1360000, .i32⟩
  | .hbm, ⟨55, _⟩ => ⟨S1360000, .i32⟩
  | .hbm, ⟨56, _⟩ => ⟨S1360000x1, .i32⟩
  | .hbm, ⟨57, _⟩ => ⟨S1360000x64, .f32⟩
  | .hbm, ⟨58, _⟩ => ⟨S1360000x1, .f32⟩
  | .hbm, ⟨59, _⟩ => ⟨S1360000x64, .f32⟩
  | .hbm, ⟨60, _⟩ => ⟨S1360000x64, .f32⟩
  | .hbm, ⟨61, _⟩ => ⟨S_, .f32⟩
  | .hbm, ⟨62, _⟩ => ⟨S80000x64, .f32⟩
  | .hbm, ⟨63, _⟩ => ⟨S1360000x1, .i32⟩
  | .hbm, ⟨64, _⟩ => ⟨S80000x64, .f32⟩
  | .hbm, ⟨65, _⟩ => ⟨S1x64, .f32⟩
  | .hbm, ⟨66, _⟩ => ⟨S80000x64, .f32⟩
  | .hbm, ⟨67, _⟩ => ⟨S80000x64, .f32⟩
  | .hbm, ⟨68, _⟩ => ⟨S_, .i32⟩
  | .hbm, ⟨69, _⟩ => ⟨S1360000, .i32⟩
  | .hbm, ⟨70, _⟩ => ⟨S1360000, .i1⟩
  | .hbm, ⟨71, _⟩ => ⟨S_, .i32⟩
  | .hbm, ⟨72, _⟩ => ⟨S1360000, .i32⟩
  | .hbm, ⟨73, _⟩ => ⟨S1360000, .i32⟩
  | .hbm, ⟨74, _⟩ => ⟨S1360000, .i32⟩
  | .hbm, ⟨75, _⟩ => ⟨S1360000x1, .i32⟩
  | .hbm, ⟨76, _⟩ => ⟨S1360000x64, .f32⟩
  | .hbm, ⟨77, _⟩ => ⟨S1360000x1, .f32⟩
  | .hbm, ⟨78, _⟩ => ⟨S1360000x64, .f32⟩
  | .hbm, ⟨79, _⟩ => ⟨S1360000x64, .f32⟩
  | .hbm, ⟨80, _⟩ => ⟨S_, .f32⟩
  | .hbm, ⟨81, _⟩ => ⟨S80000x64, .f32⟩
  | .hbm, ⟨82, _⟩ => ⟨S1360000x1, .i32⟩
  | .hbm, ⟨83, _⟩ => ⟨S80000x64, .f32⟩
  | .hbm, ⟨84, _⟩ => ⟨S1x64, .f32⟩
  | .hbm, ⟨85, _⟩ => ⟨S80000x64, .f32⟩
  | .hbm, ⟨86, _⟩ => ⟨S80000x32, .f32⟩
  | .hbm, ⟨87, _⟩ => ⟨S_, .i32⟩
  | .hbm, ⟨88, _⟩ => ⟨S1360000, .i32⟩
  | .hbm, ⟨89, _⟩ => ⟨S1360000, .i1⟩
  | .hbm, ⟨90, _⟩ => ⟨S_, .i32⟩
  | .hbm, ⟨91, _⟩ => ⟨S1360000, .i32⟩
  | .hbm, ⟨92, _⟩ => ⟨S1360000, .i32⟩
  | .hbm, ⟨93, _⟩ => ⟨S1360000, .i32⟩
  | .hbm, ⟨94, _⟩ => ⟨S1360000x1, .i32⟩
  | .hbm, ⟨95, _⟩ => ⟨S1360000x32, .f32⟩
  | .hbm, ⟨96, _⟩ => ⟨S1360000x1, .f32⟩
  | .hbm, ⟨97, _⟩ => ⟨S1360000x32, .f32⟩
  | .hbm, ⟨98, _⟩ => ⟨S1360000x32, .f32⟩
  | .hbm, ⟨99, _⟩ => ⟨S_, .f32⟩
  | .hbm, ⟨100, _⟩ => ⟨S80000x32, .f32⟩
  | .hbm, ⟨101, _⟩ => ⟨S1360000x1, .i32⟩
  | .hbm, ⟨102, _⟩ => ⟨S80000x32, .f32⟩
  | .hbm, ⟨103, _⟩ => ⟨S1x32, .f32⟩
  | .hbm, ⟨104, _⟩ => ⟨S80000x32, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S64x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S64x32, .f32⟩
  | .local _ .vmem, ⟨23, _⟩ => ⟨S8000x32, .f32⟩
  | .local _ .vmem, ⟨24, _⟩ => ⟨S8000x32, .f32⟩
  | .local _ .vmem, ⟨25, _⟩ => ⟨S8000x32, .f32⟩
  | .local _ .vmem, ⟨26, _⟩ => ⟨S8000x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  shapeCasts_S64_S1x64 : S64.ShapeCasts S1x64
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S8000x32_S8000x32_0_0 : ∀ a, (![0, 0] : Fin 2 → Nat) a + S8000x32.size a ≤ S8000x32.size a
  h_S8000x32 : 0 < S8000x32.numel
  bcast_S1360000x1_S1360000x32_0_1 : S1360000x1.BroadcastsInDim S1360000x32 (![0, 1] : Fin 2 → Fin S1360000x32.rank)
  bcast_S_S80000x32 : S_.BroadcastsInDim S80000x32 (![] : Fin 0 → Fin S80000x32.rank)
  shapeCasts_S32_S1x32 : S32.ShapeCasts S1x32
  shapeCasts_S8000x32_S8000x32 : S8000x32.ShapeCasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S8000x64_S64x64_S8000x64_1_0_0_1_n_n_wf : DotDims.WF S8000x64 S64x64 S8000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  dot_S8000x64_S64x32_S8000x32_1_0_0_1_n_n_wf : DotDims.WF S8000x64 S64x32 S8000x32 [1] [0] [0] [1] [] []
  gather_S80000x32_S1360000x1_S1360000x32_1_0_n_n_0_1_132_wf : GatherDims.WF S80000x32 S1360000x1 S1360000x32 [1] [0] [] [0] [] 1 ![1, 32]
  scatter_S80000x32_S1360000x1_S1360000x32_1_0_0_1_wf : ScatterDims.WF S80000x32 S1360000x1 S1360000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S80000x64.size a
  hwx1_2 : ∀ i : grid1.Coords, EltTy.bits .f32 = 32 ∨ (Rect.block (s := S80000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S80000x64.size a
  hwx2_0 : ∀ i : grid2.Coords, EltTy.bits .f32 = 32 ∨ (Rect.block (s := S80000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S80000x64.size a
  hwx2_2 : ∀ i : grid2.Coords, EltTy.bits .f32 = 32 ∨ (Rect.block (s := S80000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S80000x64.size a
  hwx3_2 : ∀ i : grid3.Coords, EltTy.bits .f32 = 32 ∨ (Rect.block (s := S80000x64) S8000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S80000x64.size a
  hwx4_0 : ∀ i : grid4.Coords, EltTy.bits .f32 = 32 ∨ (Rect.block (s := S80000x64) S8000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x32.size a ≤ S80000x32.size a
  hwx4_2 : ∀ i : grid4.Coords, EltTy.bits .f32 = 32 ∨ (Rect.block (s := S80000x32) S8000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S80000x32.size a
  hwx5_0 : ∀ i : grid5.Coords, EltTy.bits .f32 = 32 ∨ (Rect.block (s := S80000x32) S8000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x32.size a ≤ S80000x32.size a
  hwx5_2 : ∀ i : grid5.Coords, EltTy.bits .f32 = 32 ∨ (Rect.block (s := S80000x32) S8000x32.size (cc5_transform_2 i) (hinb5_2 i)).WholeWords (EltTy.packing .f32)

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def gather_S80000x32_S1360000x1_S1360000x32_1_0_n_n_0_1_132 : GatherDims S80000x32 S1360000x1 S1360000x32 where
  offsetDims := [1]
  collapsedSliceDims := [0]
  operandBatchingDims := []
  startIndicesBatchingDims := []
  startIndexMap := [0]
  indexVectorDim := 1
  sliceSizes := ![1, 32]
  wf := gather_S80000x32_S1360000x1_S1360000x32_1_0_n_n_0_1_132_wf
def scatter_S80000x32_S1360000x1_S1360000x32_1_0_0_1 : ScatterDims S80000x32 S1360000x1 S1360000x32 where
  updateWindowDims := [1]
  insertedWindowDims := [0]
  scatterDimsToOperandDims := [0]
  indexVectorDim := 1
  wf := scatter_S80000x32_S1360000x1_S1360000x32_1_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S8000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S8000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S80000x64 : Shape := ⟨2, ![80000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1280000 : Shape := ⟨2, ![2, 1280000]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S1360000x64 : Shape := ⟨2, ![1360000, 64]⟩
abbrev S1x64 : Shape := ⟨2, ![1, 64]⟩
abbrev S80000x32 : Shape := ⟨2, ![80000, 32]⟩
abbrev S1360000x32 : Shape := ⟨2, ![1360000, 32]⟩
abbrev S1x32 : Shape := ⟨2, ![1, 32]⟩

abbrev nBuf : Space → Nat
  | .hbm => 210
  | .vmem => 0
  | .smem => 0
  | _ => 0

abbrev hbmTy0_0 (i : Nat) : BufTy := match i % 128 with
  | 0 => ⟨S80000x64, .f32⟩
  | 1 => ⟨S64x64, .f32⟩
  | 2 => ⟨S64, .f32⟩
  | 3 => ⟨S64x64, .f32⟩
  | 4 => ⟨S64, .f32⟩
  | 5 => ⟨S64x32, .f32⟩
  | 6 => ⟨S32, .f32⟩
  | 7 => ⟨S2x1280000, .i32⟩
  | 8 => ⟨S1x1280000, .i32⟩
  | 9 => ⟨S1280000, .i32⟩
  | 10 => ⟨S1x1280000, .i32⟩
  | 11 => ⟨S1280000, .i32⟩
  | 12 => ⟨S80000x64, .f32⟩
  | 13 => ⟨S80000, .i32⟩
  | 14 => ⟨S1360000, .i32⟩
  | 15 => ⟨S1360000, .i32⟩
  | 16 => ⟨S_, .f32⟩
  | 17 => ⟨S1360000, .f32⟩
  | 18 => ⟨S_, .f32⟩
  | 19 => ⟨S80000, .f32⟩
  | 20 => ⟨S1360000x1, .i32⟩
  | 21 => ⟨S80000, .f32⟩
  | 22 => ⟨S_, .f32⟩
  | 23 => ⟨S80000, .f32⟩
  | 24 => ⟨S80000, .i1⟩
  | 25 => ⟨S80000, .f32⟩
  | 26 => ⟨S_, .f32⟩
  | 27 => ⟨S_, .f32⟩
  | 28 => ⟨S80000, .f32⟩
  | 29 => ⟨S80000, .f32⟩
  | 30 => ⟨S_, .i32⟩
  | 31 => ⟨S1360000, .i32⟩
  | 32 => ⟨S1360000, .i1⟩
  | 33 => ⟨S_, .i32⟩
  | 34 => ⟨S1360000, .i32⟩
  | 35 => ⟨S1360000, .i32⟩
  | 36 => ⟨S1360000, .i32⟩
  | 37 => ⟨S1360000x1, .i32⟩
  | 38 => ⟨S1360000, .f32⟩
  | 39 => ⟨S_, .i32⟩
  | 40 => ⟨S1360000, .i32⟩
  | 41 => ⟨S1360000, .i1⟩
  | 42 => ⟨S_, .i32⟩
  | 43 => ⟨S1360000, .i32⟩
  | 44 => ⟨S1360000, .i32⟩
  | 45 => ⟨S1360000, .i32⟩
  | 46 => ⟨S1360000x1, .i32⟩
  | 47 => ⟨S1360000, .f32⟩
  | 48 => ⟨S1360000, .f32⟩
  | 49 => ⟨S_, .i32⟩
  | 50 => ⟨S1360000, .i32⟩
  | 51 => ⟨S1360000, .i1⟩
  | 52 => ⟨S_, .i32⟩
  | 53 => ⟨S1360000, .i32⟩
  | 54 => ⟨S1360000, .i32⟩
  | 55 => ⟨S1360000, .i32⟩
  | 56 => ⟨S1360000x1, .i32⟩
  | 57 => ⟨S1360000x64, .f32⟩
  | 58 => ⟨S1360000x1, .f32⟩
  | 59 => ⟨S1360000x64, .f32⟩
  | 60 => ⟨S1360000x64, .f32⟩
  | 61 => ⟨S_, .f32⟩
  | 62 => ⟨S80000x64, .f32⟩
  | 63 => ⟨S1360000x1, .i32⟩
  | 64 => ⟨S80000x64, .f32⟩
  | 65 => ⟨S1x64, .f32⟩
  | 66 => ⟨S80000x64, .f32⟩
  | 67 => ⟨S80000x64, .f32⟩
  | 68 => ⟨S_, .f32⟩
  | 69 => ⟨S80000x64, .f32⟩
  | 70 => ⟨S80000x64, .i1⟩
  | 71 => ⟨S_, .f32⟩
  | 72 => ⟨S80000x64, .f32⟩
  | 73 => ⟨S80000x64, .i1⟩
  | 74 => ⟨S_, .f32⟩
  | 75 => ⟨S_, .f32⟩
  | 76 => ⟨S80000x64, .f32⟩
  | 77 => ⟨S80000x64, .f32⟩
  | 78 => ⟨S80000x64, .f32⟩
  | 79 => ⟨S_, .f32⟩
  | 80 => ⟨S80000x64, .f32⟩
  | 81 => ⟨S80000x64, .f32⟩
  | 82 => ⟨S80000x64, .f32⟩
  | 83 => ⟨S80000x64, .f32⟩
  | 84 => ⟨S80000, .i32⟩
  | 85 => ⟨S1360000, .i32⟩
  | 86 => ⟨S1360000, .i32⟩
  | 87 => ⟨S_, .f32⟩
  | 88 => ⟨S1360000, .f32⟩
  | 89 => ⟨S_, .f32⟩
  | 90 => ⟨S80000, .f32⟩
  | 91 => ⟨S1360000x1, .i32⟩
  | 92 => ⟨S80000, .f32⟩
  | 93 => ⟨S_, .f32⟩
  | 94 => ⟨S80000, .f32⟩
  | 95 => ⟨S80000, .i1⟩
  | 96 => ⟨S80000, .f32⟩
  | 97 => ⟨S_, .f32⟩
  | 98 => ⟨S_, .f32⟩
  | 99 => ⟨S80000, .f32⟩
  | 100 => ⟨S80000, .f32⟩
  | 101 => ⟨S_, .i32⟩
  | 102 => ⟨S1360000, .i32⟩
  | 103 => ⟨S1360000, .i1⟩
  | 104 => ⟨S_, .i32⟩
  | 105 => ⟨S1360000, .i32⟩
  | 106 => ⟨S1360000, .i32⟩
  | 107 => ⟨S1360000, .i32⟩
  | 108 => ⟨S1360000x1, .i32⟩
  | 109 => ⟨S1360000, .f32⟩
  | 110 => ⟨S_, .i32⟩
  | 111 => ⟨S1360000, .i32⟩
  | 112 => ⟨S1360000, .i1⟩
  | 113 => ⟨S_, .i32⟩
  | 114 => ⟨S1360000, .i32⟩
  | 115 => ⟨S1360000, .i32⟩
  | 116 => ⟨S1360000, .i32⟩
  | 117 => ⟨S1360000x1, .i32⟩
  | 118 => ⟨S1360000, .f32⟩
  | 119 => ⟨S1360000, .f32⟩
  | 120 => ⟨S_, .i32⟩
  | 121 => ⟨S1360000, .i32⟩
  | 122 => ⟨S1360000, .i1⟩
  | 123 => ⟨S_, .i32⟩
  | 124 => ⟨S1360000, .i32⟩
  | 125 => ⟨S1360000, .i32⟩
  | 126 => ⟨S1360000, .i32⟩
  | 127 => ⟨S1360000x1, .i32⟩
  | _ => ⟨S80000x64, .f32⟩

abbrev hbmTy0_1 (i : Nat) : BufTy := match i % 128 with
  | 0 => ⟨S1360000x64, .f32⟩
  | 1 => ⟨S1360000x1, .f32⟩
  | 2 => ⟨S1360000x64, .f32⟩
  | 3 => ⟨S1360000x64, .f32⟩
  | 4 => ⟨S_, .f32⟩
  | 5 => ⟨S80000x64, .f32⟩
  | 6 => ⟨S1360000x1, .i32⟩
  | 7 => ⟨S80000x64, .f32⟩
  | 8 => ⟨S1x64, .f32⟩
  | 9 => ⟨S80000x64, .f32⟩
  | 10 => ⟨S80000x64, .f32⟩
  | 11 => ⟨S_, .f32⟩
  | 12 => ⟨S80000x64, .f32⟩
  | 13 => ⟨S80000x64, .i1⟩
  | 14 => ⟨S_, .f32⟩
  | 15 => ⟨S80000x64, .f32⟩
  | 16 => ⟨S80000x64, .i1⟩
  | 17 => ⟨S_, .f32⟩
  | 18 => ⟨S_, .f32⟩
  | 19 => ⟨S80000x64, .f32⟩
  | 20 => ⟨S80000x64, .f32⟩
  | 21 => ⟨S80000x64, .f32⟩
  | 22 => ⟨S_, .f32⟩
  | 23 => ⟨S80000x64, .f32⟩
  | 24 => ⟨S80000x64, .f32⟩
  | 25 => ⟨S80000x64, .f32⟩
  | 26 => ⟨S80000x32, .f32⟩
  | 27 => ⟨S80000, .i32⟩
  | 28 => ⟨S1360000, .i32⟩
  | 29 => ⟨S1360000, .i32⟩
  | 30 => ⟨S_, .f32⟩
  | 31 => ⟨S1360000, .f32⟩
  | 32 => ⟨S_, .f32⟩
  | 33 => ⟨S80000, .f32⟩
  | 34 => ⟨S1360000x1, .i32⟩
  | 35 => ⟨S80000, .f32⟩
  | 36 => ⟨S_, .f32⟩
  | 37 => ⟨S80000, .f32⟩
  | 38 => ⟨S80000, .i1⟩
  | 39 => ⟨S80000, .f32⟩
  | 40 => ⟨S_, .f32⟩
  | 41 => ⟨S_, .f32⟩
  | 42 => ⟨S80000, .f32⟩
  | 43 => ⟨S80000, .f32⟩
  | 44 => ⟨S_, .i32⟩
  | 45 => ⟨S1360000, .i32⟩
  | 46 => ⟨S1360000, .i1⟩
  | 47 => ⟨S_, .i32⟩
  | 48 => ⟨S1360000, .i32⟩
  | 49 => ⟨S1360000, .i32⟩
  | 50 => ⟨S1360000, .i32⟩
  | 51 => ⟨S1360000x1, .i32⟩
  | 52 => ⟨S1360000, .f32⟩
  | 53 => ⟨S_, .i32⟩
  | 54 => ⟨S1360000, .i32⟩
  | 55 => ⟨S1360000, .i1⟩
  | 56 => ⟨S_, .i32⟩
  | 57 => ⟨S1360000, .i32⟩
  | 58 => ⟨S1360000, .i32⟩
  | 59 => ⟨S1360000, .i32⟩
  | 60 => ⟨S1360000x1, .i32⟩
  | 61 => ⟨S1360000, .f32⟩
  | 62 => ⟨S1360000, .f32⟩
  | 63 => ⟨S_, .i32⟩
  | 64 => ⟨S1360000, .i32⟩
  | 65 => ⟨S1360000, .i1⟩
  | 66 => ⟨S_, .i32⟩
  | 67 => ⟨S1360000, .i32⟩
  | 68 => ⟨S1360000, .i32⟩
  | 69 => ⟨S1360000, .i32⟩
  | 70 => ⟨S1360000x1, .i32⟩
  | 71 => ⟨S1360000x32, .f32⟩
  | 72 => ⟨S1360000x1, .f32⟩
  | 73 => ⟨S1360000x32, .f32⟩
  | 74 => ⟨S1360000x32, .f32⟩
  | 75 => ⟨S_, .f32⟩
  | 76 => ⟨S80000x32, .f32⟩
  | 77 => ⟨S1360000x1, .i32⟩
  | 78 => ⟨S80000x32, .f32⟩
  | 79 => ⟨S1x32, .f32⟩
  | 80 => ⟨S80000x32, .f32⟩
  | 81 => ⟨S80000x32, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_cst_1 : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_v4 : Ref sig .tc := ⟨.hbm, 77, rfl⟩
abbrev main_call1_v5 : Ref sig .tc := ⟨.hbm, 78, rfl⟩
abbrev main_call1_cst_2 : Ref sig .tc := ⟨.hbm, 79, rfl⟩
abbrev main_call1_v6 : Ref sig .tc := ⟨.hbm, 80, rfl⟩
abbrev main_call1_v7 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_cst_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_c_14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_15 : Ref sig .tc := ⟨.hbm, 110, rfl⟩
abbrev main_v67 : Ref sig .tc := ⟨.hbm, 111, rfl⟩
abbrev main_v68 : Ref sig .tc := ⟨.hbm, 112, rfl⟩
abbrev main_c_16 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_c_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_19 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_cst_1 : Ref sig .tc := ⟨.hbm, 145, rfl⟩
abbrev main_call3_call0_v0 : Ref sig .tc := ⟨.hbm, 146, rfl⟩
abbrev main_call3_call0_v1 : Ref sig .tc := ⟨.hbm, 147, rfl⟩
abbrev main_call3_v4 : Ref sig .tc := ⟨.hbm, 148, rfl⟩
abbrev main_call3_v5 : Ref sig .tc := ⟨.hbm, 149, rfl⟩
abbrev main_call3_cst_2 : Ref sig .tc := ⟨.hbm, 150, rfl⟩
abbrev main_call3_v6 : Ref sig .tc := ⟨.hbm, 151, rfl⟩
abbrev main_call3_v7 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_20 : Ref sig .tc := ⟨.hbm, 158, rfl⟩
abbrev main_v96 : Ref sig .tc := ⟨.hbm, 159, rfl⟩
abbrev main_cst_21 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_22 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_23 : Ref sig .tc := ⟨.hbm, 168, rfl⟩
abbrev main_call4_v0 : Ref sig .tc := ⟨.hbm, 169, rfl⟩
abbrev main_call4_v1 : Ref sig .tc := ⟨.hbm, 170, rfl⟩
abbrev main_v103 : Ref sig .tc := ⟨.hbm, 171, rfl⟩
abbrev main_c_24 : Ref sig .tc := ⟨.hbm, 172, rfl⟩
abbrev main_v104 : Ref sig .tc := ⟨.hbm, 173, rfl⟩
abbrev main_v105 : Ref sig .tc := ⟨.hbm, 174, rfl⟩
abbrev main_c_25 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_c_26 : Ref sig .tc := ⟨.hbm, 181, rfl⟩
abbrev main_v111 : Ref sig .tc := ⟨.hbm, 182, rfl⟩
abbrev main_v112 : Ref sig .tc := ⟨.hbm, 183, rfl⟩
abbrev main_c_27 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_28 : Ref sig .tc := ⟨.hbm, 191, rfl⟩
abbrev main_v119 : Ref sig .tc := ⟨.hbm, 192, rfl⟩
abbrev main_v120 : Ref sig .tc := ⟨.hbm, 193, rfl⟩
abbrev main_c_29 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_cst_30 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S1360000x1_S1360000x32_0_1 : S1360000x1.BroadcastsInDim S1360000x32 (![0, 1] : Fin 2 → Fin S1360000x32.rank)
  bcast_S_S80000x32 : S_.BroadcastsInDim S80000x32 (![] : Fin 0 → Fin S80000x32.rank)
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  dot_S80000x64_S64x64_S80000x64_1_0_0_1_n_n_wf : DotDims.WF S80000x64 S64x64 S80000x64 [1] [0] [0] [1] [] []
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  dot_S80000x64_S64x32_S80000x32_1_0_0_1_n_n_wf : DotDims.WF S80000x64 S64x32 S80000x32 [1] [0] [0] [1] [] []
  gather_S80000x32_S1360000x1_S1360000x32_1_0_n_n_0_1_132_wf : GatherDims.WF S80000x32 S1360000x1 S1360000x32 [1] [0] [] [0] [] 1 ![1, 32]
  scatter_S80000x32_S1360000x1_S1360000x32_1_0_0_1_wf : ScatterDims.WF S80000x32 S1360000x1 S1360000x32 [1] [0] [0] 1

variable [Facts₀]

def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def dot_S80000x64_S64x32_S80000x32_1_0_0_1_n_n : DotDims S80000x64 S64x32 S80000x32 where
  lhsContracting := [1]
  rhsContracting := [0]
  lhsNonContracting := [0]
  rhsNonContracting := [1]
  lhsBatch := []
  rhsBatch := []
  wf := dot_S80000x64_S64x32_S80000x32_1_0_0_1_n_n_wf
def gather_S80000x32_S1360000x1_S1360000x32_1_0_n_n_0_1_132 : GatherDims S80000x32 S1360000x1 S1360000x32 where
  offsetDims := [1]
  collapsedSliceDims := [0]
  operandBatchingDims := []
  startIndicesBatchingDims := []
  startIndexMap := [0]
  indexVectorDim := 1
  sliceSizes := ![1, 32]
  wf := gather_S80000x32_S1360000x1_S1360000x32_1_0_n_n_0_1_132_wf
def scatter_S80000x32_S1360000x1_S1360000x32_1_0_0_1 : ScatterDims S80000x32 S1360000x1 S1360000x32 where
  updateWindowDims := [1]
  insertedWindowDims := [0]
  scatterDimsToOperandDims := [0]
  indexVectorDim := 1
  wf := scatter_S80000x32_S1360000x1_S1360000x32_1_0_0_1_wf

class Facts : Prop extends Facts₀ where

variable [Facts]
-- ==== Proof.KernelFrames.lean ====
/-
  The kernel's two frame claims and the idealization claim.

  The word-level kernel and its idealization are the same text read at two instances: six tiled regions (three dense
  products, three bias additions, two of them followed by the exponential linear unit) among the host's gathers and
  scatter-additions. Each terminates without a fault and leaves its eight argument arrays as launched - the generated
  frame certificate of the several-region program. The ideal pass rewrote no operation, so there is nothing to preserve.
-/
import proofs.«104014_j18554258719469_1_alg».proof.Defs
import proofs.«104014_j18554258719469_1_alg».proof.Proof.Gen.Kernel.Frame
import proofs.«104014_j18554258719469_1_alg».proof.Proof.Gen.KernelIdeal.Frame
import proofs.«104014_j18554258719469_1_alg».proof.Proof.Gen.Pre_finite_inputs

noncomputable section

namespace Cert.Proof.Parts

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The ideal pass's ledger is empty. -/
theorem preserves : Cert.preserves_Kernel_KernelIdeal := trivial

end Cert.Proof.Parts

end
-- ==== Proof.RefOps.lean ====
/-
  The reference computation as one straight line of array operations.

  The reference is a three-layer graph convolution. A layer multiplies the node features by its weights,
  gathers for every edge the source node's row, scales it by the edge's weight 1/sqrt(deg src) · 1/sqrt(deg dst),
  sums the scaled rows into the target nodes, and adds the bias; the first two layers end in the exponential
  linear unit. The auxiliary functions the program calls (a three-way choice, the exponential linear unit, which
  itself calls two three-way choices) are written out here at the places where they are called, each operation
  over the buffers that call owns. The line is cut into stretches at the places where few intermediate arrays
  are still needed afterwards; the whole line is their concatenation.
-/
import proofs.«104014_j18554258719469_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- Layer 1, the two rows of the edge array flattened, the first layer's product of the features with its weights, and the source and target index vectors (each row followed by 0 … 79999, the self loops). -/
abbrev prep1 : List (HloOp τ sig (Elt F)) :=
  [ StableHlo.unary main_arg7 main_v0 ((extractStridedSlice S1x1280000 ![0, 0] · slices_S2x1280000_S1x1280000_0_0) : (⟨S2x1280000, .i32⟩ : BufTy).Contents (Elt F) → (⟨S1x1280000, .i32⟩ : BufTy).Contents (Elt F)),
    StableHlo.reshape main_v0 main_v1 rfl shapeCasts_S1x1280000_S1280000,
    StableHlo.unary main_arg7 main_v2 ((extractStridedSlice S1x1280000 ![1, 0] · slices_S2x1280000_S1x1280000_1_0) : (⟨S2x1280000, .i32⟩ : BufTy).Contents (Elt F) → (⟨S1x1280000, .i32⟩ : BufTy).Contents (Elt F)),
    StableHlo.reshape main_v2 main_v3 rfl shapeCasts_S1x1280000_S1280000,
    StableHlo.binary main_arg0 main_arg1 main_v4 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    StableHlo.nullary main_v5 (iotaInDim S80000 32 0),
    StableHlo.binary main_v1 main_v5 main_v6 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)),
    StableHlo.binary main_v3 main_v5 main_v7 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)) ]

/-- Layer 1, the degree of every node: ones summed into the node named by each target index. -/
abbrev deg1 : List (HloOp τ sig (Elt F)) :=
  [ StableHlo.nullary main_cst (constant S_ .f32 0x3F800000#32),
    StableHlo.unary main_cst main_v8 (broadcastInDim S1360000 ![] bcast_S_S1360000 : (⟨S_, .f32⟩ : BufTy).Contents (Elt F) → (⟨S1360000, .f32⟩ : BufTy).Contents (Elt F)),
    StableHlo.nullary main_cst_0 (constant S_ .f32 0x00000000#32),
    StableHlo.unary main_cst_0 main_v9 (broadcastInDim S80000 ![] bcast_S_S80000 : (⟨S_, .f32⟩ : BufTy).Contents (Elt F) → (⟨S80000, .f32⟩ : BufTy).Contents (Elt F)),
    StableHlo.unary main_v7 main_v10 (broadcastInDim S1360000x1 ![0] bcast_S1360000_S1360000x1_0 : (⟨S1360000, .i32⟩ : BufTy).Contents (Elt F) → (⟨S1360000x1, .i32⟩ : BufTy).Contents (Elt F)),
    StableHlo.ternary main_v9 main_v10 main_v8 main_v11 ((fun x i u => Host.scatterAdd scatter_S80000_S1360000x1_S1360000_n_0_0_1 x i u) : (⟨S80000, .f32⟩ : BufTy).Contents (Elt F) → (⟨S1360000x1, .i32⟩ : BufTy).Contents (Elt F) → (⟨S1360000, .f32⟩ : BufTy).Contents (Elt F) → (⟨S80000, .f32⟩ : BufTy).Contents (Elt F)) ]

/-- Layer 1, the inverse square root of the degree where the degree is positive, zero elsewhere. -/
abbrev dinv1 : List (HloOp τ sig (Elt F)) :=
  [ StableHlo.nullary main_cst_1 (constant S_ .f32 0x00000000#32),
    StableHlo.unary main_cst_1 main_v12 (broadcastInDim S80000 ![] bcast_S_S80000 : (⟨S_, .f32⟩ : BufTy).Contents (Elt F) → (⟨S80000, .f32⟩ : BufTy).Contents (Elt F)),
    StableHlo.binary main_v11 main_v12 main_v13 (cmpf .ogt : (⟨S80000, .f32⟩ : BufTy).Contents (Elt F) → (⟨S80000, .f32⟩ : BufTy).Contents (Elt F) → (⟨S80000, .i1⟩ : BufTy).Contents (Elt F)),
    StableHlo.unary main_v11 main_v14 (Host.rsqrt : (⟨S80000, .f32⟩ : BufTy).Contents (Elt F) → (⟨S80000, .f32⟩ : BufTy).Contents (Elt F)),
    StableHlo.nullary main_cst_2 (constant S_ .f32 0x00000000#32),
    StableHlo.TRef.unary (StableHlo.TRef.of main_cst_2 : StableHlo.TRef sig ⟨S_, .f32⟩) main_call0.v0 id,
    StableHlo.TRef.unary main_call0.v0 main_call0.v1 (broadcastInDim S80000 ![] bcast_S_S80000),
    StableHlo.TRef.ternary (StableHlo.TRef.of main_v13 : StableHlo.TRef sig ⟨S80000, .i1⟩) (StableHlo.TRef.of main_v14 : StableHlo.TRef sig ⟨S80000, .f32⟩) main_call0.v1 main_call0.v2 select ]

/-- Layer 1, the weight of every edge: the product of that quantity at its source and at its target (a negative index counted from the end). -/
abbrev norm1 : List (HloOp τ sig (Elt F)) :=
  [ StableHlo.nullary main_c (constantI S_ 32 0#32),
    StableHlo.unary main_c main_v16 (broadcastInDim S1360000 ![] bcast_S_S1360000 : (⟨S_, .i32⟩ : BufTy).Contents (Elt F) → (⟨S1360000, .i32⟩ : BufTy).Contents (Elt F)),
    StableHlo.binary main_v6 main_v16 main_v17 (cmpi .slt : (⟨S1360000, .i32⟩ : BufTy).Contents (Elt F) → (⟨S1360000, .i32⟩ : BufTy).Contents (Elt F) → (⟨S1360000, .i1⟩ : BufTy).Contents (Elt F)),
    StableHlo.nullary main_c_3 (constantI S_ 32 80000#32),
    StableHlo.unary main_c_3 main_v18 (broadcastInDim S1360000 ![] bcast_S_S1360000 : (⟨S_, .i32⟩ : BufTy).Contents (Elt F) → (⟨S1360000, .i32⟩ : BufTy).Contents (Elt F)),
    StableHlo.binary main_v6 main_v18 main_v19 (addi : (⟨S1360000, .i32⟩ : BufTy).Contents (Elt F) → (⟨S1360000, .i32⟩ : BufTy).Contents (Elt F) → (⟨S1360000, .i32⟩ : BufTy).Contents (Elt F)),
    StableHlo.ternary main_v17 main_v19 main_v6 main_v20 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v20 main_v21 (broadcastInDim S1360000x1 ![0] bcast_S1360000_S1360000x1_0 : (⟨S1360000, .i32⟩ : BufTy).Contents (Elt F) → (⟨S1360000x1, .i32⟩ : BufTy).Contents (Elt F)),
    StableHlo.binary main_v15 main_v21 main_v22 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.nullary main_c_4 (constantI S_ 32 0#32),
    StableHlo.unary main_c_4 main_v23 (broadcastInDim S1360000 ![] bcast_S_S1360000 : (⟨S_, .i32⟩ : BufTy).Contents (Elt F) → (⟨S1360000, .i32⟩ : BufTy).Contents (Elt F)),
    StableHlo.binary main_v7 main_v23 main_v24 (cmpi .slt : (⟨S1360000, .i32⟩ : BufTy).Contents (Elt F) → (⟨S1360000, .i32⟩ : BufTy).Contents (Elt F) → (⟨S1360000, .i1⟩ : BufTy).Contents (Elt F)),
    StableHlo.nullary main_c_5 (constantI S_ 32 80000#32),
    StableHlo.unary main_c_5 main_v25 (broadcastInDim S1360000 ![] bcast_S_S1360000 : (⟨S_, .i32⟩ : BufTy).Contents (Elt F) → (⟨S1360000, .i32⟩ : BufTy).Contents (Elt F)),
    StableHlo.binary main_v7 main_v25 main_v26 (addi : (⟨S1360000, .i32⟩ : BufTy).Contents (Elt F) → (⟨S1360000, .i32⟩ : BufTy).Contents (Elt F) → (⟨S1360000, .i32⟩ : BufTy).Contents (Elt F)),
    StableHlo.ternary main_v24 main_v26 main_v7 main_v27 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v27 main_v28 (broadcastInDim S1360000x1 ![0] bcast_S1360000_S1360000x1_0 : (⟨S1360000, .i32⟩ : BufTy).Contents (Elt F) → (⟨S1360000x1, .i32⟩ : BufTy).Contents (Elt F)),
    StableHlo.binary main_v15 main_v28 main_v29 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.binary main_v22 main_v29 main_v30 (mulf : (⟨S1360000, .f32⟩ : BufTy).Contents (Elt F) → (⟨S1360000, .f32⟩ : BufTy).Contents (Elt F) → (⟨S1360000, .f32⟩ : BufTy).Contents (Elt F)) ]

/-- Layer 1, the aggregation: every edge's source row, times the edge's weight, summed into its target row. -/
abbrev agg1 : List (HloOp τ sig (Elt F)) :=
  [ StableHlo.nullary main_c_6 (constantI S_ 32 0#32),
    StableHlo.unary main_c_6 main_v31 (broadcastInDim S1360000 ![] bcast_S_S1360000 : (⟨S_, .i32⟩ : BufTy).Contents (Elt F) → (⟨S1360000, .i32⟩ : BufTy).Contents (Elt F)),
    StableHlo.binary main_v6 main_v31 main_v32 (cmpi .slt : (⟨S1360000, .i32⟩ : BufTy).Contents (Elt F) → (⟨S1360000, .i32⟩ : BufTy).Contents (Elt F) → (⟨S1360000, .i1⟩ : BufTy).Contents (Elt F)),
    StableHlo.nullary main_c_7 (constantI S_ 32 80000#32),
    StableHlo.unary main_c_7 main_v33 (broadcastInDim S1360000 ![] bcast_S_S1360000 : (⟨S_, .i32⟩ : BufTy).Contents (Elt F) → (⟨S1360000, .i32⟩ : BufTy).Contents (Elt F)),
    StableHlo.binary main_v6 main_v33 main_v34 (addi : (⟨S1360000, .i32⟩ : BufTy).Contents (Elt F) → (⟨S1360000, .i32⟩ : BufTy).Contents (Elt F) → (⟨S1360000, .i32⟩ : BufTy).Contents (Elt F)),
    StableHlo.ternary main_v32 main_v34 main_v6 main_v35 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v35 main_v36 (broadcastInDim S1360000x1 ![0] bcast_S1360000_S1360000x1_0 : (⟨S1360000, .i32⟩ : BufTy).Contents (Elt F) → (⟨S1360000x1, .i32⟩ : BufTy).Contents (Elt F)),
    StableHlo.binary main_v4 main_v36 main_v37 ((fun x i => Host.gather gather_S80000x64_S1360000x1_S1360000x64_1_0_n_n_0_1_164 x i) : (⟨S80000x64, .f32⟩ : BufTy).Contents (Elt F) → (⟨S1360000x1, .i32⟩ : BufTy).Contents (Elt F) → (⟨S1360000x64, .f32⟩ : BufTy).Contents (Elt F)),
    StableHlo.unary main_v30 main_v38 (broadcastInDim S1360000x1 ![0] bcast_S1360000_S1360000x1_0 : (⟨S1360000, .f32⟩ : BufTy).Contents (Elt F) → (⟨S1360000x1, .f32⟩ : BufTy).Contents (Elt F)),
    StableHlo.unary main_v38 main_v39 (broadcastInDim S1360000x64 ![0, 1] bcast_S1360000x1_S1360000x64_0_1 : (⟨S1360000x1, .f32⟩ : BufTy).Contents (Elt F) → (⟨S1360000x64, .f32⟩ : BufTy).Contents (Elt F)),
    StableHlo.binary main_v37 main_v39 main_v40 (mulf : (⟨S1360000x64, .f32⟩ : BufTy).Contents (Elt F) → (⟨S1360000x64, .f32⟩ : BufTy).Contents (Elt F) → (⟨S1360000x64, .f32⟩ : BufTy).Contents (Elt F)),
    StableHlo.nullary main_cst_8 (constant S_ .f32 0x00000000#32),
    StableHlo.unary main_cst_8 main_v41 (broadcastInDim S80000x64 ![] bcast_S_S80000x64 : (⟨S_, .f32⟩ : BufTy).Contents (Elt F) → (⟨S80000x64, .f32⟩ : BufTy).Contents (Elt F)),
    StableHlo.unary main_v7 main_v42 (broadcastInDim S1360000x1 ![0] bcast_S1360000_S1360000x1_0 : (⟨S1360000, .i32⟩ : BufTy).Contents (Elt F) → (⟨S1360000x1, .i32⟩ : BufTy).Contents (Elt F)),
    StableHlo.ternary main_v41 main_v42 main_v40 main_v43 ((fun x i u => Host.scatterAdd scatter_S80000x64_S1360000x1_S1360000x64_1_0_0_1 x i u) : (⟨S80000x64, .f32⟩ : BufTy).Contents (Elt F) → (⟨S1360000x1, .i32⟩ : BufTy).Contents (Elt F) → (⟨S1360000x64, .f32⟩ : BufTy).Contents (Elt F) → (⟨S80000x64, .f32⟩ : BufTy).Contents (Elt F)) ]

/-- Layer 1, the bias added to every row. -/
abbrev bias1 : List (HloOp τ sig (Elt F)) :=
  [ StableHlo.unary main_arg2 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S80000x64 ![0, 1] bcast_S1x64_S80000x64_0_1 : (⟨S1x64, .f32⟩ : BufTy).Contents (Elt F) → (⟨S80000x64, .f32⟩ : BufTy).Contents (Elt F)),
    StableHlo.binary main_v43 main_v45 main_v46 (addf : (⟨S80000x64, .f32⟩ : BufTy).Contents (Elt F) → (⟨S80000x64, .f32⟩ : BufTy).Contents (Elt F) → (⟨S80000x64, .f32⟩ : BufTy).Contents (Elt F)) ]

/-- Layer 1, the exponential linear unit, entry by entry: the entry where it is positive, exp of it minus one elsewhere. -/
abbrev elu1 : List (HloOp τ sig (Elt F)) :=
  [ StableHlo.TRef.nullary main_call1.cst (constant S_ .f32 0x00000000#32),
    StableHlo.TRef.unary main_call1.cst main_call1.v0 (broadcastInDim S80000x64 ![] bcast_S_S80000x64),
    StableHlo.TRef.binary (StableHlo.TRef.of main_v46 : StableHlo.TRef sig ⟨S80000x64, .f32⟩) main_call1.v0 main_call1.v1 (cmpf .ogt),
    StableHlo.TRef.nullary main_call1.cst_0 (constant S_ .f32 0x00000000#32),
    StableHlo.TRef.unary main_call1.cst_0 main_call1.v2 (broadcastInDim S80000x64 ![] bcast_S_S80000x64),
    StableHlo.TRef.binary (StableHlo.TRef.of main_v46 : StableHlo.TRef sig ⟨S80000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S80000x64 ![] bcast_S_S80000x64),
    StableHlo.TRef.ternary main_call1.v3 main_call1.call0.v1 (StableHlo.TRef.of main_v46 : StableHlo.TRef sig ⟨S80000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S80000x64 ![] bcast_S_S80000x64),
    StableHlo.TRef.binary main_call1.v6 main_call1.v5 main_call1.v7 mulf,
    StableHlo.TRef.ternary main_call1.v1 (StableHlo.TRef.of main_v46 : StableHlo.TRef sig ⟨S80000x64, .f32⟩) main_call1.v7 main_call1.call1.v0 select ]

/-- Layer 2, the next layer's product of the activations with its weights. -/
abbrev dot2 : List (HloOp τ sig (Elt F)) :=
  [ StableHlo.binary main_v47 main_arg3 main_v48 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) ]

/-- Layer 2, the source and target index vectors again: each flattened row of the edge array followed by 0 … 79999. -/
abbrev idx2 : List (HloOp τ sig (Elt F)) :=
  [ StableHlo.nullary main_v49 (iotaInDim S80000 32 0),
    StableHlo.binary main_v1 main_v49 main_v50 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)),
    StableHlo.binary main_v3 main_v49 main_v51 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)) ]

/-- Layer 2, the degree of every node: ones summed into the node named by each target index. -/
abbrev deg2 : List (HloOp τ sig (Elt F)) :=
  [ StableHlo.nullary main_cst_9 (constant S_ .f32 0x3F800000#32),
    StableHlo.unary main_cst_9 main_v52 (broadcastInDim S1360000 ![] bcast_S_S1360000 : (⟨S_, .f32⟩ : BufTy).Contents (Elt F) → (⟨S1360000, .f32⟩ : BufTy).Contents (Elt F)),
    StableHlo.nullary main_cst_10 (constant S_ .f32 0x00000000#32),
    StableHlo.unary main_cst_10 main_v53 (broadcastInDim S80000 ![] bcast_S_S80000 : (⟨S_, .f32⟩ : BufTy).Contents (Elt F) → (⟨S80000, .f32⟩ : BufTy).Contents (Elt F)),
    StableHlo.unary main_v51 main_v54 (broadcastInDim S1360000x1 ![0] bcast_S1360000_S1360000x1_0 : (⟨S1360000, .i32⟩ : BufTy).Contents (Elt F) → (⟨S1360000x1, .i32⟩ : BufTy).Contents (Elt F)),
    StableHlo.ternary main_v53 main_v54 main_v52 main_v55 ((fun x i u => Host.scatterAdd scatter_S80000_S1360000x1_S1360000_n_0_0_1 x i u) : (⟨S80000, .f32⟩ : BufTy).Contents (Elt F) → (⟨S1360000x1, .i32⟩ : BufTy).Contents (Elt F) → (⟨S1360000, .f32⟩ : BufTy).Contents (Elt F) → (⟨S80000, .f32⟩ : BufTy).Contents (Elt F)) ]

/-- Layer 2, the inverse square root of the degree where the degree is positive, zero elsewhere. -/
abbrev dinv2 : List (HloOp τ sig (Elt F)) :=
  [ StableHlo.nullary main_cst_11 (constant S_ .f32 0x00000000#32),
    StableHlo.unary main_cst_11 main_v56 (broadcastInDim S80000 ![] bcast_S_S80000 : (⟨S_, .f32⟩ : BufTy).Contents (Elt F) → (⟨S80000, .f32⟩ : BufTy).Contents (Elt F)),
    StableHlo.binary main_v55 main_v56 main_v57 (cmpf .ogt : (⟨S80000, .f32⟩ : BufTy).Contents (Elt F) → (⟨S80000, .f32⟩ : BufTy).Contents (Elt F) → (⟨S80000, .i1⟩ : BufTy).Contents (Elt F)),
    StableHlo.unary main_v55 main_v58 (Host.rsqrt : (⟨S80000, .f32⟩ : BufTy).Contents (Elt F) → (⟨S80000, .f32⟩ : BufTy).Contents (Elt F)),
    StableHlo.nullary main_cst_12 (constant S_ .f32 0x00000000#32),
    StableHlo.TRef.unary (StableHlo.TRef.of main_cst_12 : StableHlo.TRef sig ⟨S_, .f32⟩) main_call2.v0 id,
    StableHlo.TRef.unary main_call2.v0 main_call2.v1 (broadcastInDim S80000 ![] bcast_S_S80000),
    StableHlo.TRef.ternary (StableHlo.TRef.of main_v57 : StableHlo.TRef sig ⟨S80000, .i1⟩) (StableHlo.TRef.of main_v58 : StableHlo.TRef sig ⟨S80000, .f32⟩) main_call2.v1 main_call2.v2 select ]

/-- Layer 2, the weight of every edge: the product of that quantity at its source and at its target (a negative index counted from the end). -/
abbrev norm2 : List (HloOp τ sig (Elt F)) :=
  [ StableHlo.nullary main_c_13 (constantI S_ 32 0#32),
    StableHlo.unary main_c_13 main_v60 (broadcastInDim S1360000 ![] bcast_S_S1360000 : (⟨S_, .i32⟩ : BufTy).Contents (Elt F) → (⟨S1360000, .i32⟩ : BufTy).Contents (Elt F)),
    StableHlo.binary main_v50 main_v60 main_v61 (cmpi .slt : (⟨S1360000, .i32⟩ : BufTy).Contents (Elt F) → (⟨S1360000, .i32⟩ : BufTy).Contents (Elt F) → (⟨S1360000, .i1⟩ : BufTy).Contents (Elt F)),
    StableHlo.nullary main_c_14 (constantI S_ 32 80000#32),
    StableHlo.unary main_c_14 main_v62 (broadcastInDim S1360000 ![] bcast_S_S1360000 : (⟨S_, .i32⟩ : BufTy).Contents (Elt F) → (⟨S1360000, .i32⟩ : BufTy).Contents (Elt F)),
    StableHlo.binary main_v50 main_v62 main_v63 (addi : (⟨S1360000, .i32⟩ : BufTy).Contents (Elt F) → (⟨S1360000, .i32⟩ : BufTy).Contents (Elt F) → (⟨S1360000, .i32⟩ : BufTy).Contents (Elt F)),
    StableHlo.ternary main_v61 main_v63 main_v50 main_v64 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v64 main_v65 (broadcastInDim S1360000x1 ![0] bcast_S1360000_S1360000x1_0 : (⟨S1360000, .i32⟩ : BufTy).Contents (Elt F) → (⟨S1360000x1, .i32⟩ : BufTy).Contents (Elt F)),
    StableHlo.binary main_v59 main_v65 main_v66 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.nullary main_c_15 (constantI S_ 32 0#32),
    StableHlo.unary main_c_15 main_v67 (broadcastInDim S1360000 ![] bcast_S_S1360000 : (⟨S_, .i32⟩ : BufTy).Contents (Elt F) → (⟨S1360000, .i32⟩ : BufTy).Contents (Elt F)),
    StableHlo.binary main_v51 main_v67 main_v68 (cmpi .slt : (⟨S1360000, .i32⟩ : BufTy).Contents (Elt F) → (⟨S1360000, .i32⟩ : BufTy).Contents (Elt F) → (⟨S1360000, .i1⟩ : BufTy).Contents (Elt F)),
    StableHlo.nullary main_c_16 (constantI S_ 32 80000#32),
    StableHlo.unary main_c_16 main_v69 (broadcastInDim S1360000 ![] bcast_S_S1360000 : (⟨S_, .i32⟩ : BufTy).Contents (Elt F) → (⟨S1360000, .i32⟩ : BufTy).Contents (Elt F)),
    StableHlo.binary main_v51 main_v69 main_v70 (addi : (⟨S1360000, .i32⟩ : BufTy).Contents (Elt F) → (⟨S1360000, .i32⟩ : BufTy).Contents (Elt F) → (⟨S1360000, .i32⟩ : BufTy).Contents (Elt F)),
    StableHlo.ternary main_v68 main_v70 main_v51 main_v71 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v71 main_v72 (broadcastInDim S1360000x1 ![0] bcast_S1360000_S1360000x1_0 : (⟨S1360000, .i32⟩ : BufTy).Contents (Elt F) → (⟨S1360000x1, .i32⟩ : BufTy).Contents (Elt F)),
    StableHlo.binary main_v59 main_v72 main_v73 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.binary main_v66 main_v73 main_v74 (mulf : (⟨S1360000, .f32⟩ : BufTy).Contents (Elt F) → (⟨S1360000, .f32⟩ : BufTy).Contents (Elt F) → (⟨S1360000, .f32⟩ : BufTy).Contents (Elt F)) ]

/-- Layer 2, the aggregation: every edge's source row, times the edge's weight, summed into its target row. -/
abbrev agg2 : List (HloOp τ sig (Elt F)) :=
  [ StableHlo.nullary main_c_17 (constantI S_ 32 0#32),
    StableHlo.unary main_c_17 main_v75 (broadcastInDim S1360000 ![] bcast_S_S1360000 : (⟨S_, .i32⟩ : BufTy).Contents (Elt F) → (⟨S1360000, .i32⟩ : BufTy).Contents (Elt F)),
    StableHlo.binary main_v50 main_v75 main_v76 (cmpi .slt : (⟨S1360000, .i32⟩ : BufTy).Contents (Elt F) → (⟨S1360000, .i32⟩ : BufTy).Contents (Elt F) → (⟨S1360000, .i1⟩ : BufTy).Contents (Elt F)),
    StableHlo.nullary main_c_18 (constantI S_ 32 80000#32),
    StableHlo.unary main_c_18 main_v77 (broadcastInDim S1360000 ![] bcast_S_S1360000 : (⟨S_, .i32⟩ : BufTy).Contents (Elt F) → (⟨S1360000, .i32⟩ : BufTy).Contents (Elt F)),
    StableHlo.binary main_v50 main_v77 main_v78 (addi : (⟨S1360000, .i32⟩ : BufTy).Contents (Elt F) → (⟨S1360000, .i32⟩ : BufTy).Contents (Elt F) → (⟨S1360000, .i32⟩ : BufTy).Contents (Elt F)),
    StableHlo.ternary main_v76 main_v78 main_v50 main_v79 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v79 main_v80 (broadcastInDim S1360000x1 ![0] bcast_S1360000_S1360000x1_0 : (⟨S1360000, .i32⟩ : BufTy).Contents (Elt F) → (⟨S1360000x1, .i32⟩ : BufTy).Contents (Elt F)),
    StableHlo.binary main_v48 main_v80 main_v81 ((fun x i => Host.gather gather_S80000x64_S1360000x1_S1360000x64_1_0_n_n_0_1_164 x i) : (⟨S80000x64, .f32⟩ : BufTy).Contents (Elt F) → (⟨S1360000x1, .i32⟩ : BufTy).Contents (Elt F) → (⟨S1360000x64, .f32⟩ : BufTy).Contents (Elt F)),
    StableHlo.unary main_v74 main_v82 (broadcastInDim S1360000x1 ![0] bcast_S1360000_S1360000x1_0 : (⟨S1360000, .f32⟩ : BufTy).Contents (Elt F) → (⟨S1360000x1, .f32⟩ : BufTy).Contents (Elt F)),
    StableHlo.unary main_v82 main_v83 (broadcastInDim S1360000x64 ![0, 1] bcast_S1360000x1_S1360000x64_0_1 : (⟨S1360000x1, .f32⟩ : BufTy).Contents (Elt F) → (⟨S1360000x64, .f32⟩ : BufTy).Contents (Elt F)),
    StableHlo.binary main_v81 main_v83 main_v84 (mulf : (⟨S1360000x64, .f32⟩ : BufTy).Contents (Elt F) → (⟨S1360000x64, .f32⟩ : BufTy).Contents (Elt F) → (⟨S1360000x64, .f32⟩ : BufTy).Contents (Elt F)),
    StableHlo.nullary main_cst_19 (constant S_ .f32 0x00000000#32),
    StableHlo.unary main_cst_19 main_v85 (broadcastInDim S80000x64 ![] bcast_S_S80000x64 : (⟨S_, .f32⟩ : BufTy).Contents (Elt F) → (⟨S80000x64, .f32⟩ : BufTy).Contents (Elt F)),
    StableHlo.unary main_v51 main_v86 (broadcastInDim S1360000x1 ![0] bcast_S1360000_S1360000x1_0 : (⟨S1360000, .i32⟩ : BufTy).Contents (Elt F) → (⟨S1360000x1, .i32⟩ : BufTy).Contents (Elt F)),
    StableHlo.ternary main_v85 main_v86 main_v84 main_v87 ((fun x i u => Host.scatterAdd scatter_S80000x64_S1360000x1_S1360000x64_1_0_0_1 x i u) : (⟨S80000x64, .f32⟩ : BufTy).Contents (Elt F) → (⟨S1360000x1, .i32⟩ : BufTy).Contents (Elt F) → (⟨S1360000x64, .f32⟩ : BufTy).Contents (Elt F) → (⟨S80000x64, .f32⟩ : BufTy).Contents (Elt F)) ]

/-- Layer 2, the bias added to every row. -/
abbrev bias2 : List (HloOp τ sig (Elt F)) :=
  [ StableHlo.unary main_arg4 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S80000x64 ![0, 1] bcast_S1x64_S80000x64_0_1 : (⟨S1x64, .f32⟩ : BufTy).Contents (Elt F) → (⟨S80000x64, .f32⟩ : BufTy).Contents (Elt F)),
    StableHlo.binary main_v87 main_v89 main_v90 (addf : (⟨S80000x64, .f32⟩ : BufTy).Contents (Elt F) → (⟨S80000x64, .f32⟩ : BufTy).Contents (Elt F) → (⟨S80000x64, .f32⟩ : BufTy).Contents (Elt F)) ]

/-- Layer 2, the exponential linear unit, entry by entry: the entry where it is positive, exp of it minus one elsewhere. -/
abbrev elu2 : List (HloOp τ sig (Elt F)) :=
  [ StableHlo.TRef.nullary main_call3.cst (constant S_ .f32 0x00000000#32),
    StableHlo.TRef.unary main_call3.cst main_call3.v0 (broadcastInDim S80000x64 ![] bcast_S_S80000x64),
    StableHlo.TRef.binary (StableHlo.TRef.of main_v90 : StableHlo.TRef sig ⟨S80000x64, .f32⟩) main_call3.v0 main_call3.v1 (cmpf .ogt),
    StableHlo.TRef.nullary main_call3.cst_0 (constant S_ .f32 0x00000000#32),
    StableHlo.TRef.unary main_call3.cst_0 main_call3.v2 (broadcastInDim S80000x64 ![] bcast_S_S80000x64),
    StableHlo.TRef.binary (StableHlo.TRef.of main_v90 : StableHlo.TRef sig ⟨S80000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S80000x64 ![] bcast_S_S80000x64),
    StableHlo.TRef.ternary main_call3.v3 main_call3.call0.v1 (StableHlo.TRef.of main_v90 : StableHlo.TRef sig ⟨S80000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S80000x64 ![] bcast_S_S80000x64),
    StableHlo.TRef.binary main_call3.v6 main_call3.v5 main_call3.v7 mulf,
    StableHlo.TRef.ternary main_call3.v1 (StableHlo.TRef.of main_v90 : StableHlo.TRef sig ⟨S80000x64, .f32⟩) main_call3.v7 main_call3.call1.v0 select ]

/-- Layer 3, the next layer's product of the activations with its weights. -/
abbrev dot3 : List (HloOp τ sig (Elt F)) :=
  [ StableHlo.binary main_v91 main_arg5 main_v92 ((fun l r => Host.dotGeneral dot_S80000x64_S64x32_S80000x32_1_0_0_1_n_n none l r) : (⟨S80000x64, .f32⟩ : BufTy).Contents (Elt F) → (⟨S64x32, .f32⟩ : BufTy).Contents (Elt F) → (⟨S80000x32, .f32⟩ : BufTy).Contents (Elt F)) ]

/-- Layer 3, the source and target index vectors again: each flattened row of the edge array followed by 0 … 79999. -/
abbrev idx3 : List (HloOp τ sig (Elt F)) :=
  [ StableHlo.nullary main_v93 (iotaInDim S80000 32 0),
    StableHlo.binary main_v1 main_v93 main_v94 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)),
    StableHlo.binary main_v3 main_v93 main_v95 ((fun a b => concatenate S1360000 0 [⟨S1280000, a⟩, ⟨S80000, b⟩] concatenates_S1280000_S80000_S1360000_d0) : (⟨S1280000, .i32⟩ : BufTy).Contents (Elt F) → (⟨S80000, .i32⟩ : BufTy).Contents (Elt F) → (⟨S1360000, .i32⟩ : BufTy).Contents (Elt F)) ]

/-- Layer 3, the degree of every node: ones summed into the node named by each target index. -/
abbrev deg3 : List (HloOp τ sig (Elt F)) :=
  [ StableHlo.nullary main_cst_20 (constant S_ .f32 0x3F800000#32),
    StableHlo.unary main_cst_20 main_v96 (broadcastInDim S1360000 ![] bcast_S_S1360000 : (⟨S_, .f32⟩ : BufTy).Contents (Elt F) → (⟨S1360000, .f32⟩ : BufTy).Contents (Elt F)),
    StableHlo.nullary main_cst_21 (constant S_ .f32 0x00000000#32),
    StableHlo.unary main_cst_21 main_v97 (broadcastInDim S80000 ![] bcast_S_S80000 : (⟨S_, .f32⟩ : BufTy).Contents (Elt F) → (⟨S80000, .f32⟩ : BufTy).Contents (Elt F)),
    StableHlo.unary main_v95 main_v98 (broadcastInDim S1360000x1 ![0] bcast_S1360000_S1360000x1_0 : (⟨S1360000, .i32⟩ : BufTy).Contents (Elt F) → (⟨S1360000x1, .i32⟩ : BufTy).Contents (Elt F)),
    StableHlo.ternary main_v97 main_v98 main_v96 main_v99 ((fun x i u => Host.scatterAdd scatter_S80000_S1360000x1_S1360000_n_0_0_1 x i u) : (⟨S80000, .f32⟩ : BufTy).Contents (Elt F) → (⟨S1360000x1, .i32⟩ : BufTy).Contents (Elt F) → (⟨S1360000, .f32⟩ : BufTy).Contents (Elt F) → (⟨S80000, .f32⟩ : BufTy).Contents (Elt F)) ]

/-- Layer 3, the inverse square root of the degree where the degree is positive, zero elsewhere. -/
abbrev dinv3 : List (HloOp τ sig (Elt F)) :=
  [ StableHlo.nullary main_cst_22 (constant S_ .f32 0x00000000#32),
    StableHlo.unary main_cst_22 main_v100 (broadcastInDim S80000 ![] bcast_S_S80000 : (⟨S_, .f32⟩ : BufTy).Contents (Elt F) → (⟨S80000, .f32⟩ : BufTy).Contents (Elt F)),
    StableHlo.binary main_v99 main_v100 main_v101 (cmpf .ogt : (⟨S80000, .f32⟩ : BufTy).Contents (Elt F) → (⟨S80000, .f32⟩ : BufTy).Contents (Elt F) → (⟨S80000, .i1⟩ : BufTy).Contents (Elt F)),
    StableHlo.unary main_v99 main_v102 (Host.rsqrt : (⟨S80000, .f32⟩ : BufTy).Contents (Elt F) → (⟨S80000, .f32⟩ : BufTy).Contents (Elt F)),
    StableHlo.nullary main_cst_23 (constant S_ .f32 0x00000000#32),
    StableHlo.TRef.unary (StableHlo.TRef.of main_cst_23 : StableHlo.TRef sig ⟨S_, .f32⟩) main_call4.v0 id,
    StableHlo.TRef.unary main_call4.v0 main_call4.v1 (broadcastInDim S80000 ![] bcast_S_S80000),
    StableHlo.TRef.ternary (StableHlo.TRef.of main_v101 : StableHlo.TRef sig ⟨S80000, .i1⟩) (StableHlo.TRef.of main_v102 : StableHlo.TRef sig ⟨S80000, .f32⟩) main_call4.v1 main_call4.v2 select ]

/-- Layer 3, the weight of every edge: the product of that quantity at its source and at its target (a negative index counted from the end). -/
abbrev norm3 : List (HloOp τ sig (Elt F)) :=
  [ StableHlo.nullary main_c_24 (constantI S_ 32 0#32),
    StableHlo.unary main_c_24 main_v104 (broadcastInDim S1360000 ![] bcast_S_S1360000 : (⟨S_, .i32⟩ : BufTy).Contents (Elt F) → (⟨S1360000, .i32⟩ : BufTy).Contents (Elt F)),
    StableHlo.binary main_v94 main_v104 main_v105 (cmpi .slt : (⟨S1360000, .i32⟩ : BufTy).Contents (Elt F) → (⟨S1360000, .i32⟩ : BufTy).Contents (Elt F) → (⟨S1360000, .i1⟩ : BufTy).Contents (Elt F)),
    StableHlo.nullary main_c_25 (constantI S_ 32 80000#32),
    StableHlo.unary main_c_25 main_v106 (broadcastInDim S1360000 ![] bcast_S_S1360000 : (⟨S_, .i32⟩ : BufTy).Contents (Elt F) → (⟨S1360000, .i32⟩ : BufTy).Contents (Elt F)),
    StableHlo.binary main_v94 main_v106 main_v107 (addi : (⟨S1360000, .i32⟩ : BufTy).Contents (Elt F) → (⟨S1360000, .i32⟩ : BufTy).Contents (Elt F) → (⟨S1360000, .i32⟩ : BufTy).Contents (Elt F)),
    StableHlo.ternary main_v105 main_v107 main_v94 main_v108 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v108 main_v109 (broadcastInDim S1360000x1 ![0] bcast_S1360000_S1360000x1_0 : (⟨S1360000, .i32⟩ : BufTy).Contents (Elt F) → (⟨S1360000x1, .i32⟩ : BufTy).Contents (Elt F)),
    StableHlo.binary main_v103 main_v109 main_v110 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.nullary main_c_26 (constantI S_ 32 0#32),
    StableHlo.unary main_c_26 main_v111 (broadcastInDim S1360000 ![] bcast_S_S1360000 : (⟨S_, .i32⟩ : BufTy).Contents (Elt F) → (⟨S1360000, .i32⟩ : BufTy).Contents (Elt F)),
    StableHlo.binary main_v95 main_v111 main_v112 (cmpi .slt : (⟨S1360000, .i32⟩ : BufTy).Contents (Elt F) → (⟨S1360000, .i32⟩ : BufTy).Contents (Elt F) → (⟨S1360000, .i1⟩ : BufTy).Contents (Elt F)),
    StableHlo.nullary main_c_27 (constantI S_ 32 80000#32),
    StableHlo.unary main_c_27 main_v113 (broadcastInDim S1360000 ![] bcast_S_S1360000 : (⟨S_, .i32⟩ : BufTy).Contents (Elt F) → (⟨S1360000, .i32⟩ : BufTy).Contents (Elt F)),
    StableHlo.binary main_v95 main_v113 main_v114 (addi : (⟨S1360000, .i32⟩ : BufTy).Contents (Elt F) → (⟨S1360000, .i32⟩ : BufTy).Contents (Elt F) → (⟨S1360000, .i32⟩ : BufTy).Contents (Elt F)),
    StableHlo.ternary main_v112 main_v114 main_v95 main_v115 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v115 main_v116 (broadcastInDim S1360000x1 ![0] bcast_S1360000_S1360000x1_0 : (⟨S1360000, .i32⟩ : BufTy).Contents (Elt F) → (⟨S1360000x1, .i32⟩ : BufTy).Contents (Elt F)),
    StableHlo.binary main_v103 main_v116 main_v117 ((fun x i => Host.gather gather_S80000_S1360000x1_S1360000_n_0_n_n_0_1_1 x i) : (⟨S80000, .f32⟩ : BufTy).Contents (Elt F) → (⟨S1360000x1, .i32⟩ : BufTy).Contents (Elt F) → (⟨S1360000, .f32⟩ : BufTy).Contents (Elt F)),
    StableHlo.binary main_v110 main_v117 main_v118 (mulf : (⟨S1360000, .f32⟩ : BufTy).Contents (Elt F) → (⟨S1360000, .f32⟩ : BufTy).Contents (Elt F) → (⟨S1360000, .f32⟩ : BufTy).Contents (Elt F)) ]

/-- Layer 3, the aggregation: every edge's source row, times the edge's weight, summed into its target row. -/
abbrev agg3 : List (HloOp τ sig (Elt F)) :=
  [ StableHlo.nullary main_c_28 (constantI S_ 32 0#32),
    StableHlo.unary main_c_28 main_v119 (broadcastInDim S1360000 ![] bcast_S_S1360000 : (⟨S_, .i32⟩ : BufTy).Contents (Elt F) → (⟨S1360000, .i32⟩ : BufTy).Contents (Elt F)),
    StableHlo.binary main_v94 main_v119 main_v120 (cmpi .slt : (⟨S1360000, .i32⟩ : BufTy).Contents (Elt F) → (⟨S1360000, .i32⟩ : BufTy).Contents (Elt F) → (⟨S1360000, .i1⟩ : BufTy).Contents (Elt F)),
    StableHlo.nullary main_c_29 (constantI S_ 32 80000#32),
    StableHlo.unary main_c_29 main_v121 (broadcastInDim S1360000 ![] bcast_S_S1360000 : (⟨S_, .i32⟩ : BufTy).Contents (Elt F) → (⟨S1360000, .i32⟩ : BufTy).Contents (Elt F)),
    StableHlo.binary main_v94 main_v121 main_v122 (addi : (⟨S1360000, .i32⟩ : BufTy).Contents (Elt F) → (⟨S1360000, .i32⟩ : BufTy).Contents (Elt F) → (⟨S1360000, .i32⟩ : BufTy).Contents (Elt F)),
    StableHlo.ternary main_v120 main_v122 main_v94 main_v123 (select : (⟨S1360000, .i1⟩ : BufTy).Contents (Elt F) → (⟨S1360000, .i32⟩ : BufTy).Contents (Elt F) → (⟨S1360000, .i32⟩ : BufTy).Contents (Elt F) → (⟨S1360000, .i32⟩ : BufTy).Contents (Elt F)),
    StableHlo.unary main_v123 main_v124 (broadcastInDim S1360000x1 ![0] bcast_S1360000_S1360000x1_0 : (⟨S1360000, .i32⟩ : BufTy).Contents (Elt F) → (⟨S1360000x1, .i32⟩ : BufTy).Contents (Elt F)),
    StableHlo.binary main_v92 main_v124 main_v125 ((fun x i => Host.gather gather_S80000x32_S1360000x1_S1360000x32_1_0_n_n_0_1_132 x i) : (⟨S80000x32, .f32⟩ : BufTy).Contents (Elt F) → (⟨S1360000x1, .i32⟩ : BufTy).Contents (Elt F) → (⟨S1360000x32, .f32⟩ : BufTy).Contents (Elt F)),
    StableHlo.unary main_v118 main_v126 (broadcastInDim S1360000x1 ![0] bcast_S1360000_S1360000x1_0 : (⟨S1360000, .f32⟩ : BufTy).Contents (Elt F) → (⟨S1360000x1, .f32⟩ : BufTy).Contents (Elt F)),
    StableHlo.unary main_v126 main_v127 (broadcastInDim S1360000x32 ![0, 1] bcast_S1360000x1_S1360000x32_0_1 : (⟨S1360000x1, .f32⟩ : BufTy).Contents (Elt F) → (⟨S1360000x32, .f32⟩ : BufTy).Contents (Elt F)),
    StableHlo.binary main_v125 main_v127 main_v128 (mulf : (⟨S1360000x32, .f32⟩ : BufTy).Contents (Elt F) → (⟨S1360000x32, .f32⟩ : BufTy).Contents (Elt F) → (⟨S1360000x32, .f32⟩ : BufTy).Contents (Elt F)),
    StableHlo.nullary main_cst_30 (constant S_ .f32 0x00000000#32),
    StableHlo.unary main_cst_30 main_v129 (broadcastInDim S80000x32 ![] bcast_S_S80000x32 : (⟨S_, .f32⟩ : BufTy).Contents (Elt F) → (⟨S80000x32, .f32⟩ : BufTy).Contents (Elt F)),
    StableHlo.unary main_v95 main_v130 (broadcastInDim S1360000x1 ![0] bcast_S1360000_S1360000x1_0 : (⟨S1360000, .i32⟩ : BufTy).Contents (Elt F) → (⟨S1360000x1, .i32⟩ : BufTy).Contents (Elt F)),
    StableHlo.ternary main_v129 main_v130 main_v128 main_v131 ((fun x i u => Host.scatterAdd scatter_S80000x32_S1360000x1_S1360000x32_1_0_0_1 x i u) : (⟨S80000x32, .f32⟩ : BufTy).Contents (Elt F) → (⟨S1360000x1, .i32⟩ : BufTy).Contents (Elt F) → (⟨S1360000x32, .f32⟩ : BufTy).Contents (Elt F) → (⟨S80000x32, .f32⟩ : BufTy).Contents (Elt F)) ]

/-- Layer 3, the bias added to every row. -/
abbrev bias3 : List (HloOp τ sig (Elt F)) :=
  [ StableHlo.unary main_arg6 main_v132 (broadcastInDim S1x32 ![1] bcast_S32_S1x32_1 : (⟨S32, .f32⟩ : BufTy).Contents (Elt F) → (⟨S1x32, .f32⟩ : BufTy).Contents (Elt F)),
    StableHlo.unary main_v132 main_v133 (broadcastInDim S80000x32 ![0, 1] bcast_S1x32_S80000x32_0_1 : (⟨S1x32, .f32⟩ : BufTy).Contents (Elt F) → (⟨S80000x32, .f32⟩ : BufTy).Contents (Elt F)),
    StableHlo.binary main_v131 main_v133 main_v134 (addf : (⟨S80000x32, .f32⟩ : BufTy).Contents (Elt F) → (⟨S80000x32, .f32⟩ : BufTy).Contents (Elt F) → (⟨S80000x32, .f32⟩ : BufTy).Contents (Elt F)) ]

/-- The whole computation: the stretches in order. -/
abbrev ops : List (HloOp τ sig (Elt F)) :=
  prep1 ++ (deg1 ++ (dinv1 ++ (norm1 ++ (agg1 ++ (bias1 ++ (elu1 ++ (dot2 ++ (idx2 ++ (deg2 ++ (dinv2 ++ (norm2 ++ (agg2 ++ (bias2 ++ (elu2 ++ (dot3 ++ (idx3 ++ (deg3 ++ (dinv3 ++ (norm3 ++ (agg3 ++ (bias3)))))))))))))))))))))

end Cert.ReferenceIdeal.HandRun

end
-- ==== Proof.RefSub.lean ====
/-
  Every operation of the reference's line touches only buffers of the device it runs on, and every operation
  determines what it writes (none of them merely allocates): the two side conditions under which a straight line
  of array operations runs to the fold of its operations' results.
-/
import proofs.«104014_j18554258719469_1_alg».proof.Proof.RefOps

noncomputable section

namespace Cert.ReferenceIdeal.HandRun

open Cert.ReferenceIdeal Cert.ReferenceIdeal.Gen Idealize.ShloMosaic Idealize.ShloMosaic.TcCoe Idealize.SL.Sem

variable {F : FTy → Type} [FloatOps F]

theorem prep1_sub : (prep1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub ..⟩
theorem prep1_fresh : ∀ op ∈ (prep1 : List (HloOp τ sig (Elt F))), op.fresh = ∅ := by
  intro _ h; (repeat (cases h with | head => rfl | tail _ h => ?_)); exact nomatch h

theorem deg1_sub : (deg1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub ..⟩
theorem deg1_fresh : ∀ op ∈ (deg1 : List (HloOp τ sig (Elt F))), op.fresh = ∅ := by
  intro _ h; (repeat (cases h with | head => rfl | tail _ h => ?_)); exact nomatch h

theorem dinv1_sub : (dinv1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem dinv1_fresh : ∀ op ∈ (dinv1 : List (HloOp τ sig (Elt F))), op.fresh = ∅ := by
  intro _ h; (repeat (cases h with | head => rfl | tail _ h => ?_)); exact nomatch h

theorem norm1_sub : (norm1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem norm1_fresh : ∀ op ∈ (norm1 : List (HloOp τ sig (Elt F))), op.fresh = ∅ := by
  intro _ h; (repeat (cases h with | head => rfl | tail _ h => ?_)); exact nomatch h

theorem agg1_sub : (agg1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem agg1_fresh : ∀ op ∈ (agg1 : List (HloOp τ sig (Elt F))), op.fresh = ∅ := by
  intro _ h; (repeat (cases h with | head => rfl | tail _ h => ?_)); exact nomatch h

theorem bias1_sub : (bias1 : List (HloOp τ sig (Elt F))).Forall fun op => op.bufs ⊆ StableHlo.tcRefs τ sig :=
  ⟨StableHlo.unary_bufs_sub .., StableHlo.unary_bufs_sub .., StableHlo.binary_bufs_sub ..⟩
theorem bias1_fresh : ∀ op ∈ (bias1 : List (HloOp τ sig (Elt F))), op.fresh = ∅ := by
  intro _ h; (repeat (cases h with | head => rfl | tail _ h => ?_)); exact nomatch h

theorem elu1_sub : (elu1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem elu1_fresh : ∀ op ∈ (elu1 : List (HloOp τ sig (Elt F))), op.fresh = ∅ := by
  intro _ h; (repeat (cases h with | head => rfl | tail _ h => ?_)); exact nomatch h

theorem dot2_sub : (dot2 : List (HloOp τ sig (Elt F))).Forall fun op => op.bufs ⊆ StableHlo.tcRefs τ sig :=
  StableHlo.binary_bufs_sub ..
theorem dot2_fresh : ∀ op ∈ (dot2 : List (HloOp τ sig (Elt F))), op.fresh = ∅ := by
  intro _ h; (repeat (cases h with | head => rfl | tail _ h => ?_)); exact nomatch h

theorem idx2_sub : (idx2 : List (HloOp τ sig (Elt F))).Forall fun op => op.bufs ⊆ StableHlo.tcRefs τ sig :=
  ⟨StableHlo.nullary_bufs_sub .., StableHlo.binary_bufs_sub .., StableHlo.binary_bufs_sub ..⟩
theorem idx2_fresh : ∀ op ∈ (idx2 : List (HloOp τ sig (Elt F))), op.fresh = ∅ := by
  intro _ h; (repeat (cases h with | head => rfl | tail _ h => ?_)); exact nomatch h

theorem deg2_sub : (deg2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub ..⟩
theorem deg2_fresh : ∀ op ∈ (deg2 : List (HloOp τ sig (Elt F))), op.fresh = ∅ := by
  intro _ h; (repeat (cases h with | head => rfl | tail _ h => ?_)); exact nomatch h

theorem dinv2_sub : (dinv2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem dinv2_fresh : ∀ op ∈ (dinv2 : List (HloOp τ sig (Elt F))), op.fresh = ∅ := by
  intro _ h; (repeat (cases h with | head => rfl | tail _ h => ?_)); exact nomatch h

theorem norm2_sub : (norm2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem norm2_fresh : ∀ op ∈ (norm2 : List (HloOp τ sig (Elt F))), op.fresh = ∅ := by
  intro _ h; (repeat (cases h with | head => rfl | tail _ h => ?_)); exact nomatch h

theorem agg2_sub : (agg2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem agg2_fresh : ∀ op ∈ (agg2 : List (HloOp τ sig (Elt F))), op.fresh = ∅ := by
  intro _ h; (repeat (cases h with | head => rfl | tail _ h => ?_)); exact nomatch h

theorem bias2_sub : (bias2 : List (HloOp τ sig (Elt F))).Forall fun op => op.bufs ⊆ StableHlo.tcRefs τ sig :=
  ⟨StableHlo.unary_bufs_sub .., StableHlo.unary_bufs_sub .., StableHlo.binary_bufs_sub ..⟩
theorem bias2_fresh : ∀ op ∈ (bias2 : List (HloOp τ sig (Elt F))), op.fresh = ∅ := by
  intro _ h; (repeat (cases h with | head => rfl | tail _ h => ?_)); exact nomatch h

theorem elu2_sub : (elu2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem elu2_fresh : ∀ op ∈ (elu2 : List (HloOp τ sig (Elt F))), op.fresh = ∅ := by
  intro _ h; (repeat (cases h with | head => rfl | tail _ h => ?_)); exact nomatch h

theorem dot3_sub : (dot3 : List (HloOp τ sig (Elt F))).Forall fun op => op.bufs ⊆ StableHlo.tcRefs τ sig :=
  StableHlo.binary_bufs_sub ..
theorem dot3_fresh : ∀ op ∈ (dot3 : List (HloOp τ sig (Elt F))), op.fresh = ∅ := by
  intro _ h; (repeat (cases h with | head => rfl | tail _ h => ?_)); exact nomatch h

theorem idx3_sub : (idx3 : List (HloOp τ sig (Elt F))).Forall fun op => op.bufs ⊆ StableHlo.tcRefs τ sig :=
  ⟨StableHlo.nullary_bufs_sub .., StableHlo.binary_bufs_sub .., StableHlo.binary_bufs_sub ..⟩
theorem idx3_fresh : ∀ op ∈ (idx3 : List (HloOp τ sig (Elt F))), op.fresh = ∅ := by
  intro _ h; (repeat (cases h with | head => rfl | tail _ h => ?_)); exact nomatch h

theorem deg3_sub : (deg3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub ..⟩
theorem deg3_fresh : ∀ op ∈ (deg3 : List (HloOp τ sig (Elt F))), op.fresh = ∅ := by
  intro _ h; (repeat (cases h with | head => rfl | tail _ h => ?_)); exact nomatch h

theorem dinv3_sub : (dinv3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem dinv3_fresh : ∀ op ∈ (dinv3 : List (HloOp τ sig (Elt F))), op.fresh = ∅ := by
  intro _ h; (repeat (cases h with | head => rfl | tail _ h => ?_)); exact nomatch h

theorem norm3_sub : (norm3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem norm3_fresh : ∀ op ∈ (norm3 : List (HloOp τ sig (Elt F))), op.fresh = ∅ := by
  intro _ h; (repeat (cases h with | head => rfl | tail _ h => ?_)); exact nomatch h

theorem agg3_sub : (agg3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem agg3_fresh : ∀ op ∈ (agg3 : List (HloOp τ sig (Elt F))), op.fresh = ∅ := by
  intro _ h; (repeat (cases h with | head => rfl | tail _ h => ?_)); exact nomatch h

theorem bias3_sub : (bias3 : List (HloOp τ sig (Elt F))).Forall fun op => op.bufs ⊆ StableHlo.tcRefs τ sig :=
  ⟨StableHlo.unary_bufs_sub .., StableHlo.unary_bufs_sub .., StableHlo.binary_bufs_sub ..⟩
theorem bias3_fresh : ∀ op ∈ (bias3 : List (HloOp τ sig (Elt F))), op.fresh = ∅ := by
  intro _ h; (repeat (cases h with | head => rfl | tail _ h => ?_)); exact nomatch h

/-- An operation of the whole line is an operation of one of the stretches. -/
theorem mem_ops {op : HloOp τ sig (Elt F)} (h : op ∈ (ops : List (HloOp τ sig (Elt F)))) :
    op ∈ (prep1 : List (HloOp τ sig (Elt F))) ∨ op ∈ (deg1 : List (HloOp τ sig (Elt F))) ∨ op ∈ (dinv1 : List (HloOp τ sig (Elt F))) ∨ op ∈ (norm1 : List (HloOp τ sig (Elt F))) ∨ op ∈ (agg1 : List (HloOp τ sig (Elt F))) ∨ op ∈ (bias1 : List (HloOp τ sig (Elt F))) ∨ op ∈ (elu1 : List (HloOp τ sig (Elt F))) ∨ op ∈ (dot2 : List (HloOp τ sig (Elt F))) ∨ op ∈ (idx2 : List (HloOp τ sig (Elt F))) ∨ op ∈ (deg2 : List (HloOp τ sig (Elt F))) ∨ op ∈ (dinv2 : List (HloOp τ sig (Elt F))) ∨ op ∈ (norm2 : List (HloOp τ sig (Elt F))) ∨ op ∈ (agg2 : List (HloOp τ sig (Elt F))) ∨ op ∈ (bias2 : List (HloOp τ sig (Elt F))) ∨ op ∈ (elu2 : List (HloOp τ sig (Elt F))) ∨ op ∈ (dot3 : List (HloOp τ sig (Elt F))) ∨ op ∈ (idx3 : List (HloOp τ sig (Elt F))) ∨ op ∈ (deg3 : List (HloOp τ sig (Elt F))) ∨ op ∈ (dinv3 : List (HloOp τ sig (Elt F))) ∨ op ∈ (norm3 : List (HloOp τ sig (Elt F))) ∨ op ∈ (agg3 : List (HloOp τ sig (Elt F))) ∨ op ∈ (bias3 : List (HloOp τ sig (Elt F))) := by
  simpa only [ops, List.mem_append, or_assoc] using h

theorem ops_sub : (ops : List (HloOp τ sig (Elt F))).Forall fun op => op.bufs ⊆ StableHlo.tcRefs τ sig :=
  List.forall_iff_forall_mem.mpr fun op h => by
    rcases mem_ops h with h | h | h | h | h | h | h | h | h | h | h | h | h | h | h | h | h | h | h | h | h | h
    exacts [List.forall_iff_forall_mem.mp prep1_sub op h, List.forall_iff_forall_mem.mp deg1_sub op h, List.forall_iff_forall_mem.mp dinv1_sub op h, List.forall_iff_forall_mem.mp norm1_sub op h, List.forall_iff_forall_mem.mp agg1_sub op h, List.forall_iff_forall_mem.mp bias1_sub op h, List.forall_iff_forall_mem.mp elu1_sub op h, List.forall_iff_forall_mem.mp dot2_sub op h, List.forall_iff_forall_mem.mp idx2_sub op h, List.forall_iff_forall_mem.mp deg2_sub op h, List.forall_iff_forall_mem.mp dinv2_sub op h, List.forall_iff_forall_mem.mp norm2_sub op h, List.forall_iff_forall_mem.mp agg2_sub op h, List.forall_iff_forall_mem.mp bias2_sub op h, List.forall_iff_forall_mem.mp elu2_sub op h, List.forall_iff_forall_mem.mp dot3_sub op h, List.forall_iff_forall_mem.mp idx3_sub op h, List.forall_iff_forall_mem.mp deg3_sub op h, List.forall_iff_forall_mem.mp dinv3_sub op h, List.forall_iff_forall_mem.mp norm3_sub op h, List.forall_iff_forall_mem.mp agg3_sub op h, List.forall_iff_forall_mem.mp bias3_sub op h]

theorem ops_fresh : ∀ op ∈ (ops : List (HloOp τ sig (Elt F))), op.fresh = ∅ := fun op h => by
  rcases mem_ops h with h | h | h | h | h | h | h | h | h | h | h | h | h | h | h | h | h | h | h | h | h | h
  exacts [prep1_fresh op h, deg1_fresh op h, dinv1_fresh op h, norm1_fresh op h, agg1_fresh op h, bias1_fresh op h, elu1_fresh op h, dot2_fresh op h, idx2_fresh op h, deg2_fresh op h, dinv2_fresh op h, norm2_fresh op h, agg2_fresh op h, bias2_fresh op h, elu2_fresh op h, dot3_fresh op h, idx3_fresh op h, deg3_fresh op h, dinv3_fresh op h, norm3_fresh op h, agg3_fresh op h, bias3_fresh op h]

end Cert.ReferenceIdeal.HandRun

end
-- ==== Proof.RefKeep.lean ====
/-
  What each stretch of the reference's line writes, and that it leaves every other buffer as it was.

  Each operation writes exactly one buffer. A stretch therefore changes only the buffers in the list of its
  operations' results; a buffer outside that list holds after the stretch what it held before. This is what
  carries an intermediate array (or an argument) across the stretches that do not touch it.
-/
import proofs.«104014_j18554258719469_1_alg».proof.Proof.RefOps

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The buffers the stretch writes. -/
abbrev prep1_W : List (Ref sig .tc) := [main_v0, main_v1, main_v2, main_v3, main_v4, main_v5, main_v6, main_v7]
theorem prep1_writes : (prep1 : List (HloOp τ sig (Elt F))).Forall fun op =>
    op.writes ⊆ (prep1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem prep1_keep (X : Valuation τ sig (Elt F)) (r : Ref sig .tc) (h : r ∉ prep1_W) :
    StableHlo.after prep1 X (Proc.devRef .tc r) = X (Proc.devRef .tc r) :=
  StableHlo.after_of_writes_sub prep1 X prep1_writes h

/-- The buffers the stretch writes. -/
abbrev deg1_W : List (Ref sig .tc) := [main_cst, main_v8, main_cst_0, main_v9, main_v10, main_v11]
theorem deg1_writes : (deg1 : List (HloOp τ sig (Elt F))).Forall fun op =>
    op.writes ⊆ (deg1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem deg1_keep (X : Valuation τ sig (Elt F)) (r : Ref sig .tc) (h : r ∉ deg1_W) :
    StableHlo.after deg1 X (Proc.devRef .tc r) = X (Proc.devRef .tc r) :=
  StableHlo.after_of_writes_sub deg1 X deg1_writes h

/-- The buffers the stretch writes. -/
abbrev dinv1_W : List (Ref sig .tc) := [main_cst_1, main_v12, main_v13, main_v14, main_cst_2, main_call0_v0, main_call0_v1, main_v15]
theorem dinv1_writes : (dinv1 : List (HloOp τ sig (Elt F))).Forall fun op =>
    op.writes ⊆ (dinv1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem dinv1_keep (X : Valuation τ sig (Elt F)) (r : Ref sig .tc) (h : r ∉ dinv1_W) :
    StableHlo.after dinv1 X (Proc.devRef .tc r) = X (Proc.devRef .tc r) :=
  StableHlo.after_of_writes_sub dinv1 X dinv1_writes h

/-- The buffers the stretch writes. -/
abbrev norm1_W : List (Ref sig .tc) := [main_c, main_v16, main_v17, main_c_3, main_v18, main_v19, main_v20, main_v21, main_v22, main_c_4, main_v23, main_v24, main_c_5, main_v25, main_v26, main_v27, main_v28, main_v29, main_v30]
theorem norm1_writes : (norm1 : List (HloOp τ sig (Elt F))).Forall fun op =>
    op.writes ⊆ (norm1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem norm1_keep (X : Valuation τ sig (Elt F)) (r : Ref sig .tc) (h : r ∉ norm1_W) :
    StableHlo.after norm1 X (Proc.devRef .tc r) = X (Proc.devRef .tc r) :=
  StableHlo.after_of_writes_sub norm1 X norm1_writes h

/-- The buffers the stretch writes. -/
abbrev agg1_W : List (Ref sig .tc) := [main_c_6, main_v31, main_v32, main_c_7, main_v33, main_v34, main_v35, main_v36, main_v37, main_v38, main_v39, main_v40, main_cst_8, main_v41, main_v42, main_v43]
theorem agg1_writes : (agg1 : List (HloOp τ sig (Elt F))).Forall fun op =>
    op.writes ⊆ (agg1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem agg1_keep (X : Valuation τ sig (Elt F)) (r : Ref sig .tc) (h : r ∉ agg1_W) :
    StableHlo.after agg1 X (Proc.devRef .tc r) = X (Proc.devRef .tc r) :=
  StableHlo.after_of_writes_sub agg1 X agg1_writes h

/-- The buffers the stretch writes. -/
abbrev bias1_W : List (Ref sig .tc) := [main_v44, main_v45, main_v46]
theorem bias1_writes : (bias1 : List (HloOp τ sig (Elt F))).Forall fun op =>
    op.writes ⊆ (bias1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem bias1_keep (X : Valuation τ sig (Elt F)) (r : Ref sig .tc) (h : r ∉ bias1_W) :
    StableHlo.after bias1 X (Proc.devRef .tc r) = X (Proc.devRef .tc r) :=
  StableHlo.after_of_writes_sub bias1 X bias1_writes h

/-- The buffers the stretch writes. -/
abbrev elu1_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v47]
theorem elu1_writes : (elu1 : List (HloOp τ sig (Elt F))).Forall fun op =>
    op.writes ⊆ (elu1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem elu1_keep (X : Valuation τ sig (Elt F)) (r : Ref sig .tc) (h : r ∉ elu1_W) :
    StableHlo.after elu1 X (Proc.devRef .tc r) = X (Proc.devRef .tc r) :=
  StableHlo.after_of_writes_sub elu1 X elu1_writes h

/-- The buffers the stretch writes. -/
abbrev dot2_W : List (Ref sig .tc) := [main_v48]
theorem dot2_writes : (dot2 : List (HloOp τ sig (Elt F))).Forall fun op =>
    op.writes ⊆ (dot2_W.map (Proc.devRef (τ := τ) .tc)).toFinset := by
  simp only [List.Forall]
  exact (by simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents through it. -/
theorem dot2_keep (X : Valuation τ sig (Elt F)) (r : Ref sig .tc) (h : r ∉ dot2_W) :
    StableHlo.after dot2 X (Proc.devRef .tc r) = X (Proc.devRef .tc r) :=
  StableHlo.after_of_writes_sub dot2 X dot2_writes h

/-- The buffers the stretch writes. -/
abbrev idx2_W : List (Ref sig .tc) := [main_v49, main_v50, main_v51]
theorem idx2_writes : (idx2 : List (HloOp τ sig (Elt F))).Forall fun op =>
    op.writes ⊆ (idx2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem idx2_keep (X : Valuation τ sig (Elt F)) (r : Ref sig .tc) (h : r ∉ idx2_W) :
    StableHlo.after idx2 X (Proc.devRef .tc r) = X (Proc.devRef .tc r) :=
  StableHlo.after_of_writes_sub idx2 X idx2_writes h

/-- The buffers the stretch writes. -/
abbrev deg2_W : List (Ref sig .tc) := [main_cst_9, main_v52, main_cst_10, main_v53, main_v54, main_v55]
theorem deg2_writes : (deg2 : List (HloOp τ sig (Elt F))).Forall fun op =>
    op.writes ⊆ (deg2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem deg2_keep (X : Valuation τ sig (Elt F)) (r : Ref sig .tc) (h : r ∉ deg2_W) :
    StableHlo.after deg2 X (Proc.devRef .tc r) = X (Proc.devRef .tc r) :=
  StableHlo.after_of_writes_sub deg2 X deg2_writes h

/-- The buffers the stretch writes. -/
abbrev dinv2_W : List (Ref sig .tc) := [main_cst_11, main_v56, main_v57, main_v58, main_cst_12, main_call2_v0, main_call2_v1, main_v59]
theorem dinv2_writes : (dinv2 : List (HloOp τ sig (Elt F))).Forall fun op =>
    op.writes ⊆ (dinv2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem dinv2_keep (X : Valuation τ sig (Elt F)) (r : Ref sig .tc) (h : r ∉ dinv2_W) :
    StableHlo.after dinv2 X (Proc.devRef .tc r) = X (Proc.devRef .tc r) :=
  StableHlo.after_of_writes_sub dinv2 X dinv2_writes h

/-- The buffers the stretch writes. -/
abbrev norm2_W : List (Ref sig .tc) := [main_c_13, main_v60, main_v61, main_c_14, main_v62, main_v63, main_v64, main_v65, main_v66, main_c_15, main_v67, main_v68, main_c_16, main_v69, main_v70, main_v71, main_v72, main_v73, main_v74]
theorem norm2_writes : (norm2 : List (HloOp τ sig (Elt F))).Forall fun op =>
    op.writes ⊆ (norm2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem norm2_keep (X : Valuation τ sig (Elt F)) (r : Ref sig .tc) (h : r ∉ norm2_W) :
    StableHlo.after norm2 X (Proc.devRef .tc r) = X (Proc.devRef .tc r) :=
  StableHlo.after_of_writes_sub norm2 X norm2_writes h

/-- The buffers the stretch writes. -/
abbrev agg2_W : List (Ref sig .tc) := [main_c_17, main_v75, main_v76, main_c_18, main_v77, main_v78, main_v79, main_v80, main_v81, main_v82, main_v83, main_v84, main_cst_19, main_v85, main_v86, main_v87]
theorem agg2_writes : (agg2 : List (HloOp τ sig (Elt F))).Forall fun op =>
    op.writes ⊆ (agg2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem agg2_keep (X : Valuation τ sig (Elt F)) (r : Ref sig .tc) (h : r ∉ agg2_W) :
    StableHlo.after agg2 X (Proc.devRef .tc r) = X (Proc.devRef .tc r) :=
  StableHlo.after_of_writes_sub agg2 X agg2_writes h

/-- The buffers the stretch writes. -/
abbrev bias2_W : List (Ref sig .tc) := [main_v88, main_v89, main_v90]
theorem bias2_writes : (bias2 : List (HloOp τ sig (Elt F))).Forall fun op =>
    op.writes ⊆ (bias2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem bias2_keep (X : Valuation τ sig (Elt F)) (r : Ref sig .tc) (h : r ∉ bias2_W) :
    StableHlo.after bias2 X (Proc.devRef .tc r) = X (Proc.devRef .tc r) :=
  StableHlo.after_of_writes_sub bias2 X bias2_writes h

/-- The buffers the stretch writes. -/
abbrev elu2_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v91]
theorem elu2_writes : (elu2 : List (HloOp τ sig (Elt F))).Forall fun op =>
    op.writes ⊆ (elu2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem elu2_keep (X : Valuation τ sig (Elt F)) (r : Ref sig .tc) (h : r ∉ elu2_W) :
    StableHlo.after elu2 X (Proc.devRef .tc r) = X (Proc.devRef .tc r) :=
  StableHlo.after_of_writes_sub elu2 X elu2_writes h

/-- The buffers the stretch writes. -/
abbrev dot3_W : List (Ref sig .tc) := [main_v92]
theorem dot3_writes : (dot3 : List (HloOp τ sig (Elt F))).Forall fun op =>
    op.writes ⊆ (dot3_W.map (Proc.devRef (τ := τ) .tc)).toFinset := by
  simp only [List.Forall]
  exact (by simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents through it. -/
theorem dot3_keep (X : Valuation τ sig (Elt F)) (r : Ref sig .tc) (h : r ∉ dot3_W) :
    StableHlo.after dot3 X (Proc.devRef .tc r) = X (Proc.devRef .tc r) :=
  StableHlo.after_of_writes_sub dot3 X dot3_writes h

/-- The buffers the stretch writes. -/
abbrev idx3_W : List (Ref sig .tc) := [main_v93, main_v94, main_v95]
theorem idx3_writes : (idx3 : List (HloOp τ sig (Elt F))).Forall fun op =>
    op.writes ⊆ (idx3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem idx3_keep (X : Valuation τ sig (Elt F)) (r : Ref sig .tc) (h : r ∉ idx3_W) :
    StableHlo.after idx3 X (Proc.devRef .tc r) = X (Proc.devRef .tc r) :=
  StableHlo.after_of_writes_sub idx3 X idx3_writes h

/-- The buffers the stretch writes. -/
abbrev deg3_W : List (Ref sig .tc) := [main_cst_20, main_v96, main_cst_21, main_v97, main_v98, main_v99]
theorem deg3_writes : (deg3 : List (HloOp τ sig (Elt F))).Forall fun op =>
    op.writes ⊆ (deg3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem deg3_keep (X : Valuation τ sig (Elt F)) (r : Ref sig .tc) (h : r ∉ deg3_W) :
    StableHlo.after deg3 X (Proc.devRef .tc r) = X (Proc.devRef .tc r) :=
  StableHlo.after_of_writes_sub deg3 X deg3_writes h

/-- The buffers the stretch writes. -/
abbrev dinv3_W : List (Ref sig .tc) := [main_cst_22, main_v100, main_v101, main_v102, main_cst_23, main_call4_v0, main_call4_v1, main_v103]
theorem dinv3_writes : (dinv3 : List (HloOp τ sig (Elt F))).Forall fun op =>
    op.writes ⊆ (dinv3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem dinv3_keep (X : Valuation τ sig (Elt F)) (r : Ref sig .tc) (h : r ∉ dinv3_W) :
    StableHlo.after dinv3 X (Proc.devRef .tc r) = X (Proc.devRef .tc r) :=
  StableHlo.after_of_writes_sub dinv3 X dinv3_writes h

/-- The buffers the stretch writes. -/
abbrev norm3_W : List (Ref sig .tc) := [main_c_24, main_v104, main_v105, main_c_25, main_v106, main_v107, main_v108, main_v109, main_v110, main_c_26, main_v111, main_v112, main_c_27, main_v113, main_v114, main_v115, main_v116, main_v117, main_v118]
theorem norm3_writes : (norm3 : List (HloOp τ sig (Elt F))).Forall fun op =>
    op.writes ⊆ (norm3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem norm3_keep (X : Valuation τ sig (Elt F)) (r : Ref sig .tc) (h : r ∉ norm3_W) :
    StableHlo.after norm3 X (Proc.devRef .tc r) = X (Proc.devRef .tc r) :=
  StableHlo.after_of_writes_sub norm3 X norm3_writes h

/-- The buffers the stretch writes. -/
abbrev agg3_W : List (Ref sig .tc) := [main_c_28, main_v119, main_v120, main_c_29, main_v121, main_v122, main_v123, main_v124, main_v125, main_v126, main_v127, main_v128, main_cst_30, main_v129, main_v130, main_v131]
theorem agg3_writes : (agg3 : List (HloOp τ sig (Elt F))).Forall fun op =>
    op.writes ⊆ (agg3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem agg3_keep (X : Valuation τ sig (Elt F)) (r : Ref sig .tc) (h : r ∉ agg3_W) :
    StableHlo.after agg3 X (Proc.devRef .tc r) = X (Proc.devRef .tc r) :=
  StableHlo.after_of_writes_sub agg3 X agg3_writes h

/-- The buffers the stretch writes. -/
abbrev bias3_W : List (Ref sig .tc) := [main_v132, main_v133, main_v134]
theorem bias3_writes : (bias3 : List (HloOp τ sig (Elt F))).Forall fun op =>
    op.writes ⊆ (bias3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
/-- A buffer the stretch does not write keeps its contents through it. -/
theorem bias3_keep (X : Valuation τ sig (Elt F)) (r : Ref sig .tc) (h : r ∉ bias3_W) :
    StableHlo.after bias3 X (Proc.devRef .tc r) = X (Proc.devRef .tc r) :=
  StableHlo.after_of_writes_sub bias3 X bias3_writes h

end Cert.ReferenceIdeal.HandRun

end
-- ==== Proof.LibAfterAppend.lean ====
/-
  The contents after two stretches of host operations run one after the other.

  The contents of a device's buffers after a list of host operations is a fold of the operations over the contents
  before. The fold over a concatenation is the fold over the second list started from the fold over the first. So a long
  stretch can be described stage by stage: each stage as a statement about an arbitrary starting valuation of which
  only the few buffers the stage reads are known, and the stages composed by this equation.
-/
import Idealize.ShloMosaic.Lib.StableHlo.Run

namespace Cert.Lib.AfterAppend

open Idealize.ShloMosaic Idealize.ShloMosaic.StableHlo

variable {τ : Topo} {sig : RefSig} {Val : EltTy → Type}

/-- The fold over a concatenation is the fold over the second list from the fold over the first. -/
theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Cert.Lib.AfterAppend
-- ==== Proof.RefRun.lean ====
/-
  The reference computation runs to the fold of its operations' results.

  The program's main function, with every auxiliary function written out where it is called, is the straight line
  of array operations listed before. A straight line of array operations, started from any memory, terminates
  in every weakly fair execution, without a fault, and leaves every buffer of the device at the value obtained by
  applying the operations' result functions in order to the buffers' initial contents. None of the operations
  writes an argument buffer, so the arguments end as they began.
-/
import proofs.«104014_j18554258719469_1_alg».proof.Proof.RefSub
import proofs.«104014_j18554258719469_1_alg».proof.Proof.RefKeep
import proofs.«104014_j18554258719469_1_alg».proof.Proof.LibAfterAppend

noncomputable section

namespace Cert.ReferenceIdeal.HandRun

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The main function is that straight line: the auxiliary functions unfolded at their calls, both sides are one
    chain of single operations once sequencing is reassociated. -/
theorem main_eq (c : Dev nD) : main (F := F) c = StableHlo.seq ops := by
  simp only [main, main_part0, main_part1, main_part2, fn_where.body, fn_elu.body, fn_where_0.body, fn_where_1.body,
    ops, prep1, deg1, dinv1, norm1, agg1, bias1, elu1, dot2, idx2, deg2, dinv2, norm2, agg2, bias2, elu2, dot3, idx3, deg3, dinv3, norm3, agg3, bias3,
    StableHlo.seq_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A buffer that no stretch writes holds after the whole line what it held before. -/
theorem ops_keep (V : Valuation τ sig (Elt F)) (r : Ref sig .tc)
    (h01 : r ∉ prep1_W) (h02 : r ∉ deg1_W) (h03 : r ∉ dinv1_W) (h04 : r ∉ norm1_W) (h05 : r ∉ agg1_W) (h06 : r ∉ bias1_W) (h07 : r ∉ elu1_W) (h08 : r ∉ dot2_W) (h09 : r ∉ idx2_W) (h10 : r ∉ deg2_W) (h11 : r ∉ dinv2_W) (h12 : r ∉ norm2_W) (h13 : r ∉ agg2_W) (h14 : r ∉ bias2_W) (h15 : r ∉ elu2_W) (h16 : r ∉ dot3_W) (h17 : r ∉ idx3_W) (h18 : r ∉ deg3_W) (h19 : r ∉ dinv3_W) (h20 : r ∉ norm3_W) (h21 : r ∉ agg3_W) (h22 : r ∉ bias3_W) :
    StableHlo.after ops V (Proc.devRef .tc r) = V (Proc.devRef .tc r) := by
  simp only [ops, Cert.Lib.AfterAppend.after_append]
  rw [bias3_keep _ r h22,
    agg3_keep _ r h21,
    norm3_keep _ r h20,
    dinv3_keep _ r h19,
    deg3_keep _ r h18,
    idx3_keep _ r h17,
    dot3_keep _ r h16,
    elu2_keep _ r h15,
    bias2_keep _ r h14,
    agg2_keep _ r h13,
    norm2_keep _ r h12,
    dinv2_keep _ r h11,
    deg2_keep _ r h10,
    idx2_keep _ r h09,
    dot2_keep _ r h08,
    elu1_keep _ r h07,
    bias1_keep _ r h06,
    agg1_keep _ r h05,
    norm1_keep _ r h04,
    dinv1_keep _ r h03,
    deg1_keep _ r h02,
    prep1_keep _ r h01]

/-- On every device, for any float values, from any memory with zero counters: every weakly fair execution of the
    main function terminates with the result buffer at the fold of the operations over the initial contents, and
    the eight arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v134) = StableHlo.after ops (fun b => m (c, b)) (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v134,
      (h c main_arg0).trans (ops_keep _ main_arg0 (by decide) (by decide) (by decide) (by decide) (by decide) (by decide) (by decide) (by decide) (by decide) (by decide) (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide) (by decide) (by decide) (by decide) (by decide) (by decide) (by decide) (by decide) (by decide) (by decide) (by decide))⟩)
    (StableHlo.run_seq scopedRefs_eq scopedSems_eq defs main (fun _ => ops) main_eq (fun _ => ops_sub) m ρ (fun _ => ops_fresh))

end Cert.ReferenceIdeal.HandRun

end
-- ==== Proof.RefFrame.lean ====
/-
  The reference's frame claim.

  The reference is one host program: index lists, degrees, and per layer a dense product, a gather, a scatter-addition,
  a bias, and for the first two layers the exponential linear unit. Its run, with every library function's body written
  out where it is called, terminates without a fault, writes only its own intermediate buffers, and so leaves the eight
  argument arrays as launched. The frame claim is that run with the result's value forgotten.
-/
import proofs.«104014_j18554258719469_1_alg».proof.Defs
import proofs.«104014_j18554258719469_1_alg».proof.Proof.RefRun
import proofs.«104014_j18554258719469_1_alg».proof.Proof.Gen.ReferenceIdeal
import proofs.«104014_j18554258719469_1_alg».proof.Proof.Gen.Pre_finite_inputs

noncomputable section

namespace Cert.Proof.Parts

open Idealize.ShloMosaic Idealize.SL.Sem

/-- The idealized reference runs and keeps its arguments. -/
theorem frame_reference : Cert.frame_ReferenceIdeal := fun m ρ _ =>
  (θ_run Cert.ReferenceIdeal.defs _ _).mono (fun _ h c => (h c).2) (Cert.ReferenceIdeal.HandRun.run (F := Ideal) m ρ)

end Cert.Proof.Parts

end
-- ==== Proof.KRun.lean ====
import proofs.«104014_j18554258719469_1_alg».proof.Proof.Gen.KernelIdeal.Frame

/-!
# The kernel program's run, with its result named

Every weakly fair execution of the kernel program's entry function terminates without a fault; in the final
state the result buffer holds the last segment boundary's contents at that buffer, and the eight argument
arrays are as launched.  The statement is the generated frame's own, with the result buffer's contents kept
in the postcondition.
-/

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program: it terminates, nothing faults, the result buffer ends at the last boundary's
    contents and every argument array ends as launched. -/
theorem run_result : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.HandRun

end
-- ==== Proof.KNet.lean ====
import proofs.«104014_j18554258719469_1_alg».proof.KernelIdeal

/-!
# The graph-convolution network's whole-array functions

Each function below is a short composition of the program's own array operations, named so that a
statement about a whole layer can be written (and compared) without opening it.

With `e` the `2 × 1280000` edge array: `srcIdx e` and `dstIdx e` are its two rows, each extended by
the `80000` self loops `0, 1, …, 79999`; `deg e` counts, per node, the edges ending there; `dinv e` is
`1/√deg` where the degree is positive and `0` elsewhere; `norm e` is, per edge, the product of `dinv` at
its two ends; `agg64 h e` (`agg32`) sends the feature rows of `h` along the edges — row `src` scaled by the
edge's `norm`, summed into row `dst`.
-/

noncomputable section

namespace Cert.KernelIdeal.Net

open Idealize.ShloMosaic Cert.KernelIdeal

variable {F : FTy → Type} [FloatOps F] [Facts₀]
open Facts₀

/-- Row 0 of the edge array (the edges' sources), followed by the self loops `0 … 79999`. -/
def srcIdx (e : Vec F S2x1280000 .i32) : Vec F S1360000 .i32 :=
  concatenate S1360000 0
    [⟨S1280000, shapeCast S1280000 (extractStridedSlice S1x1280000 ![0, 0] e slices_S2x1280000_S1x1280000_0_0) shapeCasts_S1x1280000_S1280000⟩,
     ⟨S80000, iotaInDim S80000 32 0⟩] concatenates_S1280000_S80000_S1360000_d0

/-- Row 1 of the edge array (the edges' destinations), followed by the self loops `0 … 79999`. -/
def dstIdx (e : Vec F S2x1280000 .i32) : Vec F S1360000 .i32 :=
  concatenate S1360000 0
    [⟨S1280000, shapeCast S1280000 (extractStridedSlice S1x1280000 ![1, 0] e slices_S2x1280000_S1x1280000_1_0) shapeCasts_S1x1280000_S1280000⟩,
     ⟨S80000, iotaInDim S80000 32 0⟩] concatenates_S1280000_S80000_S1360000_d0

/-- An index vector as a one-column matrix (the form gather and scatter take their indices in). -/
def col (i : Vec F S1360000 .i32) : Vec F S1360000x1 .i32 :=
  broadcastInDim S1360000x1 ![0] bcast_S1360000_S1360000x1_0 i

/-- A negative index counts from the end: `i + 80000` where `i < 0`, `i` elsewhere; as a column. -/
def wrap (i : Vec F S1360000 .i32) : Vec F S1360000x1 .i32 :=
  col (select (cmpi .slt i (broadcastInDim S1360000 ![] bcast_S_S1360000 (constantI S_ 32 0#32)))
        (addi i (broadcastInDim S1360000 ![] bcast_S_S1360000 (constantI S_ 32 80000#32))) i)

/-- The in-degree of every node: a one summed at each edge's destination. -/
def deg (e : Vec F S2x1280000 .i32) : Vec F S80000 .f32 :=
  Host.scatterAdd scatter_S80000_S1360000x1_S1360000_n_0_0_1
    (broadcastInDim S80000 ![] bcast_S_S80000 (constant S_ .f32 0x00000000#32))
    (col (dstIdx e))
    (broadcastInDim S1360000 ![] bcast_S_S1360000 (constant S_ .f32 0x3F800000#32))

/-- `1/√deg` where the degree is positive, zero elsewhere. -/
def dinv (e : Vec F S2x1280000 .i32) : Vec F S80000 .f32 :=
  select (cmpf .ogt (deg e) (broadcastInDim S80000 ![] bcast_S_S80000 (constant S_ .f32 0x00000000#32)))
    (Host.rsqrt (deg e))
    (broadcastInDim S80000 ![] bcast_S_S80000 (id (constant S_ .f32 0x00000000#32)))

/-- Per edge, the product of `dinv` at its source and at its destination. -/
def norm (e : Vec F S2x1280000 .i32) : Vec F S1360000 .f32 :=
  mulf (Host.gather gather_S80000_S1360000x1_S1360000_n_0_n_n_0_1_1 (dinv e) (wrap (srcIdx e)))
       (Host.gather gather_S80000_S1360000x1_S1360000_n_0_n_n_0_1_1 (dinv e) (wrap (dstIdx e)))

/-- One propagation step on 64 features: row `src` of `h` times the edge's `norm`, summed into row `dst`. -/
def agg64 (h : Vec F S80000x64 .f32) (e : Vec F S2x1280000 .i32) : Vec F S80000x64 .f32 :=
  Host.scatterAdd scatter_S80000x64_S1360000x1_S1360000x64_1_0_0_1
    (broadcastInDim S80000x64 ![] bcast_S_S80000x64 (constant S_ .f32 0x00000000#32))
    (col (dstIdx e))
    (mulf (Host.gather gather_S80000x64_S1360000x1_S1360000x64_1_0_n_n_0_1_164 h (wrap (srcIdx e)))
          (broadcastInDim S1360000x64 ![0, 1] bcast_S1360000x1_S1360000x64_0_1
            (broadcastInDim S1360000x1 ![0] bcast_S1360000_S1360000x1_0 (norm e))))

/-- One propagation step on 32 features. -/
def agg32 (h : Vec F S80000x32 .f32) (e : Vec F S2x1280000 .i32) : Vec F S80000x32 .f32 :=
  Host.scatterAdd scatter_S80000x32_S1360000x1_S1360000x32_1_0_0_1
    (broadcastInDim S80000x32 ![] bcast_S_S80000x32 (constant S_ .f32 0x00000000#32))
    (col (dstIdx e))
    (mulf (Host.gather gather_S80000x32_S1360000x1_S1360000x32_1_0_n_n_0_1_132 h (wrap (srcIdx e)))
          (broadcastInDim S1360000x32 ![0, 1] bcast_S1360000x1_S1360000x32_0_1
            (broadcastInDim S1360000x1 ![0] bcast_S1360000_S1360000x1_0 (norm e))))

/-- A bias vector of length 64 as a one-row matrix. -/
def rowOf64 (b : Vec F S64 .f32) : Vec F S1x64 .f32 :=
  shapeCast S1x64 b shapeCasts_S64_S1x64

/-- A bias vector of length 32 as a one-row matrix. -/
def rowOf32 (b : Vec F S32 .f32) : Vec F S1x32 .f32 :=
  shapeCast S1x32 b shapeCasts_S32_S1x32

end Cert.KernelIdeal.Net

end
-- ==== Proof.KKeeps.lean ====
import Idealize.ShloMosaic.Lib.StableHlo.Run

/-!
# A buffer a list of host operations does not write keeps its contents

The tactic below closes `StableHlo.after ops X b = X b` for a literal list `ops` and a literal reference `b`
that differs from every operation's result reference.
-/

namespace Cert.KernelIdeal.HandRun

open Idealize.ShloMosaic

/-- A buffer that no operation of the named list writes keeps its contents through the list: each operation's
    written buffer is a different reference. -/
macro "keeps_contents" "[" ops:ident "]" : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.HandRun
-- ==== Proof.KStretch1.lean ====
import proofs.«104014_j18554258719469_1_alg».proof.Proof.Gen.KernelIdeal.Launch
import proofs.«104014_j18554258719469_1_alg».proof.Proof.KNet
import proofs.«104014_j18554258719469_1_alg».proof.Proof.KKeeps

/-!
# The host operations between the layers, read back

From ANY buffer contents `X` in which the index buffers hold the edge array's sources and destinations and the
normalisation buffer holds `norm`: each later stretch of host operations leaves, in its propagation buffer, the
propagation `agg` of the previous layer's output, and in its bias buffer the bias as a one-row matrix; the
buffers it does not write are unchanged.
-/

noncomputable section

namespace Cert.KernelIdeal.HandRun

open Idealize.ShloMosaic Idealize.ShloMosaic.TcCoe
open Cert.KernelIdeal Cert.KernelIdeal.Gen

variable {F : FTy → Type} [FloatOps F]

variable (X : Valuation τ sig (Elt F))

/-! ## After the first matrix product -/

theorem hostOps1_v43 (e : Vec F S2x1280000 .i32)
    (hs : (X (Proc.devRef .tc main_v5) : Vec F S1360000 .i32) = Net.srcIdx e) (hd : (X (Proc.devRef .tc main_v6) : Vec F S1360000 .i32) = Net.dstIdx e)
    (hn : (X (Proc.devRef .tc main_v29) : Vec F S1360000 .f32) = Net.norm e) :
    (StableHlo.after hostOps1 X (Proc.devRef .tc main_v43) : Vec F S80000x64 .f32) = Net.agg64 (X (Proc.devRef .tc main_v30)) e := by
  after_results_simp
  rw [hs, hd, hn]
  rfl
theorem hostOps1_v44 : (StableHlo.after hostOps1 X (Proc.devRef .tc main_v44) : Vec F S1x64 .f32) = Net.rowOf64 (X (Proc.devRef .tc main_arg2)) := by
  after_results_simp; rfl
theorem hostOps1_keeps_v5 : StableHlo.after hostOps1 X (Proc.devRef .tc main_v5) = X (Proc.devRef .tc main_v5) := by keeps_contents [hostOps1]
theorem hostOps1_keeps_v6 : StableHlo.after hostOps1 X (Proc.devRef .tc main_v6) = X (Proc.devRef .tc main_v6) := by keeps_contents [hostOps1]
theorem hostOps1_keeps_v29 : StableHlo.after hostOps1 X (Proc.devRef .tc main_v29) = X (Proc.devRef .tc main_v29) := by keeps_contents [hostOps1]
theorem hostOps1_keeps_arg3 : StableHlo.after hostOps1 X (Proc.devRef .tc main_arg3) = X (Proc.devRef .tc main_arg3) := by keeps_contents [hostOps1]
theorem hostOps1_keeps_arg4 : StableHlo.after hostOps1 X (Proc.devRef .tc main_arg4) = X (Proc.devRef .tc main_arg4) := by keeps_contents [hostOps1]
theorem hostOps1_keeps_arg5 : StableHlo.after hostOps1 X (Proc.devRef .tc main_arg5) = X (Proc.devRef .tc main_arg5) := by keeps_contents [hostOps1]
theorem hostOps1_keeps_arg6 : StableHlo.after hostOps1 X (Proc.devRef .tc main_arg6) = X (Proc.devRef .tc main_arg6) := by keeps_contents [hostOps1]

/-! ## After the second matrix product -/

theorem hostOps3_v59 (e : Vec F S2x1280000 .i32)
    (hs : (X (Proc.devRef .tc main_v5) : Vec F S1360000 .i32) = Net.srcIdx e) (hd : (X (Proc.devRef .tc main_v6) : Vec F S1360000 .i32) = Net.dstIdx e)
    (hn : (X (Proc.devRef .tc main_v29) : Vec F S1360000 .f32) = Net.norm e) :
    (StableHlo.after hostOps3 X (Proc.devRef .tc main_v59) : Vec F S80000x64 .f32) = Net.agg64 (X (Proc.devRef .tc main_v46)) e := by
  after_results_simp
  rw [hs, hd, hn]
  rfl
theorem hostOps3_v60 : (StableHlo.after hostOps3 X (Proc.devRef .tc main_v60) : Vec F S1x64 .f32) = Net.rowOf64 (X (Proc.devRef .tc main_arg4)) := by
  after_results_simp; rfl
theorem hostOps3_keeps_v5 : StableHlo.after hostOps3 X (Proc.devRef .tc main_v5) = X (Proc.devRef .tc main_v5) := by keeps_contents [hostOps3]
theorem hostOps3_keeps_v6 : StableHlo.after hostOps3 X (Proc.devRef .tc main_v6) = X (Proc.devRef .tc main_v6) := by keeps_contents [hostOps3]
theorem hostOps3_keeps_v29 : StableHlo.after hostOps3 X (Proc.devRef .tc main_v29) = X (Proc.devRef .tc main_v29) := by keeps_contents [hostOps3]
theorem hostOps3_keeps_arg5 : StableHlo.after hostOps3 X (Proc.devRef .tc main_arg5) = X (Proc.devRef .tc main_arg5) := by keeps_contents [hostOps3]
theorem hostOps3_keeps_arg6 : StableHlo.after hostOps3 X (Proc.devRef .tc main_arg6) = X (Proc.devRef .tc main_arg6) := by keeps_contents [hostOps3]

/-! ## After the third matrix product -/

theorem hostOps5_v75 (e : Vec F S2x1280000 .i32)
    (hs : (X (Proc.devRef .tc main_v5) : Vec F S1360000 .i32) = Net.srcIdx e) (hd : (X (Proc.devRef .tc main_v6) : Vec F S1360000 .i32) = Net.dstIdx e)
    (hn : (X (Proc.devRef .tc main_v29) : Vec F S1360000 .f32) = Net.norm e) :
    (StableHlo.after hostOps5 X (Proc.devRef .tc main_v75) : Vec F S80000x32 .f32) = Net.agg32 (X (Proc.devRef .tc main_v62)) e := by
  after_results_simp
  rw [hs, hd, hn]
  rfl
theorem hostOps5_v76 : (StableHlo.after hostOps5 X (Proc.devRef .tc main_v76) : Vec F S1x32 .f32) = Net.rowOf32 (X (Proc.devRef .tc main_arg6)) := by
  after_results_simp; rfl

end Cert.KernelIdeal.HandRun

end
-- ==== Proof.LibTypedRefs.lean ====
/-
  Typed references: contents moved to the buffer's own type and back.

  An operation of an outlined function reads and writes its buffers through references that carry the tensor type of
  the value they hold; contents cross between that type and the buffer's own type along the equation of the two
  types. Moving a value to the buffer's type and straight back gives the value, for ANY typed reference — the fact
  is about the reference as a variable, so using it never asks Lean to compare two buffer types.
-/
import Idealize.ShloMosaic.Lib.StableHlo

namespace Cert.Lib.TypedRefs

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.Lib.TypedRefs
-- ==== Proof.KStretch0.lean ====
import proofs.«104014_j18554258719469_1_alg».proof.Proof.Gen.KernelIdeal.Launch
import proofs.«104014_j18554258719469_1_alg».proof.Proof.KNet
import proofs.«104014_j18554258719469_1_alg».proof.Proof.LibTypedRefs
import proofs.«104014_j18554258719469_1_alg».proof.Proof.KKeeps

/-!
# The host operations before the first matrix product, read back

From ANY buffer contents `X`, what the program's first three stretches of host operations leave in the buffers
later stretches read: the edge sources and destinations with the self loops appended, and the per-edge
normalisation `norm` — each the corresponding function of the edge array `X main_arg7` — and every buffer the
stretches do not write, unchanged.
-/

noncomputable section

namespace Cert.KernelIdeal.HandRun

open Idealize.ShloMosaic Idealize.ShloMosaic.TcCoe
open Cert.KernelIdeal Cert.KernelIdeal.Gen

variable {F : FTy → Type} [FloatOps F]

variable (X : Valuation τ sig (Elt F))

/-! ## The first stretch: indices, degrees -/

theorem ops0_v5 : (StableHlo.after hostOps0 X (Proc.devRef .tc main_v5) : Vec F S1360000 .i32) = Net.srcIdx (X (Proc.devRef .tc main_arg7)) := by
  after_results_simp; rfl
theorem ops0_v6 : (StableHlo.after hostOps0 X (Proc.devRef .tc main_v6) : Vec F S1360000 .i32) = Net.dstIdx (X (Proc.devRef .tc main_arg7)) := by
  after_results_simp; rfl
theorem ops0_v12 : (StableHlo.after hostOps0 X (Proc.devRef .tc main_v12) : Vec F S80000 .i1)
    = cmpf .ogt (Net.deg (X (Proc.devRef .tc main_arg7))) (broadcastInDim S80000 ![] bcast_S_S80000 (constant S_ .f32 0x00000000#32)) := by
  after_results_simp; rfl
theorem ops0_v13 : (StableHlo.after hostOps0 X (Proc.devRef .tc main_v13) : Vec F S80000 .f32) = Host.rsqrt (Net.deg (X (Proc.devRef .tc main_arg7))) := by
  after_results_simp; rfl
theorem ops0_cst_2 : (StableHlo.after hostOps0 X (Proc.devRef .tc main_cst_2) : Vec F S_ .f32) = constant S_ .f32 0x00000000#32 := by
  after_results_simp

/-! ## The second stretch: the guarded reciprocal square root (an outlined call) -/

theorem ops01_v14 : (StableHlo.after hostOps0_1 X (Proc.devRef .tc main_v14) : Vec F S80000 .f32)
    = select (X (Proc.devRef .tc main_v12)) (X (Proc.devRef .tc main_v13)) (broadcastInDim S80000 ![] bcast_S_S80000 (id (X (Proc.devRef .tc main_cst_2)))) := by
  after_results_simp
  simp only [Cert.Lib.TypedRefs.ofBuf_toBuf]
  rfl
theorem ops01_v5 : StableHlo.after hostOps0_1 X (Proc.devRef .tc main_v5) = X (Proc.devRef .tc main_v5) := by keeps_contents [hostOps0_1]
theorem ops01_v6 : StableHlo.after hostOps0_1 X (Proc.devRef .tc main_v6) = X (Proc.devRef .tc main_v6) := by keeps_contents [hostOps0_1]

/-! ## The third stretch: the per-edge normalisation -/

theorem ops02_v29 : (StableHlo.after hostOps0_2 X (Proc.devRef .tc main_v29) : Vec F S1360000 .f32)
    = mulf (Host.gather gather_S80000_S1360000x1_S1360000_n_0_n_n_0_1_1 (X (Proc.devRef .tc main_v14)) (Net.wrap (X (Proc.devRef .tc main_v5))))
           (Host.gather gather_S80000_S1360000x1_S1360000_n_0_n_n_0_1_1 (X (Proc.devRef .tc main_v14)) (Net.wrap (X (Proc.devRef .tc main_v6)))) := by
  after_results_simp; rfl
theorem ops02_v5 : StableHlo.after hostOps0_2 X (Proc.devRef .tc main_v5) = X (Proc.devRef .tc main_v5) := by keeps_contents [hostOps0_2]
theorem ops02_v6 : StableHlo.after hostOps0_2 X (Proc.devRef .tc main_v6) = X (Proc.devRef .tc main_v6) := by keeps_contents [hostOps0_2]

/-! ## The three stretches together -/

/-- The contents after the three stretches. -/
abbrev pre : Valuation τ sig (Elt F) := StableHlo.after hostOps0_2 (StableHlo.after hostOps0_1 (StableHlo.after hostOps0 X))

theorem pre_v5 : (pre X (Proc.devRef .tc main_v5) : Vec F S1360000 .i32) = Net.srcIdx (X (Proc.devRef .tc main_arg7)) :=
  (ops02_v5 _).trans ((ops01_v5 _).trans (ops0_v5 X))
theorem pre_v6 : (pre X (Proc.devRef .tc main_v6) : Vec F S1360000 .i32) = Net.dstIdx (X (Proc.devRef .tc main_arg7)) :=
  (ops02_v6 _).trans ((ops01_v6 _).trans (ops0_v6 X))
theorem pre_v29 : (pre X (Proc.devRef .tc main_v29) : Vec F S1360000 .f32) = Net.norm (X (Proc.devRef .tc main_arg7)) := by
  refine (ops02_v29 _).trans ?_
  rw [ops01_v14, ops01_v5, ops01_v6, ops0_v5, ops0_v6, ops0_v12, ops0_v13, ops0_cst_2]
  rfl
theorem pre_arg0 : pre X (Proc.devRef .tc main_arg0) = X (Proc.devRef .tc main_arg0) :=
  calc pre X (Proc.devRef .tc main_arg0)
    _ = StableHlo.after hostOps0_1 (StableHlo.after hostOps0 X) (Proc.devRef .tc main_arg0) := by keeps_contents [hostOps0_2]
    _ = StableHlo.after hostOps0 X (Proc.devRef .tc main_arg0) := by keeps_contents [hostOps0_1]
    _ = X (Proc.devRef .tc main_arg0) := by keeps_contents [hostOps0]
theorem pre_arg1 : pre X (Proc.devRef .tc main_arg1) = X (Proc.devRef .tc main_arg1) :=
  calc pre X (Proc.devRef .tc main_arg1)
    _ = StableHlo.after hostOps0_1 (StableHlo.after hostOps0 X) (Proc.devRef .tc main_arg1) := by keeps_contents [hostOps0_2]
    _ = StableHlo.after hostOps0 X (Proc.devRef .tc main_arg1) := by keeps_contents [hostOps0_1]
    _ = X (Proc.devRef .tc main_arg1) := by keeps_contents [hostOps0]
theorem pre_arg2 : pre X (Proc.devRef .tc main_arg2) = X (Proc.devRef .tc main_arg2) :=
  calc pre X (Proc.devRef .tc main_arg2)
    _ = StableHlo.after hostOps0_1 (StableHlo.after hostOps0 X) (Proc.devRef .tc main_arg2) := by keeps_contents [hostOps0_2]
    _ = StableHlo.after hostOps0 X (Proc.devRef .tc main_arg2) := by keeps_contents [hostOps0_1]
    _ = X (Proc.devRef .tc main_arg2) := by keeps_contents [hostOps0]
theorem pre_arg3 : pre X (Proc.devRef .tc main_arg3) = X (Proc.devRef .tc main_arg3) :=
  calc pre X (Proc.devRef .tc main_arg3)
    _ = StableHlo.after hostOps0_1 (StableHlo.after hostOps0 X) (Proc.devRef .tc main_arg3) := by keeps_contents [hostOps0_2]
    _ = StableHlo.after hostOps0 X (Proc.devRef .tc main_arg3) := by keeps_contents [hostOps0_1]
    _ = X (Proc.devRef .tc main_arg3) := by keeps_contents [hostOps0]
theorem pre_arg4 : pre X (Proc.devRef .tc main_arg4) = X (Proc.devRef .tc main_arg4) :=
  calc pre X (Proc.devRef .tc main_arg4)
    _ = StableHlo.after hostOps0_1 (StableHlo.after hostOps0 X) (Proc.devRef .tc main_arg4) := by keeps_contents [hostOps0_2]
    _ = StableHlo.after hostOps0 X (Proc.devRef .tc main_arg4) := by keeps_contents [hostOps0_1]
    _ = X (Proc.devRef .tc main_arg4) := by keeps_contents [hostOps0]
theorem pre_arg5 : pre X (Proc.devRef .tc main_arg5) = X (Proc.devRef .tc main_arg5) :=
  calc pre X (Proc.devRef .tc main_arg5)
    _ = StableHlo.after hostOps0_1 (StableHlo.after hostOps0 X) (Proc.devRef .tc main_arg5) := by keeps_contents [hostOps0_2]
    _ = StableHlo.after hostOps0 X (Proc.devRef .tc main_arg5) := by keeps_contents [hostOps0_1]
    _ = X (Proc.devRef .tc main_arg5) := by keeps_contents [hostOps0]
theorem pre_arg6 : pre X (Proc.devRef .tc main_arg6) = X (Proc.devRef .tc main_arg6) :=
  calc pre X (Proc.devRef .tc main_arg6)
    _ = StableHlo.after hostOps0_1 (StableHlo.after hostOps0 X) (Proc.devRef .tc main_arg6) := by keeps_contents [hostOps0_2]
    _ = StableHlo.after hostOps0 X (Proc.devRef .tc main_arg6) := by keeps_contents [hostOps0_1]
    _ = X (Proc.devRef .tc main_arg6) := by keeps_contents [hostOps0]

end Cert.KernelIdeal.HandRun

end
-- ==== Proof.KCarry.lean ====
import proofs.«104014_j18554258719469_1_alg».proof.Proof.Gen.KernelIdeal.Frame
import proofs.«104014_j18554258719469_1_alg».proof.Proof.KNet
import proofs.«104014_j18554258719469_1_alg».proof.Proof.KStretch0
import proofs.«104014_j18554258719469_1_alg».proof.Proof.KStretch1

/-!
# Buffers carried unchanged through the kernel program's segments

At the first region's entry the two index buffers hold the edge array's sources and destinations (with the self
loops) and the normalisation buffer holds `norm` of the edge array. No later region and no later stretch of host
operations writes these three buffers, nor an argument array, so each still holds the same contents at every
later segment boundary where it is read.
-/

noncomputable section

namespace Cert.KernelIdeal.HandRun

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg) (c : Dev nD)

/-- The edge array at launch. -/
abbrev edges : Vec F S2x1280000 .i32 := (m ((c : Thread nD τ).loc main_arg7))

/-! ## At the first region's entry -/

theorem W3_v5 : (W3 m ρ c (Proc.devRef .tc main_v5) : Vec F S1360000 .i32) = Net.srcIdx (edges m c) := pre_v5 (W0 m ρ c)
theorem W3_v6 : (W3 m ρ c (Proc.devRef .tc main_v6) : Vec F S1360000 .i32) = Net.dstIdx (edges m c) := pre_v6 (W0 m ρ c)
theorem W3_v29 : (W3 m ρ c (Proc.devRef .tc main_v29) : Vec F S1360000 .f32) = Net.norm (edges m c) := pre_v29 (W0 m ρ c)
theorem W3_arg0 : W3 m ρ c (Proc.devRef .tc main_arg0) = (m ((c : Thread nD τ).loc main_arg0)) := pre_arg0 (W0 m ρ c)
theorem W3_arg1 : W3 m ρ c (Proc.devRef .tc main_arg1) = (m ((c : Thread nD τ).loc main_arg1)) := pre_arg1 (W0 m ρ c)
theorem W3_arg2 : W3 m ρ c (Proc.devRef .tc main_arg2) = (m ((c : Thread nD τ).loc main_arg2)) := pre_arg2 (W0 m ρ c)
theorem W3_arg3 : W3 m ρ c (Proc.devRef .tc main_arg3) = (m ((c : Thread nD τ).loc main_arg3)) := pre_arg3 (W0 m ρ c)
theorem W3_arg4 : W3 m ρ c (Proc.devRef .tc main_arg4) = (m ((c : Thread nD τ).loc main_arg4)) := pre_arg4 (W0 m ρ c)
theorem W3_arg5 : W3 m ρ c (Proc.devRef .tc main_arg5) = (m ((c : Thread nD τ).loc main_arg5)) := pre_arg5 (W0 m ρ c)
theorem W3_arg6 : W3 m ρ c (Proc.devRef .tc main_arg6) = (m ((c : Thread nD τ).loc main_arg6)) := pre_arg6 (W0 m ρ c)

/-! ## The index and normalisation buffers, carried to each later stretch's entry -/

theorem W4_v5 : (W4 m ρ c (Proc.devRef .tc main_v5) : Vec F S1360000 .i32) = Net.srcIdx (edges m c) :=
  calc W4 m ρ c (Proc.devRef .tc main_v5)
    _ = W3 m ρ c (Proc.devRef .tc main_v5) := W4_of_ne m ρ c main_v5 (by decide)
    _ = Net.srcIdx (edges m c) := W3_v5 m ρ c
theorem W7_v5 : (W7 m ρ c (Proc.devRef .tc main_v5) : Vec F S1360000 .i32) = Net.srcIdx (edges m c) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := hostOps1_keeps_v5 (W4 m ρ c)
    _ = W3 m ρ c (Proc.devRef .tc main_v5) := W4_of_ne m ρ c main_v5 (by decide)
    _ = Net.srcIdx (edges m c) := W3_v5 m ρ c
theorem W10_v5 : (W10 m ρ c (Proc.devRef .tc main_v5) : Vec F S1360000 .i32) = Net.srcIdx (edges m c) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := hostOps3_keeps_v5 (W7 m ρ c)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := hostOps1_keeps_v5 (W4 m ρ c)
    _ = W3 m ρ c (Proc.devRef .tc main_v5) := W4_of_ne m ρ c main_v5 (by decide)
    _ = Net.srcIdx (edges m c) := W3_v5 m ρ c
theorem W4_v6 : (W4 m ρ c (Proc.devRef .tc main_v6) : Vec F S1360000 .i32) = Net.dstIdx (edges m c) :=
  calc W4 m ρ c (Proc.devRef .tc main_v6)
    _ = W3 m ρ c (Proc.devRef .tc main_v6) := W4_of_ne m ρ c main_v6 (by decide)
    _ = Net.dstIdx (edges m c) := W3_v6 m ρ c
theorem W7_v6 : (W7 m ρ c (Proc.devRef .tc main_v6) : Vec F S1360000 .i32) = Net.dstIdx (edges m c) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := hostOps1_keeps_v6 (W4 m ρ c)
    _ = W3 m ρ c (Proc.devRef .tc main_v6) := W4_of_ne m ρ c main_v6 (by decide)
    _ = Net.dstIdx (edges m c) := W3_v6 m ρ c
theorem W10_v6 : (W10 m ρ c (Proc.devRef .tc main_v6) : Vec F S1360000 .i32) = Net.dstIdx (edges m c) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := hostOps3_keeps_v6 (W7 m ρ c)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := hostOps1_keeps_v6 (W4 m ρ c)
    _ = W3 m ρ c (Proc.devRef .tc main_v6) := W4_of_ne m ρ c main_v6 (by decide)
    _ = Net.dstIdx (edges m c) := W3_v6 m ρ c
theorem W4_v29 : (W4 m ρ c (Proc.devRef .tc main_v29) : Vec F S1360000 .f32) = Net.norm (edges m c) :=
  calc W4 m ρ c (Proc.devRef .tc main_v29)
    _ = W3 m ρ c (Proc.devRef .tc main_v29) := W4_of_ne m ρ c main_v29 (by decide)
    _ = Net.norm (edges m c) := W3_v29 m ρ c
theorem W7_v29 : (W7 m ρ c (Proc.devRef .tc main_v29) : Vec F S1360000 .f32) = Net.norm (edges m c) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := hostOps1_keeps_v29 (W4 m ρ c)
    _ = W3 m ρ c (Proc.devRef .tc main_v29) := W4_of_ne m ρ c main_v29 (by decide)
    _ = Net.norm (edges m c) := W3_v29 m ρ c
theorem W10_v29 : (W10 m ρ c (Proc.devRef .tc main_v29) : Vec F S1360000 .f32) = Net.norm (edges m c) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := hostOps3_keeps_v29 (W7 m ρ c)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := hostOps1_keeps_v29 (W4 m ρ c)
    _ = W3 m ρ c (Proc.devRef .tc main_v29) := W4_of_ne m ρ c main_v29 (by decide)
    _ = Net.norm (edges m c) := W3_v29 m ρ c

/-! ## The argument arrays, where a region or a stretch reads them -/

theorem W4_arg2 : W4 m ρ c (Proc.devRef .tc main_arg2) = (m ((c : Thread nD τ).loc main_arg2)) :=
  calc W4 m ρ c (Proc.devRef .tc main_arg2)
    _ = W3 m ρ c (Proc.devRef .tc main_arg2) := W4_of_ne m ρ c main_arg2 (by decide)
    _ = (m ((c : Thread nD τ).loc main_arg2)) := W3_arg2 m ρ c
theorem W6_arg3 : W6 m ρ c (Proc.devRef .tc main_arg3) = (m ((c : Thread nD τ).loc main_arg3)) :=
  calc W6 m ρ c (Proc.devRef .tc main_arg3)
    _ = W5 m ρ c (Proc.devRef .tc main_arg3) := W6_of_ne m ρ c main_arg3 (by decide)
    _ = W4 m ρ c (Proc.devRef .tc main_arg3) := hostOps1_keeps_arg3 (W4 m ρ c)
    _ = W3 m ρ c (Proc.devRef .tc main_arg3) := W4_of_ne m ρ c main_arg3 (by decide)
    _ = (m ((c : Thread nD τ).loc main_arg3)) := W3_arg3 m ρ c
theorem W7_arg4 : W7 m ρ c (Proc.devRef .tc main_arg4) = (m ((c : Thread nD τ).loc main_arg4)) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := hostOps1_keeps_arg4 (W4 m ρ c)
    _ = W3 m ρ c (Proc.devRef .tc main_arg4) := W4_of_ne m ρ c main_arg4 (by decide)
    _ = (m ((c : Thread nD τ).loc main_arg4)) := W3_arg4 m ρ c
theorem W9_arg5 : W9 m ρ c (Proc.devRef .tc main_arg5) = (m ((c : Thread nD τ).loc main_arg5)) :=
  calc W9 m ρ c (Proc.devRef .tc main_arg5)
    _ = W8 m ρ c (Proc.devRef .tc main_arg5) := W9_of_ne m ρ c main_arg5 (by decide)
    _ = W7 m ρ c (Proc.devRef .tc main_arg5) := hostOps3_keeps_arg5 (W7 m ρ c)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := hostOps1_keeps_arg5 (W4 m ρ c)
    _ = W3 m ρ c (Proc.devRef .tc main_arg5) := W4_of_ne m ρ c main_arg5 (by decide)
    _ = (m ((c : Thread nD τ).loc main_arg5)) := W3_arg5 m ρ c
theorem W10_arg6 : W10 m ρ c (Proc.devRef .tc main_arg6) = (m ((c : Thread nD τ).loc main_arg6)) :=
  calc W10 m ρ c (Proc.devRef .tc main_arg6)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := hostOps3_keeps_arg6 (W7 m ρ c)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := hostOps1_keeps_arg6 (W4 m ρ c)
    _ = W3 m ρ c (Proc.devRef .tc main_arg6) := W4_of_ne m ρ c main_arg6 (by decide)
    _ = (m ((c : Thread nD τ).loc main_arg6)) := W3_arg6 m ρ c

end Cert.KernelIdeal.HandRun

end
-- ==== Proof.KWalk.lean ====
import proofs.«104014_j18554258719469_1_alg».proof.Proof.Gen.KernelIdeal.Frame
import proofs.«104014_j18554258719469_1_alg».proof.Proof.KNet
import proofs.«104014_j18554258719469_1_alg».proof.Proof.KStretch1
import proofs.«104014_j18554258719469_1_alg».proof.Proof.KCarry
import Idealize.ShloMosaic.PureOps.Ideal

/-!
# The kernel program's result as a composition of its layers

The last segment boundary's contents at the result buffer, walked back to the launch memory. Each region's
output array is that region's function `G` of its two input arrays (taken as a hypothesis per region, for any
entry contents); an input array a stretch of host operations wrote is the propagation `agg` of the previous
region's output along the edges, or a bias as a one-row matrix; the edge data and the argument arrays are as
launched. Composed: three layers `propagate (x · W) + b`, the first two followed by the activation inside
`G1`, `G3`.
-/

noncomputable section

namespace Cert.KernelIdeal.HandRun

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-! ## Each region -/

/-- Region 0's output array, at its exit, is its function of its two input arrays as entered. -/
theorem region0_out (G : (S80000x64.Idx → EReal) → (S64x64.Idx → EReal) → S80000x64.Idx → EReal)
    (h0 : ∀ (V : (c : Dev nD) → (b : Ref sig .tc) → Buf (Elt Ideal) ((c : Thread nD τ).loc b)) (c : Dev nD),
      (dat0 (F := Ideal) V c).arrAt 2 cfg0.N = G (V c (Pipeline.arrRef spec0 0)) (V c (Pipeline.arrRef spec0 1))) :
    (W4 m ρ c (Proc.devRef .tc main_v30) : (S80000x64.Idx → EReal)) = G (W3 m ρ c (Proc.devRef .tc main_arg0)) (W3 m ρ c (Proc.devRef .tc main_arg1)) :=
  (W4_arr m ρ c 2).trans (h0 (V3 m ρ) c)

/-- Region 1's output array, at its exit, is its function of its two input arrays as entered. -/
theorem region1_out (G : (S80000x64.Idx → EReal) → (S1x64.Idx → EReal) → S80000x64.Idx → EReal)
    (h1 : ∀ (V : (c : Dev nD) → (b : Ref sig .tc) → Buf (Elt Ideal) ((c : Thread nD τ).loc b)) (c : Dev nD),
      (dat1 (F := Ideal) V c).arrAt 2 cfg1.N = G (V c (Pipeline.arrRef spec1 0)) (V c (Pipeline.arrRef spec1 1))) :
    (W6 m ρ c (Proc.devRef .tc main_v45) : (S80000x64.Idx → EReal)) = G (W5 m ρ c (Proc.devRef .tc main_v43)) (W5 m ρ c (Proc.devRef .tc main_v44)) :=
  (W6_arr m ρ c 2).trans (h1 (V5 m ρ) c)

/-- Region 2's output array, at its exit, is its function of its two input arrays as entered. -/
theorem region2_out (G : (S80000x64.Idx → EReal) → (S64x64.Idx → EReal) → S80000x64.Idx → EReal)
    (h2 : ∀ (V : (c : Dev nD) → (b : Ref sig .tc) → Buf (Elt Ideal) ((c : Thread nD τ).loc b)) (c : Dev nD),
      (dat2 (F := Ideal) V c).arrAt 2 cfg2.N = G (V c (Pipeline.arrRef spec2 0)) (V c (Pipeline.arrRef spec2 1))) :
    (W7 m ρ c (Proc.devRef .tc main_v46) : (S80000x64.Idx → EReal)) = G (W6 m ρ c (Proc.devRef .tc main_v45)) (W6 m ρ c (Proc.devRef .tc main_arg3)) :=
  (W7_arr m ρ c 2).trans (h2 (V6 m ρ) c)

/-- Region 3's output array, at its exit, is its function of its two input arrays as entered. -/
theorem region3_out (G : (S80000x64.Idx → EReal) → (S1x64.Idx → EReal) → S80000x64.Idx → EReal)
    (h3 : ∀ (V : (c : Dev nD) → (b : Ref sig .tc) → Buf (Elt Ideal) ((c : Thread nD τ).loc b)) (c : Dev nD),
      (dat3 (F := Ideal) V c).arrAt 2 cfg3.N = G (V c (Pipeline.arrRef spec3 0)) (V c (Pipeline.arrRef spec3 1))) :
    (W9 m ρ c (Proc.devRef .tc main_v61) : (S80000x64.Idx → EReal)) = G (W8 m ρ c (Proc.devRef .tc main_v59)) (W8 m ρ c (Proc.devRef .tc main_v60)) :=
  (W9_arr m ρ c 2).trans (h3 (V8 m ρ) c)

/-- Region 4's output array, at its exit, is its function of its two input arrays as entered. -/
theorem region4_out (G : (S80000x64.Idx → EReal) → (S64x32.Idx → EReal) → S80000x32.Idx → EReal)
    (h4 : ∀ (V : (c : Dev nD) → (b : Ref sig .tc) → Buf (Elt Ideal) ((c : Thread nD τ).loc b)) (c : Dev nD),
      (dat4 (F := Ideal) V c).arrAt 2 cfg4.N = G (V c (Pipeline.arrRef spec4 0)) (V c (Pipeline.arrRef spec4 1))) :
    (W10 m ρ c (Proc.devRef .tc main_v62) : (S80000x32.Idx → EReal)) = G (W9 m ρ c (Proc.devRef .tc main_v61)) (W9 m ρ c (Proc.devRef .tc main_arg5)) :=
  (W10_arr m ρ c 2).trans (h4 (V9 m ρ) c)

/-- Region 5's output array, at its exit, is its function of its two input arrays as entered. -/
theorem region5_out (G : (S80000x32.Idx → EReal) → (S1x32.Idx → EReal) → S80000x32.Idx → EReal)
    (h5 : ∀ (V : (c : Dev nD) → (b : Ref sig .tc) → Buf (Elt Ideal) ((c : Thread nD τ).loc b)) (c : Dev nD),
      (dat5 (F := Ideal) V c).arrAt 2 cfg5.N = G (V c (Pipeline.arrRef spec5 0)) (V c (Pipeline.arrRef spec5 1))) :
    (W12 m ρ c (Proc.devRef .tc main_v77) : (S80000x32.Idx → EReal)) = G (W11 m ρ c (Proc.devRef .tc main_v75)) (W11 m ρ c (Proc.devRef .tc main_v76)) :=
  (W12_arr m ρ c 2).trans (h5 (V11 m ρ) c)

/-! ## Each stretch between the regions -/

theorem stretch1_agg : (W5 m ρ c (Proc.devRef .tc main_v43) : (S80000x64.Idx → EReal)) = Net.agg64 (W4 m ρ c (Proc.devRef .tc main_v30)) (edges m c) :=
  hostOps1_v43 (W4 m ρ c) (edges m c) (W4_v5 m ρ c) (W4_v6 m ρ c) (W4_v29 m ρ c)
theorem stretch1_bias : (W5 m ρ c (Proc.devRef .tc main_v44) : (S1x64.Idx → EReal)) = Net.rowOf64 (m ((c : Thread nD τ).loc main_arg2)) :=
  (hostOps1_v44 (W4 m ρ c)).trans (congrArg (Net.rowOf64 (F := Ideal)) (W4_arg2 m ρ c))
theorem stretch3_agg : (W8 m ρ c (Proc.devRef .tc main_v59) : (S80000x64.Idx → EReal)) = Net.agg64 (W7 m ρ c (Proc.devRef .tc main_v46)) (edges m c) :=
  hostOps3_v59 (W7 m ρ c) (edges m c) (W7_v5 m ρ c) (W7_v6 m ρ c) (W7_v29 m ρ c)
theorem stretch3_bias : (W8 m ρ c (Proc.devRef .tc main_v60) : (S1x64.Idx → EReal)) = Net.rowOf64 (m ((c : Thread nD τ).loc main_arg4)) :=
  (hostOps3_v60 (W7 m ρ c)).trans (congrArg (Net.rowOf64 (F := Ideal)) (W7_arg4 m ρ c))
theorem stretch5_agg : (W11 m ρ c (Proc.devRef .tc main_v75) : (S80000x32.Idx → EReal)) = Net.agg32 (W10 m ρ c (Proc.devRef .tc main_v62)) (edges m c) :=
  hostOps5_v75 (W10 m ρ c) (edges m c) (W10_v5 m ρ c) (W10_v6 m ρ c) (W10_v29 m ρ c)
theorem stretch5_bias : (W11 m ρ c (Proc.devRef .tc main_v76) : (S1x32.Idx → EReal)) = Net.rowOf32 (m ((c : Thread nD τ).loc main_arg6)) :=
  (hostOps5_v76 (W10 m ρ c)).trans (congrArg (Net.rowOf32 (F := Ideal)) (W10_arg6 m ρ c))

/-! ## The composition -/

/-- The result buffer at the last boundary: the three layers composed, over the launch memory's arguments. -/
theorem W12_v77
    (G0 G2 : (S80000x64.Idx → EReal) → (S64x64.Idx → EReal) → S80000x64.Idx → EReal)
    (G4 : (S80000x64.Idx → EReal) → (S64x32.Idx → EReal) → S80000x32.Idx → EReal)
    (G1 G3 : (S80000x64.Idx → EReal) → (S1x64.Idx → EReal) → S80000x64.Idx → EReal)
    (G5 : (S80000x32.Idx → EReal) → (S1x32.Idx → EReal) → S80000x32.Idx → EReal)
    (h0 : ∀ (V : (c : Dev nD) → (b : Ref sig .tc) → Buf (Elt Ideal) ((c : Thread nD τ).loc b)) (c : Dev nD),
      (dat0 (F := Ideal) V c).arrAt 2 cfg0.N = G0 (V c (Pipeline.arrRef spec0 0)) (V c (Pipeline.arrRef spec0 1)))
    (h1 : ∀ (V : (c : Dev nD) → (b : Ref sig .tc) → Buf (Elt Ideal) ((c : Thread nD τ).loc b)) (c : Dev nD),
      (dat1 (F := Ideal) V c).arrAt 2 cfg1.N = G1 (V c (Pipeline.arrRef spec1 0)) (V c (Pipeline.arrRef spec1 1)))
    (h2 : ∀ (V : (c : Dev nD) → (b : Ref sig .tc) → Buf (Elt Ideal) ((c : Thread nD τ).loc b)) (c : Dev nD),
      (dat2 (F := Ideal) V c).arrAt 2 cfg2.N = G2 (V c (Pipeline.arrRef spec2 0)) (V c (Pipeline.arrRef spec2 1)))
    (h3 : ∀ (V : (c : Dev nD) → (b : Ref sig .tc) → Buf (Elt Ideal) ((c : Thread nD τ).loc b)) (c : Dev nD),
      (dat3 (F := Ideal) V c).arrAt 2 cfg3.N = G3 (V c (Pipeline.arrRef spec3 0)) (V c (Pipeline.arrRef spec3 1)))
    (h4 : ∀ (V : (c : Dev nD) → (b : Ref sig .tc) → Buf (Elt Ideal) ((c : Thread nD τ).loc b)) (c : Dev nD),
      (dat4 (F := Ideal) V c).arrAt 2 cfg4.N = G4 (V c (Pipeline.arrRef spec4 0)) (V c (Pipeline.arrRef spec4 1)))
    (h5 : ∀ (V : (c : Dev nD) → (b : Ref sig .tc) → Buf (Elt Ideal) ((c : Thread nD τ).loc b)) (c : Dev nD),
      (dat5 (F := Ideal) V c).arrAt 2 cfg5.N = G5 (V c (Pipeline.arrRef spec5 0)) (V c (Pipeline.arrRef spec5 1))) :
    (W12 m ρ c (Proc.devRef .tc main_v77) : (S80000x32.Idx → EReal))
      = G5 (Net.agg32 (G4 (G3 (Net.agg64 (G2 (G1 (Net.agg64 (G0 (m ((c : Thread nD τ).loc main_arg0)) (m ((c : Thread nD τ).loc main_arg1))) (edges m c))
              (Net.rowOf64 (m ((c : Thread nD τ).loc main_arg2)))) (m ((c : Thread nD τ).loc main_arg3))) (edges m c))
            (Net.rowOf64 (m ((c : Thread nD τ).loc main_arg4)))) (m ((c : Thread nD τ).loc main_arg5))) (edges m c))
          (Net.rowOf32 (m ((c : Thread nD τ).loc main_arg6))) := by
  rw [region5_out m ρ c G5 h5, stretch5_agg, stretch5_bias, region4_out m ρ c G4 h4, W9_arg5,
    region3_out m ρ c G3 h3, stretch3_agg, stretch3_bias, region2_out m ρ c G2 h2, W6_arg3,
    region1_out m ρ c G1 h1, stretch1_agg, stretch1_bias, region0_out m ρ c G0 h0, W3_arg0, W3_arg1]

end Cert.KernelIdeal.HandRun

end
-- ==== Proof.LibEluLaw.lean ====
/-
  The exponential linear unit, two spellings, one function on the extended reals.

  `eluS v` is `v` when `0 < v` and `exp v - 1` otherwise. A kernel spells it `select (v > 0) v (exp v - 1.0)`.
  The host's library function spells it `select (v > 0) v (1.0 * expm1 (select (v > 0) 0 v))`: where `v > 0` fails the
  inner selection returns `v` itself, `expm1 v` is `exp v - 1` on every extended real (at `-∞` both are `-1`), and
  the factor `1.0` is the unit of multiplication. No finiteness is used: at `+∞` both spellings return `+∞`.
-/
import Idealize.ShloMosaic.PureOps.Ideal.Laws
import Idealize.ShloMosaic.Lib.ValueIdx
import Idealize.ShloMosaic.Lib.IdealHost

noncomputable section

namespace Cert.Bridge.Elu

open Idealize.ShloMosaic Idealize.ShloMosaic.ValueIdx

/-- The exponential linear unit on one extended real. -/
def eluS (v : EReal) : EReal := if 0 < v then v else Ideal.exp v - 1

/-- The comparison `v > 0` at the ideal instance, as a condition bit. -/
theorem cmp_ogt_zero_pos {v : EReal} (h : 0 < v) : Ideal.cmp .ogt v 0 = 1#1 := by
  unfold Ideal.cmp; simp [h]

theorem cmp_ogt_zero_neg {v : EReal} (h : ¬ 0 < v) : Ideal.cmp .ogt v 0 = 0#1 := by
  unfold Ideal.cmp; simp [h]

/-- The kernel's spelling on one value. -/
theorem ker_scalar (v : EReal) :
    Scalar.select (Ideal.cmp .ogt v 0) v (Ideal.exp v - 1) = eluS v := by
  unfold eluS
  by_cases h : 0 < v
  · rw [cmp_ogt_zero_pos h, select_one, if_pos h]
  · rw [cmp_ogt_zero_neg h, select_zero, if_neg h]

/-- The host library's spelling on one value. -/
theorem ref_scalar (v : EReal) :
    Scalar.select (Ideal.cmp .ogt v 0) v (1 * (Ideal.exp (Scalar.select (Ideal.cmp .ogt v 0) 0 v) - 1)) = eluS v := by
  unfold eluS
  by_cases h : 0 < v
  · rw [cmp_ogt_zero_pos h, select_one, if_pos h]
  · rw [cmp_ogt_zero_neg h, select_zero, select_zero, if_neg h, one_mul]

variable {s : Shape}

/-- The kernel's vector spelling read at an index: compare with a splat of 0.0, exponential, subtract a splat of 1.0,
    select. -/
theorem ker_apply (v : FVec Ideal s .f32) (i : s.Idx) :
    select (cmpf .ogt v (broadcast s (Scalar.ofBits (F := Ideal) .f32 0x00000000#32))) v
        (subf (exp v) (broadcast s (Scalar.ofBits (F := Ideal) .f32 0x3F800000#32))) i = eluS (v i) := by
  show Scalar.select (Ideal.cmp .ogt (v i) (Ideal.ofBits .f32 0x00000000#32)) (v i)
      (Ideal.exp (v i) - Ideal.ofBits .f32 0x3F800000#32) = eluS (v i)
  rw [Ideal.ofBits_zero_f32, Ideal.ofBits_one_f32]
  exact ker_scalar (v i)

/-- The host library's vector spelling read at an index: the rank-0 constants 0.0 and 1.0 broadcast to the shape, the
    inner selection that replaces positive entries by 0.0 before `expm1`, the product with 1.0, the outer selection. -/
theorem ref_apply (hb : (⟨0, ![]⟩ : Shape).BroadcastsInDim s ![]) (v : FVec Ideal s .f32) (i : s.Idx) :
    select (cmpf .ogt v (broadcastInDim s ![] hb (constant (⟨0, ![]⟩ : Shape) .f32 0x00000000#32))) v
        (mulf (broadcastInDim s ![] hb (constant (⟨0, ![]⟩ : Shape) .f32 0x3F800000#32))
          (Host.expm1 (select (cmpf .ogt v (broadcastInDim s ![] hb (constant (⟨0, ![]⟩ : Shape) .f32 0x00000000#32)))
            (broadcastInDim s ![] hb (id (constant (⟨0, ![]⟩ : Shape) .f32 0x00000000#32))) v))) i = eluS (v i) := by
  have z : broadcastInDim s ![] hb (constant (F := Ideal) (⟨0, ![]⟩ : Shape) .f32 0x00000000#32) i = 0 := by
    rw [broadcastInDim_scalar_apply]; exact Ideal.ofBits_zero_f32
  have o : broadcastInDim s ![] hb (constant (F := Ideal) (⟨0, ![]⟩ : Shape) .f32 0x3F800000#32) i = 1 := by
    rw [broadcastInDim_scalar_apply]; exact Ideal.ofBits_one_f32
  show Scalar.select (Ideal.cmp .ogt (v i) (broadcastInDim s ![] hb (constant (F := Ideal) (⟨0, ![]⟩ : Shape) .f32 0x00000000#32) i)) (v i)
      (broadcastInDim s ![] hb (constant (F := Ideal) (⟨0, ![]⟩ : Shape) .f32 0x3F800000#32) i
        * (Ideal.exp (Scalar.select (Ideal.cmp .ogt (v i) (broadcastInDim s ![] hb (constant (F := Ideal) (⟨0, ![]⟩ : Shape) .f32 0x00000000#32) i))
            (broadcastInDim s ![] hb (constant (F := Ideal) (⟨0, ![]⟩ : Shape) .f32 0x00000000#32) i) (v i)) - 1)) = eluS (v i)
  rw [z, o]
  exact ref_scalar (v i)

end Cert.Bridge.Elu

end
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibMatProd.lean ====
/-
  Plain matrix products as whole arrays, over the extended reals.

  `mprod l r` is the rows×inner by inner×cols product read entry by entry: at (a, b) the sum over k of
  l(a, k) · r(k, b). A `tpu.matmul` into the zero accumulator and the host's `dot_general` whose dimension record reads
  its operands plainly (LibPlainDot's `Reads`) ARE this array, whatever the extents, so a kernel's product of a row
  block and a reference's product of the whole array meet in one function; and the product is ROW-LOCAL: row a of
  l' · r is row p of l · r as soon as row a of l' is row p of l — what makes a row block of a product computed from a
  row block of the left operand that block of the whole product. No finiteness is involved.
-/
import Idealize.ShloMosaic.Lib.ValueIdx
import Idealize.ShloMosaic.PureOps.Ideal.Laws
import proofs.«104014_j18554258719469_1_alg».proof.Proof.LibPlainDot

noncomputable section

namespace Cert.Lib.MatProd

open Idealize.ShloMosaic Idealize.ShloMosaic.ValueIdx Cert.Lib.PlainDot

/-- A rank-2 shape of the given extents. -/
abbrev Sh (a b : ℕ) : Shape := ⟨2, ![a, b]⟩

/-- The coordinates of an index of a rank-2 shape, typed by the extents. -/
abbrev row {R C : ℕ} (j : (Sh R C).Idx) : Fin R := ⟨(j 0).val, (j 0).isLt⟩
abbrev col {R C : ℕ} (j : (Sh R C).Idx) : Fin C := ⟨(j 1).val, (j 1).isLt⟩

/-- A rows×inner by inner×cols product at (a, b): the sum over k of l(a, k) · r(k, b). -/
def mprod {R K C : ℕ} (l : FVec Ideal (Sh R K) .f32) (r : FVec Ideal (Sh K C) .f32) : FVec Ideal (Sh R C) .f32 :=
  fun j => ∑ k : Fin K, l (ix2 (row j) k) * r (ix2 k (col j))

variable {R K C : ℕ}

/-- A `tpu.matmul` into the zero accumulator whose record reads its operands plainly is the product. -/
theorem matmul_eq_mprod {d : DotDims (Sh R K) (Sh K C) (Sh R C)} (h : Reads d) (prec : Option ContractPrecision)
    (l : FVec Ideal (Sh R K) .f32) (r : FVec Ideal (Sh K C) .f32) :
    FloatOps.matmul d prec l r (constant (Sh R C) .f32 0x00000000#32) = mprod l r := by
  funext j
  obtain ⟨a, b, rfl⟩ : ∃ (a : Fin R) (b : Fin C), j = ix2 a b := ⟨j 0, j 1, eq_ix2 j⟩
  exact matmul_zero_apply h prec l r a b

/-- The host's `dot_general` with such a record is the product. -/
theorem dotGeneral_eq_mprod {d : DotDims (Sh R K) (Sh K C) (Sh R C)} (h : Reads d) (prec : Option ContractPrecision)
    (sched : HostSchedule) (l : FVec Ideal (Sh R K) .f32) (r : FVec Ideal (Sh K C) .f32) :
    FloatOps.dotGeneral d prec sched l r = mprod l r := by
  funext j
  obtain ⟨a, b, rfl⟩ : ∃ (a : Fin R) (b : Fin C), j = ix2 a b := ⟨j 0, j 1, eq_ix2 j⟩
  exact dotGeneral_apply h prec sched l r a b

/-- Row locality of a product: row a of l' · r is row p of l · r when row a of l' is row p of l. -/
theorem mprod_row {R' : ℕ} (l' : FVec Ideal (Sh R' K) .f32) (l : FVec Ideal (Sh R K) .f32) (r : FVec Ideal (Sh K C) .f32)
    (a : Fin R') (p : Fin R) (h : ∀ k : Fin K, l' (ix2 a k) = l (ix2 p k)) (b : Fin C) :
    mprod l' r (ix2 a b) = mprod l r (ix2 p b) := by
  unfold mprod
  exact Finset.sum_congr rfl fun k _ => by
    show l' (ix2 a k) * r (ix2 k b) = l (ix2 p k) * r (ix2 k b)
    rw [h k]

end Cert.Lib.MatProd

end
-- ==== Proof.LibBiasRow.lean ====
/-
  A layer's bias and activation as whole arrays over the extended reals.

  After the neighbourhood sum a layer adds its bias to every row: entry (p, c) of the result is o(p, c) + b(c), the bias
  held as a one-row matrix. `bias o r` is that array, `biasElu o r` the same followed by the exponential linear unit
  entry by entry. The host spells the row as a broadcast of the bias vector along axis 1 and then down the rows; a kernel
  reshapes the vector to one row and broadcasts the row inside its body. Both read b(c) at (p, c), so the host's
  `o + broadcast (broadcast b)` is `bias o (reshape b)`, and with the host library's unit on top, `biasElu o (reshape b)`.
-/
import proofs.«104014_j18554258719469_1_alg».proof.Proof.LibEluLaw
import proofs.«104014_j18554258719469_1_alg».proof.Proof.LibBiasLayout
import proofs.«104014_j18554258719469_1_alg».proof.Proof.LibMatProd

noncomputable section

namespace Cert.Bridge.Layer

open Idealize.ShloMosaic Idealize.ShloMosaic.ValueIdx Cert.Lib.MatProd Cert.Lib.BiasLayout Cert.Bridge.Elu

variable {a b : ℕ}

/-- Entry (p, c) is o(p, c) plus the one-row matrix at (0, c). -/
def bias (o : FVec Ideal (Sh a b) .f32) (r : FVec Ideal (Sh 1 b) .f32) : FVec Ideal (Sh a b) .f32 :=
  fun i => o i + r (ix2 (0 : Fin 1) (col i))

/-- The same followed by the exponential linear unit. -/
def biasElu (o : FVec Ideal (Sh a b) .f32) (r : FVec Ideal (Sh 1 b) .f32) : FVec Ideal (Sh a b) .f32 :=
  fun i => eluS (o i + r (ix2 (0 : Fin 1) (col i)))

/-- The host's bias row, broadcast along axis 1 and then down the rows, read at an index: the reshaped vector's entry
    in that column. -/
theorem host_row_apply (hd1 : (⟨1, ![b]⟩ : Shape).BroadcastsInDim (Sh 1 b) ![1])
    (hd2 : (Sh 1 b).BroadcastsInDim (Sh a b) ![0, 1]) (hc : (⟨1, ![b]⟩ : Shape).ShapeCasts (Sh 1 b))
    (x : FVec Ideal (⟨1, ![b]⟩ : Shape) .f32) (i : (Sh a b).Idx) :
    broadcastInDim (Sh a b) ![0, 1] hd2 (broadcastInDim (Sh 1 b) ![1] hd1 x) i
      = shapeCast (Sh 1 b) x hc (ix2 (0 : Fin 1) (col i)) := by
  obtain ⟨p, c, rfl⟩ : ∃ (p : Fin a) (c : Fin b), i = ix2 p c := ⟨i 0, i 1, eq_ix2 i⟩
  rw [bcast_row_apply ![0, 1] rfl hd2 _ p c, reshape_row_eq_bcast_row ![1] rfl hc hd1 x]
  rfl

/-- The host's `o + broadcast (broadcast b)` is `bias o (reshape b)`. -/
theorem host_bias_eq (hd1 : (⟨1, ![b]⟩ : Shape).BroadcastsInDim (Sh 1 b) ![1])
    (hd2 : (Sh 1 b).BroadcastsInDim (Sh a b) ![0, 1]) (hc : (⟨1, ![b]⟩ : Shape).ShapeCasts (Sh 1 b))
    (o : FVec Ideal (Sh a b) .f32) (x : FVec Ideal (⟨1, ![b]⟩ : Shape) .f32) :
    addf o (broadcastInDim (Sh a b) ![0, 1] hd2 (broadcastInDim (Sh 1 b) ![1] hd1 x)) = bias o (shapeCast (Sh 1 b) x hc) := by
  funext i
  show o i + broadcastInDim (Sh a b) ![0, 1] hd2 (broadcastInDim (Sh 1 b) ![1] hd1 x) i = _
  rw [host_row_apply hd1 hd2 hc x i]
  rfl

/-- With the host library's exponential linear unit on top, `biasElu o (reshape b)`. -/
theorem host_biasElu_eq (hb : (⟨0, ![]⟩ : Shape).BroadcastsInDim (Sh a b) ![])
    (hd1 : (⟨1, ![b]⟩ : Shape).BroadcastsInDim (Sh 1 b) ![1])
    (hd2 : (Sh 1 b).BroadcastsInDim (Sh a b) ![0, 1]) (hc : (⟨1, ![b]⟩ : Shape).ShapeCasts (Sh 1 b))
    (o : FVec Ideal (Sh a b) .f32) (x : FVec Ideal (⟨1, ![b]⟩ : Shape) .f32)
    (v : FVec Ideal (Sh a b) .f32)
    (hv : v = addf o (broadcastInDim (Sh a b) ![0, 1] hd2 (broadcastInDim (Sh 1 b) ![1] hd1 x))) :
    select (cmpf .ogt v (broadcastInDim (Sh a b) ![] hb (constant (⟨0, ![]⟩ : Shape) .f32 0x00000000#32))) v
        (mulf (broadcastInDim (Sh a b) ![] hb (constant (⟨0, ![]⟩ : Shape) .f32 0x3F800000#32))
          (Host.expm1 (select (cmpf .ogt v (broadcastInDim (Sh a b) ![] hb (constant (⟨0, ![]⟩ : Shape) .f32 0x00000000#32)))
            (broadcastInDim (Sh a b) ![] hb (id (constant (⟨0, ![]⟩ : Shape) .f32 0x00000000#32))) v)))
      = biasElu o (shapeCast (Sh 1 b) x hc) := by
  funext i
  rw [Elu.ref_apply hb v i, hv, host_bias_eq hd1 hd2 hc o x]
  rfl

end Cert.Bridge.Layer

end
-- ==== Proof.BlockPay.lean ====
/-
  What each of the six kernel bodies stores, as one function of the two blocks it loads, over the extended reals.

  Three bodies multiply an 8000-row block by a whole weight matrix into the zero accumulator: the stored block is the
  plain matrix product of the two loads (the change of float format in front of the product is the identity on
  extended reals). Two bodies add a one-row bias to every row of the block and apply the exponential linear unit entry
  by entry; the last adds the bias only. Each is the same whole-array function that the layer is stated with, taken at
  the block's extent: what remains for a region is that a row of the block is a row of the array.
-/
import proofs.«104014_j18554258719469_1_alg».proof.Proof.Gen.KernelIdeal.Skeleton
import proofs.«104014_j18554258719469_1_alg».proof.Proof.LibBiasRow
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.ValueIdx
open Cert.Lib.MatProd Cert.Lib.PlainDot Cert.Bridge.Layer Cert.Bridge.Elu

/-- The zero offsets of a rank-2 access, as the constant function. -/
theorem zeros2 : (![0, 0] : Fin 2 → Nat) = fun _ => 0 := funext fun a => by fin_cases a <;> rfl

variable {a b : ℕ}

/-- The bias layer at (p, c). -/
theorem bias_apply (o : FVec Ideal (Sh a b) .f32) (r : FVec Ideal (Sh 1 b) .f32) (p : Fin a) (c : Fin b) :
    bias o r (ix2 p c) = o (ix2 p c) + r (ix2 (0 : Fin 1) c) := rfl

/-- The bias layer followed by the unit, at (p, c). -/
theorem biasElu_apply (o : FVec Ideal (Sh a b) .f32) (r : FVec Ideal (Sh 1 b) .f32) (p : Fin a) (c : Fin b) :
    biasElu o r (ix2 p c) = eluS (o (ix2 p c) + r (ix2 (0 : Fin 1) c)) := rfl

/-! ## The bias bodies -/

/-- The last body: the block plus the bias row broadcast down its rows. -/
theorem pay5_eq (x0 : Vec Ideal S8000x32 .f32) (x1 : Vec Ideal S1x32 .f32) : k5_pay1 x0 x1 = bias x0 x1 := by
  funext j
  obtain ⟨p, q, rfl⟩ : ∃ (p : Fin 8000) (q : Fin 32), j = ix2 p q := ⟨j 0, j 1, eq_ix2 j⟩
  unfold k5_pay1
  rw [addf_apply, shapeCast_self, shapeCast_self, broadcastTo_1b_ab_apply]
  rfl

/-- The first activation body: block plus bias row, then the unit spelled compare, exponential, subtract, select. -/
theorem pay1_eq (x0 : Vec Ideal S8000x64 .f32) (x1 : Vec Ideal S1x64 .f32) : k1_pay1 x0 x1 = biasElu x0 x1 := by
  funext j
  obtain ⟨p, q, rfl⟩ : ∃ (p : Fin 8000) (q : Fin 64), j = ix2 p q := ⟨j 0, j 1, eq_ix2 j⟩
  unfold k1_pay1
  refine (ker_apply _ (ix2 p q)).trans ?_
  rw [addf_apply, shapeCast_self, shapeCast_self, broadcastTo_1b_ab_apply]
  rfl

/-- The second activation body is the same text. -/
theorem pay3_eq (x0 : Vec Ideal S8000x64 .f32) (x1 : Vec Ideal S1x64 .f32) : k3_pay1 x0 x1 = biasElu x0 x1 := by
  funext j
  obtain ⟨p, q, rfl⟩ : ∃ (p : Fin 8000) (q : Fin 64), j = ix2 p q := ⟨j 0, j 1, eq_ix2 j⟩
  unfold k3_pay1
  refine (ker_apply _ (ix2 p q)).trans ?_
  rw [addf_apply, shapeCast_self, shapeCast_self, broadcastTo_1b_ab_apply]
  rfl

/-! ## The product bodies -/

/-- The 64-column product's dimension record reads its operands plainly. -/
theorem reads64 : Reads dot_S8000x64_S64x64_S8000x64_1_0_0_1_n_n :=
  ⟨rfl, rfl, fun _ _ => rfl, fun _ _ => rfl, fun _ _ => rfl, fun _ _ => rfl⟩

/-- So does the 32-column product's. -/
theorem reads32 : Reads dot_S8000x64_S64x32_S8000x32_1_0_0_1_n_n :=
  ⟨rfl, rfl, fun _ _ => rfl, fun _ _ => rfl, fun _ _ => rfl, fun _ _ => rfl⟩

/-- The first product body: the block times the weights. -/
theorem pay0_eq (x0 : Vec Ideal S8000x64 .f32) (x1 : Vec Ideal S64x64 .f32) : k0_pay1 x0 x1 = mprod x0 x1 := by
  funext j
  obtain ⟨p, q, rfl⟩ : ∃ (p : Fin 8000) (q : Fin 64), j = ix2 p q := ⟨j 0, j 1, eq_ix2 j⟩
  unfold k0_pay1
  exact (matmul_zero_apply reads64 none _ _ p q).trans rfl

/-- The second product body casts its block to its own shape first. -/
theorem pay2_eq (x0 : Vec Ideal S8000x64 .f32) (x1 : Vec Ideal S64x64 .f32) : k2_pay1 x0 x1 = mprod x0 x1 := by
  funext j
  obtain ⟨p, q, rfl⟩ : ∃ (p : Fin 8000) (q : Fin 64), j = ix2 p q := ⟨j 0, j 1, eq_ix2 j⟩
  unfold k2_pay1
  rw [shapeCast_self]
  exact (matmul_zero_apply reads64 none _ _ p q).trans rfl

/-- The third product body, 64 columns to 32. -/
theorem pay4_eq (x0 : Vec Ideal S8000x64 .f32) (x1 : Vec Ideal S64x32 .f32) : k4_pay1 x0 x1 = mprod x0 x1 := by
  funext j
  obtain ⟨p, q, rfl⟩ : ∃ (p : Fin 8000) (q : Fin 32), j = ix2 p q := ⟨j 0, j 1, eq_ix2 j⟩
  unfold k4_pay1
  rw [shapeCast_self]
  exact (matmul_zero_apply reads32 none _ _ p q).trans rfl

end Cert.KernelIdeal.Blocks

end
-- ==== Proof.Region0.lean ====
/-
  The first pallas region, whole: the output array is the matrix product of the region's two input arrays.

  The grid has ten points; point t reads rows 8000 t … 8000 t + 7999 of the 80000×64 left operand and the 64×64
  weights whole, and writes the same rows of the 80000×64 output. The body's stored block is the product of its two
  loaded blocks; a row of a product depends on the same row of the left operand only, a row of the loaded block is a
  row of the array, and row r of the output is written by point r / 8000: so the array after the region is the product
  of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the weights at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The write-back moves the whole staging block. -/
theorem cut0 (t : Fin cfg0.N) (X : Vec Ideal S8000x64 .f32) (p : Fin 8000) (q : Fin 64) :
    (cfg0.win 2).cut (grid0.coords t) X (ix2 p q) = X (ix2 p q) := rfl

/-- Entry (p, q) of the output block at point t is entry (8000 t + p, q) of the array. -/
theorem emb0_out (t : Fin cfg0.N) (p : Fin 8000) (q : Fin 64) (h : t.val * 8000 + p.val < 80000) :
    ((cfg0.win 2).blk t).view.emb (ix2 p q) = ix2 (⟨t.val * 8000 + p.val, h⟩ : Fin 80000) q := by
  obtain ⟨e0, e1, e2, e3, e4, e5⟩ := idx0 t
  funext a; apply Fin.ext
  match a with
  | ⟨0, _⟩ => show win0_2.index t (0 : Fin 2) * 8000 + 1 * p.val = t.val * 8000 + p.val; omega
  | ⟨1, _⟩ => show win0_2.index t (1 : Fin 2) * 64 + 1 * q.val = q.val; omega

/-- The same for the input block of rows, 64 columns wide. -/
theorem emb0_rows (t : Fin cfg0.N) (p : Fin 8000) (k : Fin 64) (h : t.val * 8000 + p.val < 80000) :
    ((cfg0.win 0).blk t).view.emb (ix2 p k) = ix2 (⟨t.val * 8000 + p.val, h⟩ : Fin 80000) k := by
  obtain ⟨e0, e1, e2, e3, e4, e5⟩ := idx0 t
  funext a; apply Fin.ext
  match a with
  | ⟨0, _⟩ => show win0_0.index t (0 : Fin 2) * 8000 + 1 * p.val = t.val * 8000 + p.val; omega
  | ⟨1, _⟩ => show win0_0.index t (1 : Fin 2) * 64 + 1 * k.val = k.val; omega

/-- The weight matrix is taken whole at every point. -/
theorem emb0_w (t : Fin cfg0.N) (k : Fin 64) (q : Fin 64) :
    ((cfg0.win 1).blk t).view.emb (ix2 k q) = ix2 k q := by
  obtain ⟨e0, e1, e2, e3, e4, e5⟩ := idx0 t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

variable (V : (c : Dev nD) → (b : Ref sig .tc) → Buf (Elt Ideal) ((c : Thread nD τ).loc b))

/-- So the second loaded block is the weight array itself. -/
theorem weights0 (c : Dev nD) (t : Fin cfg0.N) : iblk0 V c 1 t = V c (Pipeline.arrRef spec0 1) := by
  funext y
  obtain ⟨k, q, rfl⟩ : ∃ (k : Fin 64) (q : Fin 64), y = ix2 k q := ⟨y 0, y 1, eq_ix2 y⟩
  exact congrArg (V c (Pipeline.arrRef spec0 1)) (emb0_w t k q)

/-- What point t writes back is block t of the product of the two input arrays as the region finds them: a row of the
    product depends on the same row of the left operand only. -/
theorem flushed0 (c : Dev nD) (t : Fin cfg0.N) :
    (dat0 V c).flushed 2 t = ((cfg0.win 2).blk t).view.read (Elt Ideal)
      (mprod (R := 80000) (K := 64) (C := 64) (V c (Pipeline.arrRef spec0 0)) (V c (Pipeline.arrRef spec0 1))) := by
  show (cfg0.win 2).cut (grid0.coords t) ((dat0 V c).after 2 t) = _
  rw [after0_2]
  unfold out0_2
  rw [View.canon_unit_zero zeros2]
  simp only [View.ld_unit_zero (S := S8000x64) zeros2, View.ld_unit_zero (S := S64x64) zeros2]
  funext j
  have ht : t.val < 10 := lt_of_lt_of_eq t.isLt N_0
  obtain ⟨p, q, rfl⟩ : ∃ (p : Fin 8000) (q : Fin 64), j = ix2 p q := ⟨j 0, j 1, eq_ix2 j⟩
  have hp : p.val < 8000 := p.isLt
  have hb : t.val * 8000 + p.val < 80000 := by omega
  refine (cut0 t _ p q).trans ?_
  refine (congrFun (pay0_eq _ _) (ix2 p q)).trans ?_
  refine Eq.trans ?_ (congrArg (mprod (R := 80000) (K := 64) (C := 64) (V c (Pipeline.arrRef spec0 0)) (V c (Pipeline.arrRef spec0 1)))
    (emb0_out t p q hb)).symm
  rw [weights0 V c t]
  exact mprod_row (iblk0 V c 0 t) (V c (Pipeline.arrRef spec0 0)) (V c (Pipeline.arrRef spec0 1)) p
    (⟨t.val * 8000 + p.val, hb⟩ : Fin 80000)
    (fun k => congrArg (V c (Pipeline.arrRef spec0 0)) (emb0_rows t p k hb)) q

/-- An index of the array is in point t's block iff each coordinate is in the block's range on its axis. -/
theorem mem_blk0 (t : Fin cfg0.N) (i : S80000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v30).slice (win0_2.rect t)).set ↔ _
  rw [View.set_slice_whole, Rect.mem_set_unit]
  exact Iff.rfl

/-- Row r of the array is written back by point r / 8000. -/
theorem cover0 (i : S80000x64.Idx) :
    ∃ t : Fin cfg0.N, (cfg0.win 2).flush t = true ∧ i ∈ ((cfg0.win 2).blk t).view.set := by
  have hi0 : (i 0).val < 80000 := (i 0).isLt
  have hi1 : (i 1).val < 64 := (i 1).isLt
  obtain ⟨t, ht⟩ : ∃ t : Fin cfg0.N, t.val = (i 0).val / 8000 :=
    ⟨⟨(i 0).val / 8000, lt_of_lt_of_eq (by omega : (i 0).val / 8000 < 10) N_0.symm⟩, rfl⟩
  obtain ⟨e0, e1, e2, e3, e4, e5⟩ := idx0 t
  refine ⟨t, flush0_2 t, ?_⟩
  rw [mem_blk0]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 64 ≤ (i 1).val ∧ (i 1).val < win0_2.index t (1 : Fin 2) * 64 + 64
    omega

/-- The output array after the region is the product of the region's two input arrays. -/
theorem arr0 (c : Dev nD) :
    (dat0 (F := Ideal) V c).arrAt 2 cfg0.N
      = mprod (R := 80000) (K := 64) (C := 64) (V c (Pipeline.arrRef spec0 0)) (V c (Pipeline.arrRef spec0 1)) :=
  (dat0 V c).arrAt_eq_of_cover 2 _ (fun t _ => flushed0 V c t) cover0

end Cert.KernelIdeal.Blocks

end
-- ==== Proof.Region1.lean ====
/-
  The second pallas region, whole: the output array is the bias layer followed by the exponential linear unit of the region's two input arrays.

  The grid has ten points; point t reads rows 8000 t … 8000 t + 7999 of the 80000×64 input and the one-row bias whole,
  and writes the same rows of the output. The body's stored block is that layer function of its two loaded blocks, a
  row of the loaded block is a row of the input array, and row r of the output is written by point r / 8000: so the
  array after the region is the layer function of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the bias row at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The write-back moves the whole staging block. -/
theorem cut1 (t : Fin cfg1.N) (X : Vec Ideal S8000x64 .f32) (p : Fin 8000) (q : Fin 64) :
    (cfg1.win 2).cut (grid1.coords t) X (ix2 p q) = X (ix2 p q) := rfl

/-- Entry (p, q) of the output block at point t is entry (8000 t + p, q) of the array. -/
theorem emb1_out (t : Fin cfg1.N) (p : Fin 8000) (q : Fin 64) (h : t.val * 8000 + p.val < 80000) :
    ((cfg1.win 2).blk t).view.emb (ix2 p q) = ix2 (⟨t.val * 8000 + p.val, h⟩ : Fin 80000) q := by
  obtain ⟨e0, e1, e2, e3, e4, e5⟩ := idx1 t
  funext a; apply Fin.ext
  match a with
  | ⟨0, _⟩ => show win1_2.index t (0 : Fin 2) * 8000 + 1 * p.val = t.val * 8000 + p.val; omega
  | ⟨1, _⟩ => show win1_2.index t (1 : Fin 2) * 64 + 1 * q.val = q.val; omega

/-- The same for the input block of rows. -/
theorem emb1_rows (t : Fin cfg1.N) (p : Fin 8000) (q : Fin 64) (h : t.val * 8000 + p.val < 80000) :
    ((cfg1.win 0).blk t).view.emb (ix2 p q) = ix2 (⟨t.val * 8000 + p.val, h⟩ : Fin 80000) q := by
  obtain ⟨e0, e1, e2, e3, e4, e5⟩ := idx1 t
  funext a; apply Fin.ext
  match a with
  | ⟨0, _⟩ => show win1_0.index t (0 : Fin 2) * 8000 + 1 * p.val = t.val * 8000 + p.val; omega
  | ⟨1, _⟩ => show win1_0.index t (1 : Fin 2) * 64 + 1 * q.val = q.val; omega

/-- The bias row is taken whole at every point. -/
theorem emb1_row (t : Fin cfg1.N) (q : Fin 64) :
    ((cfg1.win 1).blk t).view.emb (ix2 (0 : Fin 1) q) = ix2 (0 : Fin 1) q := by
  obtain ⟨e0, e1, e2, e3, e4, e5⟩ := idx1 t
  funext a; apply Fin.ext
  match a with
  | ⟨0, _⟩ => show win1_1.index t (0 : Fin 2) * 1 + 1 * 0 = 0; omega
  | ⟨1, _⟩ => show win1_1.index t (1 : Fin 2) * 64 + 1 * q.val = q.val; omega

variable (V : (c : Dev nD) → (b : Ref sig .tc) → Buf (Elt Ideal) ((c : Thread nD τ).loc b))

/-- What point t writes back is block t of the layer function of the two input arrays as the region finds them. -/
theorem flushed1 (c : Dev nD) (t : Fin cfg1.N) :
    (dat1 V c).flushed 2 t = ((cfg1.win 2).blk t).view.read (Elt Ideal)
      (biasElu (a := 80000) (b := 64) (V c (Pipeline.arrRef spec1 0)) (V c (Pipeline.arrRef spec1 1))) := by
  show (cfg1.win 2).cut (grid1.coords t) ((dat1 V c).after 2 t) = _
  rw [after1_2]
  unfold out1_2
  rw [View.canon_unit_zero zeros2]
  simp only [View.ld_unit_zero (S := S8000x64) zeros2, View.ld_unit_zero (S := S1x64) zeros2]
  funext j
  have ht : t.val < 10 := lt_of_lt_of_eq t.isLt N_1
  obtain ⟨p, q, rfl⟩ : ∃ (p : Fin 8000) (q : Fin 64), j = ix2 p q := ⟨j 0, j 1, eq_ix2 j⟩
  have hp : p.val < 8000 := p.isLt
  have hb : t.val * 8000 + p.val < 80000 := by omega
  refine (cut1 t _ p q).trans ?_
  refine (congrFun (pay1_eq _ _) (ix2 p q)).trans ?_
  refine Eq.trans ?_ (congrArg (biasElu (a := 80000) (b := 64) (V c (Pipeline.arrRef spec1 0)) (V c (Pipeline.arrRef spec1 1)))
    (emb1_out t p q hb)).symm
  rw [biasElu_apply, biasElu_apply]
  have h0 : iblk1 V c 0 t (ix2 p q)
      = V c (Pipeline.arrRef spec1 0) (ix2 (⟨t.val * 8000 + p.val, hb⟩ : Fin 80000) q) :=
    congrArg (V c (Pipeline.arrRef spec1 0)) (emb1_rows t p q hb)
  have h1 : iblk1 V c 1 t (ix2 (0 : Fin 1) q) = V c (Pipeline.arrRef spec1 1) (ix2 (0 : Fin 1) q) :=
    congrArg (V c (Pipeline.arrRef spec1 1)) (emb1_row t q)
  rw [h0, h1]

/-- An index of the array is in point t's block iff each coordinate is in the block's range on its axis. -/
theorem mem_blk1 (t : Fin cfg1.N) (i : S80000x64.Idx) :
    i ∈ ((cfg1.win 2).blk t).view.set ↔ ∀ a : Fin 2, win1_2.index t a * S8000x64.size a ≤ (i a).val
      ∧ (i a).val < win1_2.index t a * S8000x64.size a + S8000x64.size a := by
  show i ∈ ((View.whole main_v45).slice (win1_2.rect t)).set ↔ _
  rw [View.set_slice_whole, Rect.mem_set_unit]
  exact Iff.rfl

/-- Row r of the array is written back by point r / 8000. -/
theorem cover1 (i : S80000x64.Idx) :
    ∃ t : Fin cfg1.N, (cfg1.win 2).flush t = true ∧ i ∈ ((cfg1.win 2).blk t).view.set := by
  have hi0 : (i 0).val < 80000 := (i 0).isLt
  have hi1 : (i 1).val < 64 := (i 1).isLt
  obtain ⟨t, ht⟩ : ∃ t : Fin cfg1.N, t.val = (i 0).val / 8000 :=
    ⟨⟨(i 0).val / 8000, lt_of_lt_of_eq (by omega : (i 0).val / 8000 < 10) N_1.symm⟩, rfl⟩
  obtain ⟨e0, e1, e2, e3, e4, e5⟩ := idx1 t
  refine ⟨t, flush1_2 t, ?_⟩
  rw [mem_blk1]
  intro a
  match a with
  | ⟨0, _⟩ =>
    show win1_2.index t (0 : Fin 2) * 8000 ≤ (i 0).val ∧ (i 0).val < win1_2.index t (0 : Fin 2) * 8000 + 8000
    omega
  | ⟨1, _⟩ =>
    show win1_2.index t (1 : Fin 2) * 64 ≤ (i 1).val ∧ (i 1).val < win1_2.index t (1 : Fin 2) * 64 + 64
    omega

/-- The output array after the region is the layer function of the region's two input arrays. -/
theorem arr1 (c : Dev nD) :
    (dat1 (F := Ideal) V c).arrAt 2 cfg1.N
      = biasElu (a := 80000) (b := 64) (V c (Pipeline.arrRef spec1 0)) (V c (Pipeline.arrRef spec1 1)) :=
  (dat1 V c).arrAt_eq_of_cover 2 _ (fun t _ => flushed1 V c t) cover1

end Cert.KernelIdeal.Blocks

end
-- ==== Proof.Region2.lean ====
/-
  The third pallas region, whole: the output array is the matrix product of the region's two input arrays.

  The grid has ten points; point t reads rows 8000 t … 8000 t + 7999 of the 80000×64 left operand and the 64×64
  weights whole, and writes the same rows of the 80000×64 output. The body's stored block is the product of its two
  loaded blocks; a row of a product depends on the same row of the left operand only, a row of the loaded block is a
  row of the array, and row r of the output is written by point r / 8000: so the array after the region is the product
  of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the weights at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The write-back moves the whole staging block. -/
theorem cut2 (t : Fin cfg2.N) (X : Vec Ideal S8000x64 .f32) (p : Fin 8000) (q : Fin 64) :
    (cfg2.win 2).cut (grid2.coords t) X (ix2 p q) = X (ix2 p q) := rfl

/-- Entry (p, q) of the output block at point t is entry (8000 t + p, q) of the array. -/
theorem emb2_out (t : Fin cfg2.N) (p : Fin 8000) (q : Fin 64) (h : t.val * 8000 + p.val < 80000) :
    ((cfg2.win 2).blk t).view.emb (ix2 p q) = ix2 (⟨t.val * 8000 + p.val, h⟩ : Fin 80000) q := by
  obtain ⟨e0, e1, e2, e3, e4, e5⟩ := idx2 t
  funext a; apply Fin.ext
  match a with
  | ⟨0, _⟩ => show win2_2.index t (0 : Fin 2) * 8000 + 1 * p.val = t.val * 8000 + p.val; omega
  | ⟨1, _⟩ => show win2_2.index t (1 : Fin 2) * 64 + 1 * q.val = q.val; omega

/-- The same for the input block of rows, 64 columns wide. -/
theorem emb2_rows (t : Fin cfg2.N) (p : Fin 8000) (k : Fin 64) (h : t.val * 8000 + p.val < 80000) :
    ((cfg2.win 0).blk t).view.emb (ix2 p k) = ix2 (⟨t.val * 8000 + p.val, h⟩ : Fin 80000) k := by
  obtain ⟨e0, e1, e2, e3, e4, e5⟩ := idx2 t
  funext a; apply Fin.ext
  match a with
  | ⟨0, _⟩ => show win2_0.index t (0 : Fin 2) * 8000 + 1 * p.val = t.val * 8000 + p.val; omega
  | ⟨1, _⟩ => show win2_0.index t (1 : Fin 2) * 64 + 1 * k.val = k.val; omega

/-- The weight matrix is taken whole at every point. -/
theorem emb2_w (t : Fin cfg2.N) (k : Fin 64) (q : Fin 64) :
    ((cfg2.win 1).blk t).view.emb (ix2 k q) = ix2 k q := by
  obtain ⟨e0, e1, e2, e3, e4, e5⟩ := idx2 t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

variable (V : (c : Dev nD) → (b : Ref sig .tc) → Buf (Elt Ideal) ((c : Thread nD τ).loc b))

/-- So the second loaded block is the weight array itself. -/
theorem weights2 (c : Dev nD) (t : Fin cfg2.N) : iblk2 V c 1 t = V c (Pipeline.arrRef spec2 1) := by
  funext y
  obtain ⟨k, q, rfl⟩ : ∃ (k : Fin 64) (q : Fin 64), y = ix2 k q := ⟨y 0, y 1, eq_ix2 y⟩
  exact congrArg (V c (Pipeline.arrRef spec2 1)) (emb2_w t k q)

/-- What point t writes back is block t of the product of the two input arrays as the region finds them: a row of the
    product depends on the same row of the left operand only. -/
theorem flushed2 (c : Dev nD) (t : Fin cfg2.N) :
    (dat2 V c).flushed 2 t = ((cfg2.win 2).blk t).view.read (Elt Ideal)
      (mprod (R := 80000) (K := 64) (C := 64) (V c (Pipeline.arrRef spec2 0)) (V c (Pipeline.arrRef spec2 1))) := by
  show (cfg2.win 2).cut (grid2.coords t) ((dat2 V c).after 2 t) = _
  rw [after2_2]
  unfold out2_2
  rw [View.canon_unit_zero zeros2]
  simp only [View.ld_unit_zero (S := S8000x64) zeros2, View.ld_unit_zero (S := S64x64) zeros2]
  funext j
  have ht : t.val < 10 := lt_of_lt_of_eq t.isLt N_2
  obtain ⟨p, q, rfl⟩ : ∃ (p : Fin 8000) (q : Fin 64), j = ix2 p q := ⟨j 0, j 1, eq_ix2 j⟩
  have hp : p.val < 8000 := p.isLt
  have hb : t.val * 8000 + p.val < 80000 := by omega
  refine (cut2 t _ p q).trans ?_
  refine (congrFun (pay2_eq _ _) (ix2 p q)).trans ?_
  refine Eq.trans ?_ (congrArg (mprod (R := 80000) (K := 64) (C := 64) (V c (Pipeline.arrRef spec2 0)) (V c (Pipeline.arrRef spec2 1)))
    (emb2_out t p q hb)).symm
  rw [weights2 V c t]
  exact mprod_row (iblk2 V c 0 t) (V c (Pipeline.arrRef spec2 0)) (V c (Pipeline.arrRef spec2 1)) p
    (⟨t.val * 8000 + p.val, hb⟩ : Fin 80000)
    (fun k => congrArg (V c (Pipeline.arrRef spec2 0)) (emb2_rows t p k hb)) q

/-- An index of the array is in point t's block iff each coordinate is in the block's range on its axis. -/
theorem mem_blk2 (t : Fin cfg2.N) (i : S80000x64.Idx) :
    i ∈ ((cfg2.win 2).blk t).view.set ↔ ∀ a : Fin 2, win2_2.index t a * S8000x64.size a ≤ (i a).val
      ∧ (i a).val < win2_2.index t a * S8000x64.size a + S8000x64.size a := by
  show i ∈ ((View.whole main_v46).slice (win2_2.rect t)).set ↔ _
  rw [View.set_slice_whole, Rect.mem_set_unit]
  exact Iff.rfl

/-- Row r of the array is written back by point r / 8000. -/
theorem cover2 (i : S80000x64.Idx) :
    ∃ t : Fin cfg2.N, (cfg2.win 2).flush t = true ∧ i ∈ ((cfg2.win 2).blk t).view.set := by
  have hi0 : (i 0).val < 80000 := (i 0).isLt
  have hi1 : (i 1).val < 64 := (i 1).isLt
  obtain ⟨t, ht⟩ : ∃ t : Fin cfg2.N, t.val = (i 0).val / 8000 :=
    ⟨⟨(i 0).val / 8000, lt_of_lt_of_eq (by omega : (i 0).val / 8000 < 10) N_2.symm⟩, rfl⟩
  obtain ⟨e0, e1, e2, e3, e4, e5⟩ := idx2 t
  refine ⟨t, flush2_2 t, ?_⟩
  rw [mem_blk2]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 64 ≤ (i 1).val ∧ (i 1).val < win2_2.index t (1 : Fin 2) * 64 + 64
    omega

/-- The output array after the region is the product of the region's two input arrays. -/
theorem arr2 (c : Dev nD) :
    (dat2 (F := Ideal) V c).arrAt 2 cfg2.N
      = mprod (R := 80000) (K := 64) (C := 64) (V c (Pipeline.arrRef spec2 0)) (V c (Pipeline.arrRef spec2 1)) :=
  (dat2 V c).arrAt_eq_of_cover 2 _ (fun t _ => flushed2 V c t) cover2

end Cert.KernelIdeal.Blocks

end
-- ==== Proof.Region3.lean ====
/-
  The fourth pallas region, whole: the output array is the bias layer followed by the exponential linear unit of the region's two input arrays.

  The grid has ten points; point t reads rows 8000 t … 8000 t + 7999 of the 80000×64 input and the one-row bias whole,
  and writes the same rows of the output. The body's stored block is that layer function of its two loaded blocks, a
  row of the loaded block is a row of the input array, and row r of the output is written by point r / 8000: so the
  array after the region is the layer function of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the bias row at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The write-back moves the whole staging block. -/
theorem cut3 (t : Fin cfg3.N) (X : Vec Ideal S8000x64 .f32) (p : Fin 8000) (q : Fin 64) :
    (cfg3.win 2).cut (grid3.coords t) X (ix2 p q) = X (ix2 p q) := rfl

/-- Entry (p, q) of the output block at point t is entry (8000 t + p, q) of the array. -/
theorem emb3_out (t : Fin cfg3.N) (p : Fin 8000) (q : Fin 64) (h : t.val * 8000 + p.val < 80000) :
    ((cfg3.win 2).blk t).view.emb (ix2 p q) = ix2 (⟨t.val * 8000 + p.val, h⟩ : Fin 80000) q := by
  obtain ⟨e0, e1, e2, e3, e4, e5⟩ := idx3 t
  funext a; apply Fin.ext
  match a with
  | ⟨0, _⟩ => show win3_2.index t (0 : Fin 2) * 8000 + 1 * p.val = t.val * 8000 + p.val; omega
  | ⟨1, _⟩ => show win3_2.index t (1 : Fin 2) * 64 + 1 * q.val = q.val; omega

/-- The same for the input block of rows. -/
theorem emb3_rows (t : Fin cfg3.N) (p : Fin 8000) (q : Fin 64) (h : t.val * 8000 + p.val < 80000) :
    ((cfg3.win 0).blk t).view.emb (ix2 p q) = ix2 (⟨t.val * 8000 + p.val, h⟩ : Fin 80000) q := by
  obtain ⟨e0, e1, e2, e3, e4, e5⟩ := idx3 t
  funext a; apply Fin.ext
  match a with
  | ⟨0, _⟩ => show win3_0.index t (0 : Fin 2) * 8000 + 1 * p.val = t.val * 8000 + p.val; omega
  | ⟨1, _⟩ => show win3_0.index t (1 : Fin 2) * 64 + 1 * q.val = q.val; omega

/-- The bias row is taken whole at every point. -/
theorem emb3_row (t : Fin cfg3.N) (q : Fin 64) :
    ((cfg3.win 1).blk t).view.emb (ix2 (0 : Fin 1) q) = ix2 (0 : Fin 1) q := by
  obtain ⟨e0, e1, e2, e3, e4, e5⟩ := idx3 t
  funext a; apply Fin.ext
  match a with
  | ⟨0, _⟩ => show win3_1.index t (0 : Fin 2) * 1 + 1 * 0 = 0; omega
  | ⟨1, _⟩ => show win3_1.index t (1 : Fin 2) * 64 + 1 * q.val = q.val; omega

variable (V : (c : Dev nD) → (b : Ref sig .tc) → Buf (Elt Ideal) ((c : Thread nD τ).loc b))

/-- What point t writes back is block t of the layer function of the two input arrays as the region finds them. -/
theorem flushed3 (c : Dev nD) (t : Fin cfg3.N) :
    (dat3 V c).flushed 2 t = ((cfg3.win 2).blk t).view.read (Elt Ideal)
      (biasElu (a := 80000) (b := 64) (V c (Pipeline.arrRef spec3 0)) (V c (Pipeline.arrRef spec3 1))) := by
  show (cfg3.win 2).cut (grid3.coords t) ((dat3 V c).after 2 t) = _
  rw [after3_2]
  unfold out3_2
  rw [View.canon_unit_zero zeros2]
  simp only [View.ld_unit_zero (S := S8000x64) zeros2, View.ld_unit_zero (S := S1x64) zeros2]
  funext j
  have ht : t.val < 10 := lt_of_lt_of_eq t.isLt N_3
  obtain ⟨p, q, rfl⟩ : ∃ (p : Fin 8000) (q : Fin 64), j = ix2 p q := ⟨j 0, j 1, eq_ix2 j⟩
  have hp : p.val < 8000 := p.isLt
  have hb : t.val * 8000 + p.val < 80000 := by omega
  refine (cut3 t _ p q).trans ?_
  refine (congrFun (pay3_eq _ _) (ix2 p q)).trans ?_
  refine Eq.trans ?_ (congrArg (biasElu (a := 80000) (b := 64) (V c (Pipeline.arrRef spec3 0)) (V c (Pipeline.arrRef spec3 1)))
    (emb3_out t p q hb)).symm
  rw [biasElu_apply, biasElu_apply]
  have h0 : iblk3 V c 0 t (ix2 p q)
      = V c (Pipeline.arrRef spec3 0) (ix2 (⟨t.val * 8000 + p.val, hb⟩ : Fin 80000) q) :=
    congrArg (V c (Pipeline.arrRef spec3 0)) (emb3_rows t p q hb)
  have h1 : iblk3 V c 1 t (ix2 (0 : Fin 1) q) = V c (Pipeline.arrRef spec3 1) (ix2 (0 : Fin 1) q) :=
    congrArg (V c (Pipeline.arrRef spec3 1)) (emb3_row t q)
  rw [h0, h1]

/-- An index of the array is in point t's block iff each coordinate is in the block's range on its axis. -/
theorem mem_blk3 (t : Fin cfg3.N) (i : S80000x64.Idx) :
    i ∈ ((cfg3.win 2).blk t).view.set ↔ ∀ a : Fin 2, win3_2.index t a * S8000x64.size a ≤ (i a).val
      ∧ (i a).val < win3_2.index t a * S8000x64.size a + S8000x64.size a := by
  show i ∈ ((View.whole main_v61).slice (win3_2.rect t)).set ↔ _
  rw [View.set_slice_whole, Rect.mem_set_unit]
  exact Iff.rfl

/-- Row r of the array is written back by point r / 8000. -/
theorem cover3 (i : S80000x64.Idx) :
    ∃ t : Fin cfg3.N, (cfg3.win 2).flush t = true ∧ i ∈ ((cfg3.win 2).blk t).view.set := by
  have hi0 : (i 0).val < 80000 := (i 0).isLt
  have hi1 : (i 1).val < 64 := (i 1).isLt
  obtain ⟨t, ht⟩ : ∃ t : Fin cfg3.N, t.val = (i 0).val / 8000 :=
    ⟨⟨(i 0).val / 8000, lt_of_lt_of_eq (by omega : (i 0).val / 8000 < 10) N_3.symm⟩, rfl⟩
  obtain ⟨e0, e1, e2, e3, e4, e5⟩ := idx3 t
  refine ⟨t, flush3_2 t, ?_⟩
  rw [mem_blk3]
  intro a
  match a with
  | ⟨0, _⟩ =>
    show win3_2.index t (0 : Fin 2) * 8000 ≤ (i 0).val ∧ (i 0).val < win3_2.index t (0 : Fin 2) * 8000 + 8000
    omega
  | ⟨1, _⟩ =>
    show win3_2.index t (1 : Fin 2) * 64 ≤ (i 1).val ∧ (i 1).val < win3_2.index t (1 : Fin 2) * 64 + 64
    omega

/-- The output array after the region is the layer function of the region's two input arrays. -/
theorem arr3 (c : Dev nD) :
    (dat3 (F := Ideal) V c).arrAt 2 cfg3.N
      = biasElu (a := 80000) (b := 64) (V c (Pipeline.arrRef spec3 0)) (V c (Pipeline.arrRef spec3 1)) :=
  (dat3 V c).arrAt_eq_of_cover 2 _ (fun t _ => flushed3 V c t) cover3

end Cert.KernelIdeal.Blocks

end
-- ==== Proof.Region4.lean ====
/-
  The fifth pallas region, whole: the output array is the matrix product of the region's two input arrays.

  The grid has ten points; point t reads rows 8000 t … 8000 t + 7999 of the 80000×64 left operand and the 64×32
  weights whole, and writes the same rows of the 80000×32 output. The body's stored block is the product of its two
  loaded blocks; a row of a product depends on the same row of the left operand only, a row of the loaded block is a
  row of the array, and row r of the output is written by point r / 8000: so the array after the region is the product
  of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the weights at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The write-back moves the whole staging block. -/
theorem cut4 (t : Fin cfg4.N) (X : Vec Ideal S8000x32 .f32) (p : Fin 8000) (q : Fin 32) :
    (cfg4.win 2).cut (grid4.coords t) X (ix2 p q) = X (ix2 p q) := rfl

/-- Entry (p, q) of the output block at point t is entry (8000 t + p, q) of the array. -/
theorem emb4_out (t : Fin cfg4.N) (p : Fin 8000) (q : Fin 32) (h : t.val * 8000 + p.val < 80000) :
    ((cfg4.win 2).blk t).view.emb (ix2 p q) = ix2 (⟨t.val * 8000 + p.val, h⟩ : Fin 80000) q := by
  obtain ⟨e0, e1, e2, e3, e4, e5⟩ := idx4 t
  funext a; apply Fin.ext
  match a with
  | ⟨0, _⟩ => show win4_2.index t (0 : Fin 2) * 8000 + 1 * p.val = t.val * 8000 + p.val; omega
  | ⟨1, _⟩ => show win4_2.index t (1 : Fin 2) * 32 + 1 * q.val = q.val; omega

/-- The same for the input block of rows, 64 columns wide. -/
theorem emb4_rows (t : Fin cfg4.N) (p : Fin 8000) (k : Fin 64) (h : t.val * 8000 + p.val < 80000) :
    ((cfg4.win 0).blk t).view.emb (ix2 p k) = ix2 (⟨t.val * 8000 + p.val, h⟩ : Fin 80000) k := by
  obtain ⟨e0, e1, e2, e3, e4, e5⟩ := idx4 t
  funext a; apply Fin.ext
  match a with
  | ⟨0, _⟩ => show win4_0.index t (0 : Fin 2) * 8000 + 1 * p.val = t.val * 8000 + p.val; omega
  | ⟨1, _⟩ => show win4_0.index t (1 : Fin 2) * 64 + 1 * k.val = k.val; omega

/-- The weight matrix is taken whole at every point. -/
theorem emb4_w (t : Fin cfg4.N) (k : Fin 64) (q : Fin 32) :
    ((cfg4.win 1).blk t).view.emb (ix2 k q) = ix2 k q := by
  obtain ⟨e0, e1, e2, e3, e4, e5⟩ := idx4 t
  funext a; apply Fin.ext
  match a with
  | ⟨0, _⟩ => show win4_1.index t (0 : Fin 2) * 64 + 1 * k.val = k.val; omega
  | ⟨1, _⟩ => show win4_1.index t (1 : Fin 2) * 32 + 1 * q.val = q.val; omega

variable (V : (c : Dev nD) → (b : Ref sig .tc) → Buf (Elt Ideal) ((c : Thread nD τ).loc b))

/-- So the second loaded block is the weight array itself. -/
theorem weights4 (c : Dev nD) (t : Fin cfg4.N) : iblk4 V c 1 t = V c (Pipeline.arrRef spec4 1) := by
  funext y
  obtain ⟨k, q, rfl⟩ : ∃ (k : Fin 64) (q : Fin 32), y = ix2 k q := ⟨y 0, y 1, eq_ix2 y⟩
  exact congrArg (V c (Pipeline.arrRef spec4 1)) (emb4_w t k q)

/-- What point t writes back is block t of the product of the two input arrays as the region finds them: a row of the
    product depends on the same row of the left operand only. -/
theorem flushed4 (c : Dev nD) (t : Fin cfg4.N) :
    (dat4 V c).flushed 2 t = ((cfg4.win 2).blk t).view.read (Elt Ideal)
      (mprod (R := 80000) (K := 64) (C := 32) (V c (Pipeline.arrRef spec4 0)) (V c (Pipeline.arrRef spec4 1))) := by
  show (cfg4.win 2).cut (grid4.coords t) ((dat4 V c).after 2 t) = _
  rw [after4_2]
  unfold out4_2
  rw [View.canon_unit_zero zeros2]
  simp only [View.ld_unit_zero (S := S8000x64) zeros2, View.ld_unit_zero (S := S64x32) zeros2]
  funext j
  have ht : t.val < 10 := lt_of_lt_of_eq t.isLt N_4
  obtain ⟨p, q, rfl⟩ : ∃ (p : Fin 8000) (q : Fin 32), j = ix2 p q := ⟨j 0, j 1, eq_ix2 j⟩
  have hp : p.val < 8000 := p.isLt
  have hb : t.val * 8000 + p.val < 80000 := by omega
  refine (cut4 t _ p q).trans ?_
  refine (congrFun (pay4_eq _ _) (ix2 p q)).trans ?_
  refine Eq.trans ?_ (congrArg (mprod (R := 80000) (K := 64) (C := 32) (V c (Pipeline.arrRef spec4 0)) (V c (Pipeline.arrRef spec4 1)))
    (emb4_out t p q hb)).symm
  rw [weights4 V c t]
  exact mprod_row (iblk4 V c 0 t) (V c (Pipeline.arrRef spec4 0)) (V c (Pipeline.arrRef spec4 1)) p
    (⟨t.val * 8000 + p.val, hb⟩ : Fin 80000)
    (fun k => congrArg (V c (Pipeline.arrRef spec4 0)) (emb4_rows t p k hb)) q

/-- An index of the array is in point t's block iff each coordinate is in the block's range on its axis. -/
theorem mem_blk4 (t : Fin cfg4.N) (i : S80000x32.Idx) :
    i ∈ ((cfg4.win 2).blk t).view.set ↔ ∀ a : Fin 2, win4_2.index t a * S8000x32.size a ≤ (i a).val
      ∧ (i a).val < win4_2.index t a * S8000x32.size a + S8000x32.size a := by
  show i ∈ ((View.whole main_v62).slice (win4_2.rect t)).set ↔ _
  rw [View.set_slice_whole, Rect.mem_set_unit]
  exact Iff.rfl

/-- Row r of the array is written back by point r / 8000. -/
theorem cover4 (i : S80000x32.Idx) :
    ∃ t : Fin cfg4.N, (cfg4.win 2).flush t = true ∧ i ∈ ((cfg4.win 2).blk t).view.set := by
  have hi0 : (i 0).val < 80000 := (i 0).isLt
  have hi1 : (i 1).val < 32 := (i 1).isLt
  obtain ⟨t, ht⟩ : ∃ t : Fin cfg4.N, t.val = (i 0).val / 8000 :=
    ⟨⟨(i 0).val / 8000, lt_of_lt_of_eq (by omega : (i 0).val / 8000 < 10) N_4.symm⟩, rfl⟩
  obtain ⟨e0, e1, e2, e3, e4, e5⟩ := idx4 t
  refine ⟨t, flush4_2 t, ?_⟩
  rw [mem_blk4]
  intro a
  match a with
  | ⟨0, _⟩ =>
    show win4_2.index t (0 : Fin 2) * 8000 ≤ (i 0).val ∧ (i 0).val < win4_2.index t (0 : Fin 2) * 8000 + 8000
    omega
  | ⟨1, _⟩ =>
    show win4_2.index t (1 : Fin 2) * 32 ≤ (i 1).val ∧ (i 1).val < win4_2.index t (1 : Fin 2) * 32 + 32
    omega

/-- The output array after the region is the product of the region's two input arrays. -/
theorem arr4 (c : Dev nD) :
    (dat4 (F := Ideal) V c).arrAt 2 cfg4.N
      = mprod (R := 80000) (K := 64) (C := 32) (V c (Pipeline.arrRef spec4 0)) (V c (Pipeline.arrRef spec4 1)) :=
  (dat4 V c).arrAt_eq_of_cover 2 _ (fun t _ => flushed4 V c t) cover4

end Cert.KernelIdeal.Blocks

end
-- ==== Proof.Region5.lean ====
/-
  The sixth pallas region, whole: the output array is the bias layer of the region's two input arrays.

  The grid has ten points; point t reads rows 8000 t … 8000 t + 7999 of the 80000×32 input and the one-row bias whole,
  and writes the same rows of the output. The body's stored block is that layer function of its two loaded blocks, a
  row of the loaded block is a row of the input array, and row r of the output is written by point r / 8000: so the
  array after the region is the layer function of the input arrays, index by index.
-/
import proofs.«104014_j18554258719469_1_alg».proof.Proof.Gen.KernelIdeal.Frame
import proofs.«104014_j18554258719469_1_alg».proof.Proof.BlockPay

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.MatProd Cert.Bridge.Layer
open Idealize.ShloMosaic.Pipeline (Dat)

/-- The index maps over the grid: at point t the row windows sit at block (t, 0), the bias row at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The write-back moves the whole staging block. -/
theorem cut5 (t : Fin cfg5.N) (X : Vec Ideal S8000x32 .f32) (p : Fin 8000) (q : Fin 32) :
    (cfg5.win 2).cut (grid5.coords t) X (ix2 p q) = X (ix2 p q) := rfl

/-- Entry (p, q) of the output block at point t is entry (8000 t + p, q) of the array. -/
theorem emb5_out (t : Fin cfg5.N) (p : Fin 8000) (q : Fin 32) (h : t.val * 8000 + p.val < 80000) :
    ((cfg5.win 2).blk t).view.emb (ix2 p q) = ix2 (⟨t.val * 8000 + p.val, h⟩ : Fin 80000) q := by
  obtain ⟨e0, e1, e2, e3, e4, e5⟩ := idx5 t
  funext a; apply Fin.ext
  match a with
  | ⟨0, _⟩ => show win5_2.index t (0 : Fin 2) * 8000 + 1 * p.val = t.val * 8000 + p.val; omega
  | ⟨1, _⟩ => show win5_2.index t (1 : Fin 2) * 32 + 1 * q.val = q.val; omega

/-- The same for the input block of rows. -/
theorem emb5_rows (t : Fin cfg5.N) (p : Fin 8000) (q : Fin 32) (h : t.val * 8000 + p.val < 80000) :
    ((cfg5.win 0).blk t).view.emb (ix2 p q) = ix2 (⟨t.val * 8000 + p.val, h⟩ : Fin 80000) q := by
  obtain ⟨e0, e1, e2, e3, e4, e5⟩ := idx5 t
  funext a; apply Fin.ext
  match a with
  | ⟨0, _⟩ => show win5_0.index t (0 : Fin 2) * 8000 + 1 * p.val = t.val * 8000 + p.val; omega
  | ⟨1, _⟩ => show win5_0.index t (1 : Fin 2) * 32 + 1 * q.val = q.val; omega

/-- The bias row is taken whole at every point. -/
theorem emb5_row (t : Fin cfg5.N) (q : Fin 32) :
    ((cfg5.win 1).blk t).view.emb (ix2 (0 : Fin 1) q) = ix2 (0 : Fin 1) q := by
  obtain ⟨e0, e1, e2, e3, e4, e5⟩ := idx5 t
  funext a; apply Fin.ext
  match a with
  | ⟨0, _⟩ => show win5_1.index t (0 : Fin 2) * 1 + 1 * 0 = 0; omega
  | ⟨1, _⟩ => show win5_1.index t (1 : Fin 2) * 32 + 1 * q.val = q.val; omega

variable (V : (c : Dev nD) → (b : Ref sig .tc) → Buf (Elt Ideal) ((c : Thread nD τ).loc b))

/-- What point t writes back is block t of the layer function of the two input arrays as the region finds them. -/
theorem flushed5 (c : Dev nD) (t : Fin cfg5.N) :
    (dat5 V c).flushed 2 t = ((cfg5.win 2).blk t).view.read (Elt Ideal)
      (bias (a := 80000) (b := 32) (V c (Pipeline.arrRef spec5 0)) (V c (Pipeline.arrRef spec5 1))) := by
  show (cfg5.win 2).cut (grid5.coords t) ((dat5 V c).after 2 t) = _
  rw [after5_2]
  unfold out5_2
  rw [View.canon_unit_zero zeros2]
  simp only [View.ld_unit_zero (S := S8000x32) zeros2, View.ld_unit_zero (S := S1x32) zeros2]
  funext j
  have ht : t.val < 10 := lt_of_lt_of_eq t.isLt N_5
  obtain ⟨p, q, rfl⟩ : ∃ (p : Fin 8000) (q : Fin 32), j = ix2 p q := ⟨j 0, j 1, eq_ix2 j⟩
  have hp : p.val < 8000 := p.isLt
  have hb : t.val * 8000 + p.val < 80000 := by omega
  refine (cut5 t _ p q).trans ?_
  refine (congrFun (pay5_eq _ _) (ix2 p q)).trans ?_
  refine Eq.trans ?_ (congrArg (bias (a := 80000) (b := 32) (V c (Pipeline.arrRef spec5 0)) (V c (Pipeline.arrRef spec5 1)))
    (emb5_out t p q hb)).symm
  rw [bias_apply, bias_apply]
  have h0 : iblk5 V c 0 t (ix2 p q)
      = V c (Pipeline.arrRef spec5 0) (ix2 (⟨t.val * 8000 + p.val, hb⟩ : Fin 80000) q) :=
    congrArg (V c (Pipeline.arrRef spec5 0)) (emb5_rows t p q hb)
  have h1 : iblk5 V c 1 t (ix2 (0 : Fin 1) q) = V c (Pipeline.arrRef spec5 1) (ix2 (0 : Fin 1) q) :=
    congrArg (V c (Pipeline.arrRef spec5 1)) (emb5_row t q)
  rw [h0, h1]

/-- An index of the array is in point t's block iff each coordinate is in the block's range on its axis. -/
theorem mem_blk5 (t : Fin cfg5.N) (i : S80000x32.Idx) :
    i ∈ ((cfg5.win 2).blk t).view.set ↔ ∀ a : Fin 2, win5_2.index t a * S8000x32.size a ≤ (i a).val
      ∧ (i a).val < win5_2.index t a * S8000x32.size a + S8000x32.size a := by
  show i ∈ ((View.whole main_v77).slice (win5_2.rect t)).set ↔ _
  rw [View.set_slice_whole, Rect.mem_set_unit]
  exact Iff.rfl

/-- Row r of the array is written back by point r / 8000. -/
theorem cover5 (i : S80000x32.Idx) :
    ∃ t : Fin cfg5.N, (cfg5.win 2).flush t = true ∧ i ∈ ((cfg5.win 2).blk t).view.set := by
  have hi0 : (i 0).val < 80000 := (i 0).isLt
  have hi1 : (i 1).val < 32 := (i 1).isLt
  obtain ⟨t, ht⟩ : ∃ t : Fin cfg5.N, t.val = (i 0).val / 8000 :=
    ⟨⟨(i 0).val / 8000, lt_of_lt_of_eq (by omega : (i 0).val / 8000 < 10) N_5.symm⟩, rfl⟩
  obtain ⟨e0, e1, e2, e3, e4, e5⟩ := idx5 t
  refine ⟨t, flush5_2 t, ?_⟩
  rw [mem_blk5]
  intro a
  match a with
  | ⟨0, _⟩ =>
    show win5_2.index t (0 : Fin 2) * 8000 ≤ (i 0).val ∧ (i 0).val < win5_2.index t (0 : Fin 2) * 8000 + 8000
    omega
  | ⟨1, _⟩ =>
    show win5_2.index t (1 : Fin 2) * 32 ≤ (i 1).val ∧ (i 1).val < win5_2.index t (1 : Fin 2) * 32 + 32
    omega

/-- The output array after the region is the layer function of the region's two input arrays. -/
theorem arr5 (c : Dev nD) :
    (dat5 (F := Ideal) V c).arrAt 2 cfg5.N
      = bias (a := 80000) (b := 32) (V c (Pipeline.arrRef spec5 0)) (V c (Pipeline.arrRef spec5 1)) :=
  (dat5 V c).arrAt_eq_of_cover 2 _ (fun t _ => flushed5 V c t) cover5

end Cert.KernelIdeal.Blocks

end
-- ==== Proof.KernelValue.lean ====
/-
  The idealized kernel's result as one function of its arguments.

  At the ideal instance each dense region leaves the product array of its two inputs (every row block of the product is
  the product of that row block with the whole weight matrix), each bias region leaves its input plus the bias row, the
  first two followed by the exponential linear unit; the host stretches between the regions send the rows along the
  edges. Composed over the run's boundaries the result buffer holds `kerNet` of the eight arguments.
-/
import proofs.«104014_j18554258719469_1_alg».proof.Proof.KRun
import proofs.«104014_j18554258719469_1_alg».proof.Proof.KWalk
import proofs.«104014_j18554258719469_1_alg».proof.Proof.Region0
import proofs.«104014_j18554258719469_1_alg».proof.Proof.Region1
import proofs.«104014_j18554258719469_1_alg».proof.Proof.Region2
import proofs.«104014_j18554258719469_1_alg».proof.Proof.Region3
import proofs.«104014_j18554258719469_1_alg».proof.Proof.Region4
import proofs.«104014_j18554258719469_1_alg».proof.Proof.Region5
import proofs.«104014_j18554258719469_1_alg».proof.Proof.LibBiasRow

noncomputable section

namespace Cert.Proof.Parts

open Cert.KernelIdeal Cert.KernelIdeal.Gen Idealize.ShloMosaic Idealize.ShloMosaic.TcCoe Idealize.SL.Sem
open Cert.Lib.MatProd Cert.Bridge.Layer

/-- Three graph-convolution layers on the extended reals: product with the layer's weights, propagation along the
    edges, bias; the exponential linear unit after the first two. -/
def kerNet (x : FVec Ideal (Sh 80000 64) .f32) (W1 : FVec Ideal (Sh 64 64) .f32) (b1 : FVec Ideal (⟨1, ![64]⟩ : Shape) .f32)
    (W2 : FVec Ideal (Sh 64 64) .f32) (b2 : FVec Ideal (⟨1, ![64]⟩ : Shape) .f32)
    (W3 : FVec Ideal (Sh 64 32) .f32) (b3 : FVec Ideal (⟨1, ![32]⟩ : Shape) .f32)
    (e : Vec Ideal (⟨2, ![2, 1280000]⟩ : Shape) .i32) : FVec Ideal (Sh 80000 32) .f32 :=
  bias (Net.agg32 (F := Ideal) (mprod (biasElu (Net.agg64 (F := Ideal) (mprod
      (biasElu (Net.agg64 (F := Ideal) (mprod x W1) e) (Net.rowOf64 (F := Ideal) b1)) W2) e) (Net.rowOf64 (F := Ideal) b2)) W3) e)
    (Net.rowOf32 (F := Ideal) b3)

variable (m : (ℓ : Loc nD τ sig) → Buf (Elt Ideal) ℓ) (ρ : Dev nD → PrngReg)

/-- The result buffer at the end of the run is `kerNet` of the launch memory's arguments. -/
theorem kernel_value (c : Dev nD) :
    (W12 m ρ c (Proc.devRef .tc main_v77) : S80000x32.Idx → EReal)
      = kerNet (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  Cert.KernelIdeal.HandRun.W12_v77 m ρ c
    (mprod (R := 80000) (K := 64) (C := 64)) (mprod (R := 80000) (K := 64) (C := 64)) (mprod (R := 80000) (K := 64) (C := 32))
    (biasElu (a := 80000) (b := 64)) (biasElu (a := 80000) (b := 64)) (bias (a := 80000) (b := 32))
    Cert.KernelIdeal.Blocks.arr0 Cert.KernelIdeal.Blocks.arr1 Cert.KernelIdeal.Blocks.arr2
    Cert.KernelIdeal.Blocks.arr3 Cert.KernelIdeal.Blocks.arr4 Cert.KernelIdeal.Blocks.arr5

/-- The idealized kernel's run: it terminates, nothing faults, the result is `kerNet` of the arguments and the
    arguments end as launched. -/
theorem kernel_run : θ_run (defs (F := Ideal)) (onTc (τ := τ) (main (F := Ideal))) ⟨m, fun _ => 0, ρ⟩ (fun r => ∀ c : Dev nD,
      r.2.mem ((c.tc : Thread nD τ).loc main_v77)
        = kerNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (kernel_value m ρ c), (h c).2⟩)
    (Cert.KernelIdeal.HandRun.run_result (F := Ideal) m ρ)

end Cert.Proof.Parts

end
-- ==== Proof.RNet.lean ====
import proofs.«104014_j18554258719469_1_alg».proof.ReferenceIdeal

/-!
# The graph-convolution network's whole-array functions

Each function below is a short composition of the program's own array operations, named so that a
statement about a whole layer can be written (and compared) without opening it.

With `e` the `2 × 1280000` edge array: `srcIdx e` and `dstIdx e` are its two rows, each extended by
the `80000` self loops `0, 1, …, 79999`; `deg e` counts, per node, the edges ending there; `dinv e` is
`1/√deg` where the degree is positive and `0` elsewhere; `norm e` is, per edge, the product of `dinv` at
its two ends; `agg64 h e` (`agg32`) sends the feature rows of `h` along the edges — row `src` scaled by the
edge's `norm`, summed into row `dst`.
-/

noncomputable section

namespace Cert.ReferenceIdeal.Net

open Idealize.ShloMosaic Cert.ReferenceIdeal

variable {F : FTy → Type} [FloatOps F] [Facts₀]
open Facts₀

/-- Row 0 of the edge array (the edges' sources), followed by the self loops `0 … 79999`. -/
def srcIdx (e : Vec F S2x1280000 .i32) : Vec F S1360000 .i32 :=
  concatenate S1360000 0
    [⟨S1280000, shapeCast S1280000 (extractStridedSlice S1x1280000 ![0, 0] e slices_S2x1280000_S1x1280000_0_0) shapeCasts_S1x1280000_S1280000⟩,
     ⟨S80000, iotaInDim S80000 32 0⟩] concatenates_S1280000_S80000_S1360000_d0

/-- Row 1 of the edge array (the edges' destinations), followed by the self loops `0 … 79999`. -/
def dstIdx (e : Vec F S2x1280000 .i32) : Vec F S1360000 .i32 :=
  concatenate S1360000 0
    [⟨S1280000, shapeCast S1280000 (extractStridedSlice S1x1280000 ![1, 0] e slices_S2x1280000_S1x1280000_1_0) shapeCasts_S1x1280000_S1280000⟩,
     ⟨S80000, iotaInDim S80000 32 0⟩] concatenates_S1280000_S80000_S1360000_d0

/-- An index vector as a one-column matrix (the form gather and scatter take their indices in). -/
def col (i : Vec F S1360000 .i32) : Vec F S1360000x1 .i32 :=
  broadcastInDim S1360000x1 ![0] bcast_S1360000_S1360000x1_0 i

/-- A negative index counts from the end: `i + 80000` where `i < 0`, `i` elsewhere; as a column. -/
def wrap (i : Vec F S1360000 .i32) : Vec F S1360000x1 .i32 :=
  col (select (cmpi .slt i (broadcastInDim S1360000 ![] bcast_S_S1360000 (constantI S_ 32 0#32)))
        (addi i (broadcastInDim S1360000 ![] bcast_S_S1360000 (constantI S_ 32 80000#32))) i)

/-- The in-degree of every node: a one summed at each edge's destination. -/
def deg (e : Vec F S2x1280000 .i32) : Vec F S80000 .f32 :=
  Host.scatterAdd scatter_S80000_S1360000x1_S1360000_n_0_0_1
    (broadcastInDim S80000 ![] bcast_S_S80000 (constant S_ .f32 0x00000000#32))
    (col (dstIdx e))
    (broadcastInDim S1360000 ![] bcast_S_S1360000 (constant S_ .f32 0x3F800000#32))

/-- `1/√deg` where the degree is positive, zero elsewhere. -/
def dinv (e : Vec F S2x1280000 .i32) : Vec F S80000 .f32 :=
  select (cmpf .ogt (deg e) (broadcastInDim S80000 ![] bcast_S_S80000 (constant S_ .f32 0x00000000#32)))
    (Host.rsqrt (deg e))
    (broadcastInDim S80000 ![] bcast_S_S80000 (id (constant S_ .f32 0x00000000#32)))

/-- Per edge, the product of `dinv` at its source and at its destination. -/
def norm (e : Vec F S2x1280000 .i32) : Vec F S1360000 .f32 :=
  mulf (Host.gather gather_S80000_S1360000x1_S1360000_n_0_n_n_0_1_1 (dinv e) (wrap (srcIdx e)))
       (Host.gather gather_S80000_S1360000x1_S1360000_n_0_n_n_0_1_1 (dinv e) (wrap (dstIdx e)))

/-- One propagation step on 64 features: row `src` of `h` times the edge's `norm`, summed into row `dst`. -/
def agg64 (h : Vec F S80000x64 .f32) (e : Vec F S2x1280000 .i32) : Vec F S80000x64 .f32 :=
  Host.scatterAdd scatter_S80000x64_S1360000x1_S1360000x64_1_0_0_1
    (broadcastInDim S80000x64 ![] bcast_S_S80000x64 (constant S_ .f32 0x00000000#32))
    (col (dstIdx e))
    (mulf (Host.gather gather_S80000x64_S1360000x1_S1360000x64_1_0_n_n_0_1_164 h (wrap (srcIdx e)))
          (broadcastInDim S1360000x64 ![0, 1] bcast_S1360000x1_S1360000x64_0_1
            (broadcastInDim S1360000x1 ![0] bcast_S1360000_S1360000x1_0 (norm e))))

/-- One propagation step on 32 features. -/
def agg32 (h : Vec F S80000x32 .f32) (e : Vec F S2x1280000 .i32) : Vec F S80000x32 .f32 :=
  Host.scatterAdd scatter_S80000x32_S1360000x1_S1360000x32_1_0_0_1
    (broadcastInDim S80000x32 ![] bcast_S_S80000x32 (constant S_ .f32 0x00000000#32))
    (col (dstIdx e))
    (mulf (Host.gather gather_S80000x32_S1360000x1_S1360000x32_1_0_n_n_0_1_132 h (wrap (srcIdx e)))
          (broadcastInDim S1360000x32 ![0, 1] bcast_S1360000x1_S1360000x32_0_1
            (broadcastInDim S1360000x1 ![0] bcast_S1360000_S1360000x1_0 (norm e))))

/-- A layer's product of the 64 features of every node with a `64 × 64` weight matrix. -/
def dot64 (x : Vec F S80000x64 .f32) (w : Vec F S64x64 .f32) : Vec F S80000x64 .f32 :=
  Host.dotGeneral dot_S80000x64_S64x64_S80000x64_1_0_0_1_n_n none x w

/-- The last layer's product, with a `64 × 32` weight matrix. -/
def dot32 (x : Vec F S80000x64 .f32) (w : Vec F S64x32 .f32) : Vec F S80000x32 .f32 :=
  Host.dotGeneral dot_S80000x64_S64x32_S80000x32_1_0_0_1_n_n none x w

/-- A bias of length 64 added to every row. -/
def biasAdd64 (o : Vec F S80000x64 .f32) (b : Vec F S64 .f32) : Vec F S80000x64 .f32 :=
  addf o (broadcastInDim S80000x64 ![0, 1] bcast_S1x64_S80000x64_0_1 (broadcastInDim S1x64 ![1] bcast_S64_S1x64_1 b))

/-- A bias of length 32 added to every row. -/
def biasAdd32 (o : Vec F S80000x32 .f32) (b : Vec F S32 .f32) : Vec F S80000x32 .f32 :=
  addf o (broadcastInDim S80000x32 ![0, 1] bcast_S1x32_S80000x32_0_1 (broadcastInDim S1x32 ![1] bcast_S32_S1x32_1 b))

/-- The exponential linear unit, entry by entry: `v` where `v > 0`, and elsewhere `1 · (exp u - 1)` with `u` the
    entry itself where it is not positive (and `0` where it is, so that the exponential is never taken of a
    large positive number). -/
def elu (v : Vec F S80000x64 .f32) : Vec F S80000x64 .f32 :=
  select (cmpf .ogt v (broadcastInDim S80000x64 ![] bcast_S_S80000x64 (constant S_ .f32 0x00000000#32))) v
    (mulf (broadcastInDim S80000x64 ![] bcast_S_S80000x64 (constant S_ .f32 0x3F800000#32))
      (Host.expm1 (select (cmpf .ogt v (broadcastInDim S80000x64 ![] bcast_S_S80000x64 (constant S_ .f32 0x00000000#32)))
        (broadcastInDim S80000x64 ![] bcast_S_S80000x64 (id (constant S_ .f32 0x00000000#32))) v)))

end Cert.ReferenceIdeal.Net

end
-- ==== Proof.RefRead1.lean ====
/-
  Layer 1 of the reference read back, stretch by stretch.

  Each statement is about an arbitrary assignment X of contents to the buffers: if the buffers a stretch reads hold
  the named arrays, then after the stretch its result buffer holds the next named array. The stretch's operations'
  result functions, composed in order, are literally the named function's definition, so each statement is closed
  by unfolding; where an operation belongs to an auxiliary function its contents pass through that call's typed
  buffers, which changes nothing (moving contents to a buffer's own type and back is the identity).
-/
import proofs.«104014_j18554258719469_1_alg».proof.Proof.RefOps
import proofs.«104014_j18554258719469_1_alg».proof.Proof.RNet
import proofs.«104014_j18554258719469_1_alg».proof.Proof.LibTypedRefs

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- Row 0 of the edge array as a vector of length 1280000. -/
def row0 (e : Vec F S2x1280000 .i32) : Vec F S1280000 .i32 :=
  shapeCast S1280000 (extractStridedSlice S1x1280000 ![0, 0] e slices_S2x1280000_S1x1280000_0_0) shapeCasts_S1x1280000_S1280000

/-- Row 1 of the edge array as a vector of length 1280000. -/
def row1 (e : Vec F S2x1280000 .i32) : Vec F S1280000 .i32 :=
  shapeCast S1280000 (extractStridedSlice S1x1280000 ![1, 0] e slices_S2x1280000_S1x1280000_1_0) shapeCasts_S1x1280000_S1280000

theorem prep1_row0 (X : Valuation τ sig (Elt F)) {e : Vec F S2x1280000 .i32} (h0 : X (Proc.devRef .tc main_arg7) = e) :
    StableHlo.after prep1 X (Proc.devRef .tc main_v1) = row0 e := by
  subst h0
  after_results_simp
  rfl

theorem prep1_row1 (X : Valuation τ sig (Elt F)) {e : Vec F S2x1280000 .i32} (h0 : X (Proc.devRef .tc main_arg7) = e) :
    StableHlo.after prep1 X (Proc.devRef .tc main_v3) = row1 e := by
  subst h0
  after_results_simp
  rfl

theorem prep1_dot (X : Valuation τ sig (Elt F)) {x : Vec F S80000x64 .f32} {w : Vec F S64x64 .f32} (h0 : X (Proc.devRef .tc main_arg0) = x) (h1 : X (Proc.devRef .tc main_arg1) = w) :
    StableHlo.after prep1 X (Proc.devRef .tc main_v4) = Net.dot64 x w := by
  subst h0
  subst h1
  after_results_simp
  rfl

theorem prep1_src (X : Valuation τ sig (Elt F)) {e : Vec F S2x1280000 .i32} (h0 : X (Proc.devRef .tc main_arg7) = e) :
    StableHlo.after prep1 X (Proc.devRef .tc main_v6) = Net.srcIdx e := by
  subst h0
  after_results_simp
  rfl

theorem prep1_dst (X : Valuation τ sig (Elt F)) {e : Vec F S2x1280000 .i32} (h0 : X (Proc.devRef .tc main_arg7) = e) :
    StableHlo.after prep1 X (Proc.devRef .tc main_v7) = Net.dstIdx e := by
  subst h0
  after_results_simp
  rfl

theorem deg1_out (X : Valuation τ sig (Elt F)) {e : Vec F S2x1280000 .i32} (h0 : X (Proc.devRef .tc main_v7) = Net.dstIdx e) :
    StableHlo.after deg1 X (Proc.devRef .tc main_v11) = Net.deg e := by
  after_results_simp
  simp only [h0]
  rfl

theorem dinv1_out (X : Valuation τ sig (Elt F)) {e : Vec F S2x1280000 .i32} (h0 : X (Proc.devRef .tc main_v11) = Net.deg e) :
    StableHlo.after dinv1 X (Proc.devRef .tc main_v15) = Net.dinv e := by
  after_results_simp
  simp only [Cert.Lib.TypedRefs.ofBuf_toBuf, h0]
  rfl

theorem norm1_out (X : Valuation τ sig (Elt F)) {e : Vec F S2x1280000 .i32} (h0 : X (Proc.devRef .tc main_v6) = Net.srcIdx e) (h1 : X (Proc.devRef .tc main_v7) = Net.dstIdx e) (h2 : X (Proc.devRef .tc main_v15) = Net.dinv e) :
    StableHlo.after norm1 X (Proc.devRef .tc main_v30) = Net.norm e := by
  after_results_simp
  simp only [h0, h1, h2]
  rfl

theorem agg1_out (X : Valuation τ sig (Elt F)) {e : Vec F S2x1280000 .i32} {h : Vec F S80000x64 .f32} (h0 : X (Proc.devRef .tc main_v6) = Net.srcIdx e) (h1 : X (Proc.devRef .tc main_v7) = Net.dstIdx e) (h2 : X (Proc.devRef .tc main_v30) = Net.norm e) (h3 : X (Proc.devRef .tc main_v4) = h) :
    StableHlo.after agg1 X (Proc.devRef .tc main_v43) = Net.agg64 h e := by
  subst h3
  after_results_simp
  simp only [h0, h1, h2]
  rfl

theorem bias1_out (X : Valuation τ sig (Elt F)) {o : Vec F S80000x64 .f32} {b : Vec F S64 .f32} (h0 : X (Proc.devRef .tc main_v43) = o) (h1 : X (Proc.devRef .tc main_arg2) = b) :
    StableHlo.after bias1 X (Proc.devRef .tc main_v46) = Net.biasAdd64 o b := by
  subst h0
  subst h1
  after_results_simp
  rfl

theorem elu1_out (X : Valuation τ sig (Elt F)) {v : Vec F S80000x64 .f32} (h0 : X (Proc.devRef .tc main_v46) = v) :
    StableHlo.after elu1 X (Proc.devRef .tc main_v47) = Net.elu v := by
  subst h0
  after_results_simp
  simp only [Cert.Lib.TypedRefs.ofBuf_toBuf]
  rfl

theorem dot2_out (X : Valuation τ sig (Elt F)) {a : Vec F S80000x64 .f32} {w : Vec F S64x64 .f32} (h0 : X (Proc.devRef .tc main_v47) = a) (h1 : X (Proc.devRef .tc main_arg3) = w) :
    StableHlo.after dot2 X (Proc.devRef .tc main_v48) = Net.dot64 a w := by
  subst h0
  subst h1
  after_results_simp
  rfl

end Cert.ReferenceIdeal.HandRun

end
-- ==== Proof.RefRead2.lean ====
/-
  Layer 2 of the reference read back, stretch by stretch.

  Each statement is about an arbitrary assignment X of contents to the buffers: if the buffers a stretch reads hold
  the named arrays, then after the stretch its result buffer holds the next named array. The stretch's operations'
  result functions, composed in order, are literally the named function's definition, so each statement is closed
  by unfolding; where an operation belongs to an auxiliary function its contents pass through that call's typed
  buffers, which changes nothing (moving contents to a buffer's own type and back is the identity).
-/
import proofs.«104014_j18554258719469_1_alg».proof.Proof.RefRead1

noncomputable section

namespace Cert.ReferenceIdeal.HandRun

open Cert.ReferenceIdeal Cert.ReferenceIdeal.Gen Idealize.ShloMosaic Idealize.ShloMosaic.TcCoe Idealize.SL.Sem

variable {F : FTy → Type} [FloatOps F]

theorem idx2_src (X : Valuation τ sig (Elt F)) {e : Vec F S2x1280000 .i32} (h0 : X (Proc.devRef .tc main_v1) = row0 e) :
    StableHlo.after idx2 X (Proc.devRef .tc main_v50) = Net.srcIdx e := by
  have hc : StableHlo.after idx2 X (Proc.devRef .tc main_v50)
      = concatenate S1360000 0 [⟨S1280000, X (Proc.devRef .tc main_v1)⟩, ⟨S80000, iotaInDim S80000 32 0⟩]
          concatenates_S1280000_S80000_S1360000_d0 := rfl
  rw [hc, h0]
  rfl

theorem idx2_dst (X : Valuation τ sig (Elt F)) {e : Vec F S2x1280000 .i32} (h0 : X (Proc.devRef .tc main_v3) = row1 e) :
    StableHlo.after idx2 X (Proc.devRef .tc main_v51) = Net.dstIdx e := by
  have hc : StableHlo.after idx2 X (Proc.devRef .tc main_v51)
      = concatenate S1360000 0 [⟨S1280000, X (Proc.devRef .tc main_v3)⟩, ⟨S80000, iotaInDim S80000 32 0⟩]
          concatenates_S1280000_S80000_S1360000_d0 := rfl
  rw [hc, h0]
  rfl

theorem deg2_out (X : Valuation τ sig (Elt F)) {e : Vec F S2x1280000 .i32} (h0 : X (Proc.devRef .tc main_v51) = Net.dstIdx e) :
    StableHlo.after deg2 X (Proc.devRef .tc main_v55) = Net.deg e := by
  after_results_simp
  simp only [h0]
  rfl

theorem dinv2_out (X : Valuation τ sig (Elt F)) {e : Vec F S2x1280000 .i32} (h0 : X (Proc.devRef .tc main_v55) = Net.deg e) :
    StableHlo.after dinv2 X (Proc.devRef .tc main_v59) = Net.dinv e := by
  after_results_simp
  simp only [Cert.Lib.TypedRefs.ofBuf_toBuf, h0]
  rfl

theorem norm2_out (X : Valuation τ sig (Elt F)) {e : Vec F S2x1280000 .i32} (h0 : X (Proc.devRef .tc main_v50) = Net.srcIdx e) (h1 : X (Proc.devRef .tc main_v51) = Net.dstIdx e) (h2 : X (Proc.devRef .tc main_v59) = Net.dinv e) :
    StableHlo.after norm2 X (Proc.devRef .tc main_v74) = Net.norm e := by
  after_results_simp
  simp only [h0, h1, h2]
  rfl

theorem agg2_out (X : Valuation τ sig (Elt F)) {e : Vec F S2x1280000 .i32} {h : Vec F S80000x64 .f32} (h0 : X (Proc.devRef .tc main_v50) = Net.srcIdx e) (h1 : X (Proc.devRef .tc main_v51) = Net.dstIdx e) (h2 : X (Proc.devRef .tc main_v74) = Net.norm e) (h3 : X (Proc.devRef .tc main_v48) = h) :
    StableHlo.after agg2 X (Proc.devRef .tc main_v87) = Net.agg64 h e := by
  subst h3
  after_results_simp
  simp only [h0, h1, h2]
  rfl

theorem bias2_out (X : Valuation τ sig (Elt F)) {o : Vec F S80000x64 .f32} {b : Vec F S64 .f32} (h0 : X (Proc.devRef .tc main_v87) = o) (h1 : X (Proc.devRef .tc main_arg4) = b) :
    StableHlo.after bias2 X (Proc.devRef .tc main_v90) = Net.biasAdd64 o b := by
  subst h0
  subst h1
  after_results_simp
  rfl

theorem elu2_out (X : Valuation τ sig (Elt F)) {v : Vec F S80000x64 .f32} (h0 : X (Proc.devRef .tc main_v90) = v) :
    StableHlo.after elu2 X (Proc.devRef .tc main_v91) = Net.elu v := by
  subst h0
  after_results_simp
  simp only [Cert.Lib.TypedRefs.ofBuf_toBuf]
  rfl

theorem dot3_out (X : Valuation τ sig (Elt F)) {a : Vec F S80000x64 .f32} {w : Vec F S64x32 .f32} (h0 : X (Proc.devRef .tc main_v91) = a) (h1 : X (Proc.devRef .tc main_arg5) = w) :
    StableHlo.after dot3 X (Proc.devRef .tc main_v92) = Net.dot32 a w := by
  subst h0
  subst h1
  after_results_simp
  rfl

end Cert.ReferenceIdeal.HandRun

end
-- ==== Proof.RefRead3.lean ====
/-
  Layer 3 of the reference read back, stretch by stretch.

  Each statement is about an arbitrary assignment X of contents to the buffers: if the buffers a stretch reads hold
  the named arrays, then after the stretch its result buffer holds the next named array. The stretch's operations'
  result functions, composed in order, are literally the named function's definition, so each statement is closed
  by unfolding; where an operation belongs to an auxiliary function its contents pass through that call's typed
  buffers, which changes nothing (moving contents to a buffer's own type and back is the identity).
-/
import proofs.«104014_j18554258719469_1_alg».proof.Proof.RefRead1

noncomputable section

namespace Cert.ReferenceIdeal.HandRun

open Cert.ReferenceIdeal Cert.ReferenceIdeal.Gen Idealize.ShloMosaic Idealize.ShloMosaic.TcCoe Idealize.SL.Sem

variable {F : FTy → Type} [FloatOps F]

theorem idx3_src (X : Valuation τ sig (Elt F)) {e : Vec F S2x1280000 .i32} (h0 : X (Proc.devRef .tc main_v1) = row0 e) :
    StableHlo.after idx3 X (Proc.devRef .tc main_v94) = Net.srcIdx e := by
  have hc : StableHlo.after idx3 X (Proc.devRef .tc main_v94)
      = concatenate S1360000 0 [⟨S1280000, X (Proc.devRef .tc main_v1)⟩, ⟨S80000, iotaInDim S80000 32 0⟩]
          concatenates_S1280000_S80000_S1360000_d0 := rfl
  rw [hc, h0]
  rfl

theorem idx3_dst (X : Valuation τ sig (Elt F)) {e : Vec F S2x1280000 .i32} (h0 : X (Proc.devRef .tc main_v3) = row1 e) :
    StableHlo.after idx3 X (Proc.devRef .tc main_v95) = Net.dstIdx e := by
  have hc : StableHlo.after idx3 X (Proc.devRef .tc main_v95)
      = concatenate S1360000 0 [⟨S1280000, X (Proc.devRef .tc main_v3)⟩, ⟨S80000, iotaInDim S80000 32 0⟩]
          concatenates_S1280000_S80000_S1360000_d0 := rfl
  rw [hc, h0]
  rfl

theorem deg3_out (X : Valuation τ sig (Elt F)) {e : Vec F S2x1280000 .i32} (h0 : X (Proc.devRef .tc main_v95) = Net.dstIdx e) :
    StableHlo.after deg3 X (Proc.devRef .tc main_v99) = Net.deg e := by
  after_results_simp
  simp only [h0]
  rfl

theorem dinv3_out (X : Valuation τ sig (Elt F)) {e : Vec F S2x1280000 .i32} (h0 : X (Proc.devRef .tc main_v99) = Net.deg e) :
    StableHlo.after dinv3 X (Proc.devRef .tc main_v103) = Net.dinv e := by
  after_results_simp
  simp only [Cert.Lib.TypedRefs.ofBuf_toBuf, h0]
  rfl

theorem norm3_out (X : Valuation τ sig (Elt F)) {e : Vec F S2x1280000 .i32} (h0 : X (Proc.devRef .tc main_v94) = Net.srcIdx e) (h1 : X (Proc.devRef .tc main_v95) = Net.dstIdx e) (h2 : X (Proc.devRef .tc main_v103) = Net.dinv e) :
    StableHlo.after norm3 X (Proc.devRef .tc main_v118) = Net.norm e := by
  after_results_simp
  simp only [h0, h1, h2]
  rfl

theorem agg3_out (X : Valuation τ sig (Elt F)) {e : Vec F S2x1280000 .i32} {h : Vec F S80000x32 .f32} (h0 : X (Proc.devRef .tc main_v94) = Net.srcIdx e) (h1 : X (Proc.devRef .tc main_v95) = Net.dstIdx e) (h2 : X (Proc.devRef .tc main_v118) = Net.norm e) (h3 : X (Proc.devRef .tc main_v92) = h) :
    StableHlo.after agg3 X (Proc.devRef .tc main_v131) = Net.agg32 h e := by
  subst h3
  after_results_simp
  simp only [h0, h1, h2]
  rfl

theorem bias3_out (X : Valuation τ sig (Elt F)) {o : Vec F S80000x32 .f32} {b : Vec F S32 .f32} (h0 : X (Proc.devRef .tc main_v131) = o) (h1 : X (Proc.devRef .tc main_arg6) = b) :
    StableHlo.after bias3 X (Proc.devRef .tc main_v134) = Net.biasAdd32 o b := by
  subst h0
  subst h1
  after_results_simp
  rfl

end Cert.ReferenceIdeal.HandRun

end
-- ==== Proof.RefResult.lean ====
/-
  The reference's result as a composition of the named whole-array functions.

  The contents of the result buffer after the whole line are read stretch by stretch: the contents after a
  concatenation of stretches are the contents after the later stretches started from the contents after the
  earlier ones; each stretch turns known contents of the few buffers it reads into known contents of its result, and
  leaves untouched every buffer it does not write. The three layers each recompute the degree, its inverse square
  root and the edge weights from the same edge array, so all three read back as the same function of that array.
  The result is  bias₃ + A(elu(bias₂ + A(elu(bias₁ + A(x·W₁))·W₂))·W₃)  with A the aggregation along the edges.
-/
import proofs.«104014_j18554258719469_1_alg».proof.Proof.RefRun
import proofs.«104014_j18554258719469_1_alg».proof.Proof.RefRead1
import proofs.«104014_j18554258719469_1_alg».proof.Proof.RefRead2
import proofs.«104014_j18554258719469_1_alg».proof.Proof.RefRead3
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The result buffer after the whole line, for any float values, from contents `V` whose argument buffers hold
    `x, W₁, b₁, W₂, b₂, W₃, b₃, e`. -/
theorem result_of (V : Valuation τ sig (Elt F))
    {x : Vec F S80000x64 .f32} {W1 : Vec F S64x64 .f32} {b1 : Vec F S64 .f32} {W2 : Vec F S64x64 .f32} {b2 : Vec F S64 .f32}
    {W3 : Vec F S64x32 .f32} {b3 : Vec F S32 .f32} {e : Vec F S2x1280000 .i32}
    (hx : V (Proc.devRef .tc main_arg0) = x) (hW1 : V (Proc.devRef .tc main_arg1) = W1) (hb1 : V (Proc.devRef .tc main_arg2) = b1)
    (hW2 : V (Proc.devRef .tc main_arg3) = W2) (hb2 : V (Proc.devRef .tc main_arg4) = b2) (hW3 : V (Proc.devRef .tc main_arg5) = W3)
    (hb3 : V (Proc.devRef .tc main_arg6) = b3) (he : V (Proc.devRef .tc main_arg7) = e) :
    StableHlo.after ops V (Proc.devRef .tc main_v134)
      = Net.biasAdd32 (Net.agg32 (Net.dot32 (Net.elu (Net.biasAdd64 (Net.agg64 (Net.dot64 (Net.elu (Net.biasAdd64 (Net.agg64 (Net.dot64 x W1) e) b1)) W2) e) b2)) W3) e) b3 := by
  simp only [ops, Cert.Lib.AfterAppend.after_append]
  -- prep1
  have f1_main_v1 := prep1_row0 V he
  have f1_main_v3 := prep1_row1 V he
  have f1_main_v4 := prep1_dot V hx hW1
  have f1_main_v6 := prep1_src V he
  have f1_main_v7 := prep1_dst V he
  have f1_main_arg2 := (prep1_keep V main_arg2 (by decide)).trans hb1
  have f1_main_arg3 := (prep1_keep V main_arg3 (by decide)).trans hW2
  have f1_main_arg4 := (prep1_keep V main_arg4 (by decide)).trans hb2
  have f1_main_arg5 := (prep1_keep V main_arg5 (by decide)).trans hW3
  have f1_main_arg6 := (prep1_keep V main_arg6 (by decide)).trans hb3
  generalize StableHlo.after prep1 V = X1 at *
  -- deg1
  have f2_main_v11 := deg1_out X1 f1_main_v7
  have f2_main_v6 := (deg1_keep X1 main_v6 (by decide)).trans f1_main_v6
  have f2_main_v7 := (deg1_keep X1 main_v7 (by decide)).trans f1_main_v7
  have f2_main_v4 := (deg1_keep X1 main_v4 (by decide)).trans f1_main_v4
  have f2_main_arg2 := (deg1_keep X1 main_arg2 (by decide)).trans f1_main_arg2
  have f2_main_arg3 := (deg1_keep X1 main_arg3 (by decide)).trans f1_main_arg3
  have f2_main_v1 := (deg1_keep X1 main_v1 (by decide)).trans f1_main_v1
  have f2_main_v3 := (deg1_keep X1 main_v3 (by decide)).trans f1_main_v3
  have f2_main_arg4 := (deg1_keep X1 main_arg4 (by decide)).trans f1_main_arg4
  have f2_main_arg5 := (deg1_keep X1 main_arg5 (by decide)).trans f1_main_arg5
  have f2_main_arg6 := (deg1_keep X1 main_arg6 (by decide)).trans f1_main_arg6
  generalize StableHlo.after deg1 X1 = X2 at *
  -- dinv1
  have f3_main_v15 := dinv1_out X2 f2_main_v11
  have f3_main_v6 := (dinv1_keep X2 main_v6 (by decide)).trans f2_main_v6
  have f3_main_v7 := (dinv1_keep X2 main_v7 (by decide)).trans f2_main_v7
  have f3_main_v4 := (dinv1_keep X2 main_v4 (by decide)).trans f2_main_v4
  have f3_main_arg2 := (dinv1_keep X2 main_arg2 (by decide)).trans f2_main_arg2
  have f3_main_arg3 := (dinv1_keep X2 main_arg3 (by decide)).trans f2_main_arg3
  have f3_main_v1 := (dinv1_keep X2 main_v1 (by decide)).trans f2_main_v1
  have f3_main_v3 := (dinv1_keep X2 main_v3 (by decide)).trans f2_main_v3
  have f3_main_arg4 := (dinv1_keep X2 main_arg4 (by decide)).trans f2_main_arg4
  have f3_main_arg5 := (dinv1_keep X2 main_arg5 (by decide)).trans f2_main_arg5
  have f3_main_arg6 := (dinv1_keep X2 main_arg6 (by decide)).trans f2_main_arg6
  generalize StableHlo.after dinv1 X2 = X3 at *
  -- norm1
  have f4_main_v30 := norm1_out X3 f3_main_v6 f3_main_v7 f3_main_v15
  have f4_main_v6 := (norm1_keep X3 main_v6 (by decide)).trans f3_main_v6
  have f4_main_v7 := (norm1_keep X3 main_v7 (by decide)).trans f3_main_v7
  have f4_main_v4 := (norm1_keep X3 main_v4 (by decide)).trans f3_main_v4
  have f4_main_arg2 := (norm1_keep X3 main_arg2 (by decide)).trans f3_main_arg2
  have f4_main_arg3 := (norm1_keep X3 main_arg3 (by decide)).trans f3_main_arg3
  have f4_main_v1 := (norm1_keep X3 main_v1 (by decide)).trans f3_main_v1
  have f4_main_v3 := (norm1_keep X3 main_v3 (by decide)).trans f3_main_v3
  have f4_main_arg4 := (norm1_keep X3 main_arg4 (by decide)).trans f3_main_arg4
  have f4_main_arg5 := (norm1_keep X3 main_arg5 (by decide)).trans f3_main_arg5
  have f4_main_arg6 := (norm1_keep X3 main_arg6 (by decide)).trans f3_main_arg6
  generalize StableHlo.after norm1 X3 = X4 at *
  -- agg1
  have f5_main_v43 := agg1_out X4 f4_main_v6 f4_main_v7 f4_main_v30 f4_main_v4
  have f5_main_arg2 := (agg1_keep X4 main_arg2 (by decide)).trans f4_main_arg2
  have f5_main_arg3 := (agg1_keep X4 main_arg3 (by decide)).trans f4_main_arg3
  have f5_main_v1 := (agg1_keep X4 main_v1 (by decide)).trans f4_main_v1
  have f5_main_v3 := (agg1_keep X4 main_v3 (by decide)).trans f4_main_v3
  have f5_main_arg4 := (agg1_keep X4 main_arg4 (by decide)).trans f4_main_arg4
  have f5_main_arg5 := (agg1_keep X4 main_arg5 (by decide)).trans f4_main_arg5
  have f5_main_arg6 := (agg1_keep X4 main_arg6 (by decide)).trans f4_main_arg6
  generalize StableHlo.after agg1 X4 = X5 at *
  -- bias1
  have f6_main_v46 := bias1_out X5 f5_main_v43 f5_main_arg2
  have f6_main_arg3 := (bias1_keep X5 main_arg3 (by decide)).trans f5_main_arg3
  have f6_main_v1 := (bias1_keep X5 main_v1 (by decide)).trans f5_main_v1
  have f6_main_v3 := (bias1_keep X5 main_v3 (by decide)).trans f5_main_v3
  have f6_main_arg4 := (bias1_keep X5 main_arg4 (by decide)).trans f5_main_arg4
  have f6_main_arg5 := (bias1_keep X5 main_arg5 (by decide)).trans f5_main_arg5
  have f6_main_arg6 := (bias1_keep X5 main_arg6 (by decide)).trans f5_main_arg6
  generalize StableHlo.after bias1 X5 = X6 at *
  -- elu1
  have f7_main_v47 := elu1_out X6 f6_main_v46
  have f7_main_arg3 := (elu1_keep X6 main_arg3 (by decide)).trans f6_main_arg3
  have f7_main_v1 := (elu1_keep X6 main_v1 (by decide)).trans f6_main_v1
  have f7_main_v3 := (elu1_keep X6 main_v3 (by decide)).trans f6_main_v3
  have f7_main_arg4 := (elu1_keep X6 main_arg4 (by decide)).trans f6_main_arg4
  have f7_main_arg5 := (elu1_keep X6 main_arg5 (by decide)).trans f6_main_arg5
  have f7_main_arg6 := (elu1_keep X6 main_arg6 (by decide)).trans f6_main_arg6
  generalize StableHlo.after elu1 X6 = X7 at *
  -- dot2
  have f8_main_v48 := dot2_out X7 f7_main_v47 f7_main_arg3
  have f8_main_v1 := (dot2_keep X7 main_v1 (by decide)).trans f7_main_v1
  have f8_main_v3 := (dot2_keep X7 main_v3 (by decide)).trans f7_main_v3
  have f8_main_arg4 := (dot2_keep X7 main_arg4 (by decide)).trans f7_main_arg4
  have f8_main_arg5 := (dot2_keep X7 main_arg5 (by decide)).trans f7_main_arg5
  have f8_main_arg6 := (dot2_keep X7 main_arg6 (by decide)).trans f7_main_arg6
  generalize StableHlo.after dot2 X7 = X8 at *
  -- idx2
  have f9_main_v50 := idx2_src X8 f8_main_v1
  have f9_main_v51 := idx2_dst X8 f8_main_v3
  have f9_main_v48 := (idx2_keep X8 main_v48 (by decide)).trans f8_main_v48
  have f9_main_arg4 := (idx2_keep X8 main_arg4 (by decide)).trans f8_main_arg4
  have f9_main_arg5 := (idx2_keep X8 main_arg5 (by decide)).trans f8_main_arg5
  have f9_main_v1 := (idx2_keep X8 main_v1 (by decide)).trans f8_main_v1
  have f9_main_v3 := (idx2_keep X8 main_v3 (by decide)).trans f8_main_v3
  have f9_main_arg6 := (idx2_keep X8 main_arg6 (by decide)).trans f8_main_arg6
  generalize StableHlo.after idx2 X8 = X9 at *
  -- deg2
  have f10_main_v55 := deg2_out X9 f9_main_v51
  have f10_main_v50 := (deg2_keep X9 main_v50 (by decide)).trans f9_main_v50
  have f10_main_v51 := (deg2_keep X9 main_v51 (by decide)).trans f9_main_v51
  have f10_main_v48 := (deg2_keep X9 main_v48 (by decide)).trans f9_main_v48
  have f10_main_arg4 := (deg2_keep X9 main_arg4 (by decide)).trans f9_main_arg4
  have f10_main_arg5 := (deg2_keep X9 main_arg5 (by decide)).trans f9_main_arg5
  have f10_main_v1 := (deg2_keep X9 main_v1 (by decide)).trans f9_main_v1
  have f10_main_v3 := (deg2_keep X9 main_v3 (by decide)).trans f9_main_v3
  have f10_main_arg6 := (deg2_keep X9 main_arg6 (by decide)).trans f9_main_arg6
  generalize StableHlo.after deg2 X9 = X10 at *
  -- dinv2
  have f11_main_v59 := dinv2_out X10 f10_main_v55
  have f11_main_v50 := (dinv2_keep X10 main_v50 (by decide)).trans f10_main_v50
  have f11_main_v51 := (dinv2_keep X10 main_v51 (by decide)).trans f10_main_v51
  have f11_main_v48 := (dinv2_keep X10 main_v48 (by decide)).trans f10_main_v48
  have f11_main_arg4 := (dinv2_keep X10 main_arg4 (by decide)).trans f10_main_arg4
  have f11_main_arg5 := (dinv2_keep X10 main_arg5 (by decide)).trans f10_main_arg5
  have f11_main_v1 := (dinv2_keep X10 main_v1 (by decide)).trans f10_main_v1
  have f11_main_v3 := (dinv2_keep X10 main_v3 (by decide)).trans f10_main_v3
  have f11_main_arg6 := (dinv2_keep X10 main_arg6 (by decide)).trans f10_main_arg6
  generalize StableHlo.after dinv2 X10 = X11 at *
  -- norm2
  have f12_main_v74 := norm2_out X11 f11_main_v50 f11_main_v51 f11_main_v59
  have f12_main_v50 := (norm2_keep X11 main_v50 (by decide)).trans f11_main_v50
  have f12_main_v51 := (norm2_keep X11 main_v51 (by decide)).trans f11_main_v51
  have f12_main_v48 := (norm2_keep X11 main_v48 (by decide)).trans f11_main_v48
  have f12_main_arg4 := (norm2_keep X11 main_arg4 (by decide)).trans f11_main_arg4
  have f12_main_arg5 := (norm2_keep X11 main_arg5 (by decide)).trans f11_main_arg5
  have f12_main_v1 := (norm2_keep X11 main_v1 (by decide)).trans f11_main_v1
  have f12_main_v3 := (norm2_keep X11 main_v3 (by decide)).trans f11_main_v3
  have f12_main_arg6 := (norm2_keep X11 main_arg6 (by decide)).trans f11_main_arg6
  generalize StableHlo.after norm2 X11 = X12 at *
  -- agg2
  have f13_main_v87 := agg2_out X12 f12_main_v50 f12_main_v51 f12_main_v74 f12_main_v48
  have f13_main_arg4 := (agg2_keep X12 main_arg4 (by decide)).trans f12_main_arg4
  have f13_main_arg5 := (agg2_keep X12 main_arg5 (by decide)).trans f12_main_arg5
  have f13_main_v1 := (agg2_keep X12 main_v1 (by decide)).trans f12_main_v1
  have f13_main_v3 := (agg2_keep X12 main_v3 (by decide)).trans f12_main_v3
  have f13_main_arg6 := (agg2_keep X12 main_arg6 (by decide)).trans f12_main_arg6
  generalize StableHlo.after agg2 X12 = X13 at *
  -- bias2
  have f14_main_v90 := bias2_out X13 f13_main_v87 f13_main_arg4
  have f14_main_arg5 := (bias2_keep X13 main_arg5 (by decide)).trans f13_main_arg5
  have f14_main_v1 := (bias2_keep X13 main_v1 (by decide)).trans f13_main_v1
  have f14_main_v3 := (bias2_keep X13 main_v3 (by decide)).trans f13_main_v3
  have f14_main_arg6 := (bias2_keep X13 main_arg6 (by decide)).trans f13_main_arg6
  generalize StableHlo.after bias2 X13 = X14 at *
  -- elu2
  have f15_main_v91 := elu2_out X14 f14_main_v90
  have f15_main_arg5 := (elu2_keep X14 main_arg5 (by decide)).trans f14_main_arg5
  have f15_main_v1 := (elu2_keep X14 main_v1 (by decide)).trans f14_main_v1
  have f15_main_v3 := (elu2_keep X14 main_v3 (by decide)).trans f14_main_v3
  have f15_main_arg6 := (elu2_keep X14 main_arg6 (by decide)).trans f14_main_arg6
  generalize StableHlo.after elu2 X14 = X15 at *
  -- dot3
  have f16_main_v92 := dot3_out X15 f15_main_v91 f15_main_arg5
  have f16_main_v1 := (dot3_keep X15 main_v1 (by decide)).trans f15_main_v1
  have f16_main_v3 := (dot3_keep X15 main_v3 (by decide)).trans f15_main_v3
  have f16_main_arg6 := (dot3_keep X15 main_arg6 (by decide)).trans f15_main_arg6
  generalize StableHlo.after dot3 X15 = X16 at *
  -- idx3
  have f17_main_v94 := idx3_src X16 f16_main_v1
  have f17_main_v95 := idx3_dst X16 f16_main_v3
  have f17_main_v92 := (idx3_keep X16 main_v92 (by decide)).trans f16_main_v92
  have f17_main_arg6 := (idx3_keep X16 main_arg6 (by decide)).trans f16_main_arg6
  generalize StableHlo.after idx3 X16 = X17 at *
  -- deg3
  have f18_main_v99 := deg3_out X17 f17_main_v95
  have f18_main_v94 := (deg3_keep X17 main_v94 (by decide)).trans f17_main_v94
  have f18_main_v95 := (deg3_keep X17 main_v95 (by decide)).trans f17_main_v95
  have f18_main_v92 := (deg3_keep X17 main_v92 (by decide)).trans f17_main_v92
  have f18_main_arg6 := (deg3_keep X17 main_arg6 (by decide)).trans f17_main_arg6
  generalize StableHlo.after deg3 X17 = X18 at *
  -- dinv3
  have f19_main_v103 := dinv3_out X18 f18_main_v99
  have f19_main_v94 := (dinv3_keep X18 main_v94 (by decide)).trans f18_main_v94
  have f19_main_v95 := (dinv3_keep X18 main_v95 (by decide)).trans f18_main_v95
  have f19_main_v92 := (dinv3_keep X18 main_v92 (by decide)).trans f18_main_v92
  have f19_main_arg6 := (dinv3_keep X18 main_arg6 (by decide)).trans f18_main_arg6
  generalize StableHlo.after dinv3 X18 = X19 at *
  -- norm3
  have f20_main_v118 := norm3_out X19 f19_main_v94 f19_main_v95 f19_main_v103
  have f20_main_v94 := (norm3_keep X19 main_v94 (by decide)).trans f19_main_v94
  have f20_main_v95 := (norm3_keep X19 main_v95 (by decide)).trans f19_main_v95
  have f20_main_v92 := (norm3_keep X19 main_v92 (by decide)).trans f19_main_v92
  have f20_main_arg6 := (norm3_keep X19 main_arg6 (by decide)).trans f19_main_arg6
  generalize StableHlo.after norm3 X19 = X20 at *
  -- agg3
  have f21_main_v131 := agg3_out X20 f20_main_v94 f20_main_v95 f20_main_v118 f20_main_v92
  have f21_main_arg6 := (agg3_keep X20 main_arg6 (by decide)).trans f20_main_arg6
  generalize StableHlo.after agg3 X20 = X21 at *
  -- bias3
  have f22_main_v134 := bias3_out X21 f21_main_v131 f21_main_arg6
  exact f22_main_v134

/-- The same at the exact extended reals, in terms of the initial contents of the eight argument buffers. -/
theorem result_eq (V : Valuation τ sig (Elt Ideal)) :
    (StableHlo.after (ops (F := Ideal)) V (Proc.devRef .tc main_v134) : S80000x32.Idx → EReal)
      = Net.biasAdd32 (Net.agg32 (Net.dot32 (Net.elu (Net.biasAdd64 (Net.agg64 (Net.dot64 (Net.elu (Net.biasAdd64 (Net.agg64 (Net.dot64 (V (Proc.devRef .tc main_arg0)) (V (Proc.devRef .tc main_arg1))) (V (Proc.devRef .tc main_arg7))) (V (Proc.devRef .tc main_arg2)))) (V (Proc.devRef .tc main_arg3))) (V (Proc.devRef .tc main_arg7))) (V (Proc.devRef .tc main_arg4)))) (V (Proc.devRef .tc main_arg5))) (V (Proc.devRef .tc main_arg7))) (V (Proc.devRef .tc main_arg6)) :=
  result_of V rfl rfl rfl rfl rfl rfl rfl rfl

end Cert.ReferenceIdeal.HandRun

end
-- ==== Proof.RefDot.lean ====
/-
  The reference's dense products as whole arrays over the extended reals.

  Each layer's `x · W` is a host `dot_general` contracting the left operand's axis 1 with the right operand's axis 0.
  Its dimension record reads the left operand at (row, k) and the right at (k, column), so the result at (a, b) is the
  plain sum over k of x(a, k) · W(k, b): the product array `mprod x W`, for the 64-wide layers and the 32-wide one.
-/
import proofs.«104014_j18554258719469_1_alg».proof.ReferenceIdeal
import proofs.«104014_j18554258719469_1_alg».proof.Proof.LibMatProd

noncomputable section

namespace Cert.Bridge.RefDot

open Idealize.ShloMosaic Idealize.ShloMosaic.ValueIdx Cert.Lib.PlainDot Cert.Lib.MatProd

variable [Cert.ReferenceIdeal.Facts₀]

/-- The [80000,64]·[64,64] record contracts one axis of extent 64 and reads (row, k) and (k, column). -/
theorem reads64 : Reads (R := 80000) (K := 64) (C := 64) Cert.ReferenceIdeal.dot_S80000x64_S64x64_S80000x64_1_0_0_1_n_n :=
  ⟨rfl, rfl, fun _ _ => rfl, fun _ _ => rfl, fun _ _ => rfl, fun _ _ => rfl⟩

/-- The [80000,64]·[64,32] record likewise. -/
theorem reads32 : Reads (R := 80000) (K := 64) (C := 32) Cert.ReferenceIdeal.dot_S80000x64_S64x32_S80000x32_1_0_0_1_n_n :=
  ⟨rfl, rfl, fun _ _ => rfl, fun _ _ => rfl, fun _ _ => rfl, fun _ _ => rfl⟩

/-- The 64-wide layers' product is the product array. -/
theorem dot64_eq (l : FVec Ideal (Sh 80000 64) .f32) (r : FVec Ideal (Sh 64 64) .f32) :
    Host.dotGeneral (F := Ideal) Cert.ReferenceIdeal.dot_S80000x64_S64x64_S80000x64_1_0_0_1_n_n none l r = mprod l r :=
  dotGeneral_eq_mprod reads64 none .single l r

/-- The last layer's product is the product array. -/
theorem dot32_eq (l : FVec Ideal (Sh 80000 64) .f32) (r : FVec Ideal (Sh 64 32) .f32) :
    Host.dotGeneral (F := Ideal) Cert.ReferenceIdeal.dot_S80000x64_S64x32_S80000x32_1_0_0_1_n_n none l r = mprod l r :=
  dotGeneral_eq_mprod reads32 none .single l r

end Cert.Bridge.RefDot

end
-- ==== Proof.Bridge.lean ====
/-
  The two networks are one function of the arguments.

  Both programs compute a three-layer graph convolution: a layer multiplies the node features by its weight matrix,
  sends every row along the edges scaled by the edge's normalisation and sums it at the edge's destination, and adds its
  bias; the first two layers end in the exponential linear unit. The edge bookkeeping - the index lists with the self
  loops appended, the degrees, the normalisation, the gather and the scatter-addition - is the same chain of array
  operations in both programs, so it is carried as the named functions `agg64` / `agg32` and never opened. What differs is
  the dense part: the reference multiplies whole arrays and adds a bias broadcast by the host, the kernel multiplies row
  blocks and adds a one-row matrix inside its body. As whole arrays these are the product array `mprod` and the functions
  `bias` / `biasElu`, on every extended real: nothing here needs the inputs finite.
-/
import proofs.«104014_j18554258719469_1_alg».proof.Proof.KNet
import proofs.«104014_j18554258719469_1_alg».proof.Proof.RNet
import proofs.«104014_j18554258719469_1_alg».proof.Proof.RefDot
import proofs.«104014_j18554258719469_1_alg».proof.Proof.LibBiasRow

noncomputable section

namespace Cert.Bridge

open Idealize.ShloMosaic Idealize.ShloMosaic.ValueIdx Cert.Lib.MatProd Cert.Bridge.Layer

variable [Cert.KernelIdeal.Facts₀] [Cert.ReferenceIdeal.Facts₀]

/-- The edge bookkeeping is the same chain of operations in both programs (64 features). -/
theorem agg64_eq (h : FVec Ideal (Sh 80000 64) .f32) (e : Vec Ideal (⟨2, ![2, 1280000]⟩ : Shape) .i32) :
    Cert.ReferenceIdeal.Net.agg64 (F := Ideal) h e = Cert.KernelIdeal.Net.agg64 (F := Ideal) h e := rfl

/-- The same on 32 features. -/
theorem agg32_eq (h : FVec Ideal (Sh 80000 32) .f32) (e : Vec Ideal (⟨2, ![2, 1280000]⟩ : Shape) .i32) :
    Cert.ReferenceIdeal.Net.agg32 (F := Ideal) h e = Cert.KernelIdeal.Net.agg32 (F := Ideal) h e := rfl

/-- A 64-wide layer's tail: the host's bias and unit are `biasElu` of the bias as one row. -/
theorem tail64_eq (o : FVec Ideal (Sh 80000 64) .f32) (b : FVec Ideal (⟨1, ![64]⟩ : Shape) .f32) :
    Cert.ReferenceIdeal.Net.elu (F := Ideal) (Cert.ReferenceIdeal.Net.biasAdd64 (F := Ideal) o b)
      = biasElu o (Cert.KernelIdeal.Net.rowOf64 (F := Ideal) b) :=
  host_biasElu_eq _ _ _ _ o b _ rfl

/-- The last layer's tail: the host's bias is `bias` of the bias as one row. -/
theorem tail32_eq (o : FVec Ideal (Sh 80000 32) .f32) (b : FVec Ideal (⟨1, ![32]⟩ : Shape) .f32) :
    Cert.ReferenceIdeal.Net.biasAdd32 (F := Ideal) o b = bias o (Cert.KernelIdeal.Net.rowOf32 (F := Ideal) b) :=
  host_bias_eq _ _ _ o b

/-- The reference's network, layer by layer, is the kernel's. -/
theorem net_eq (x : FVec Ideal (Sh 80000 64) .f32) (W1 : FVec Ideal (Sh 64 64) .f32) (b1 : FVec Ideal (⟨1, ![64]⟩ : Shape) .f32)
    (W2 : FVec Ideal (Sh 64 64) .f32) (b2 : FVec Ideal (⟨1, ![64]⟩ : Shape) .f32)
    (W3 : FVec Ideal (Sh 64 32) .f32) (b3 : FVec Ideal (⟨1, ![32]⟩ : Shape) .f32)
    (e : Vec Ideal (⟨2, ![2, 1280000]⟩ : Shape) .i32) :
    Cert.ReferenceIdeal.Net.biasAdd32 (F := Ideal) (Cert.ReferenceIdeal.Net.agg32 (Cert.ReferenceIdeal.Net.dot32
        (Cert.ReferenceIdeal.Net.elu (Cert.ReferenceIdeal.Net.biasAdd64 (Cert.ReferenceIdeal.Net.agg64 (Cert.ReferenceIdeal.Net.dot64
          (Cert.ReferenceIdeal.Net.elu (Cert.ReferenceIdeal.Net.biasAdd64 (Cert.ReferenceIdeal.Net.agg64 (Cert.ReferenceIdeal.Net.dot64 x W1) e) b1)) W2) e) b2)) W3) e) b3
      = bias (Cert.KernelIdeal.Net.agg32 (F := Ideal) (mprod (biasElu (Cert.KernelIdeal.Net.agg64 (F := Ideal) (mprod
          (biasElu (Cert.KernelIdeal.Net.agg64 (F := Ideal) (mprod x W1) e) (Cert.KernelIdeal.Net.rowOf64 (F := Ideal) b1)) W2) e) (Cert.KernelIdeal.Net.rowOf64 (F := Ideal) b2)) W3) e)
          (Cert.KernelIdeal.Net.rowOf32 (F := Ideal) b3) := by
  rw [tail32_eq, agg32_eq, tail64_eq, agg64_eq, tail64_eq, agg64_eq]
  unfold Cert.ReferenceIdeal.Net.dot32 Cert.ReferenceIdeal.Net.dot64
  rw [RefDot.dot32_eq, RefDot.dot64_eq, RefDot.dot64_eq]

end Cert.Bridge

end
-- ==== Proof.Algebraic.lean ====
/-
  The algebraic claim: from memories agreeing on the arguments, the idealized kernel and the idealized reference end
  with the same result.

  The kernel's run ends at `kerNet` of its arguments. The reference's run ends at its operations' composed term,
  which reads back as the same three layers spelled with whole-array products and host broadcasts; that spelling is
  `kerNet` (the two networks are one function: products of row blocks are the rows of the whole product, the bias row is
  the broadcast bias, the two spellings of the exponential linear unit agree on every extended real, and the edge
  bookkeeping is the same chain of operations). The arguments agree, so the results do.
-/
import proofs.«104014_j18554258719469_1_alg».proof.Defs
import proofs.«104014_j18554258719469_1_alg».proof.Proof.KernelValue
import proofs.«104014_j18554258719469_1_alg».proof.Proof.RefRun
import proofs.«104014_j18554258719469_1_alg».proof.Proof.RefResult
import proofs.«104014_j18554258719469_1_alg».proof.Proof.Bridge
import proofs.«104014_j18554258719469_1_alg».proof.Proof.Gen.KernelIdeal
import proofs.«104014_j18554258719469_1_alg».proof.Proof.Gen.ReferenceIdeal
import proofs.«104014_j18554258719469_1_alg».proof.Proof.Gen.Pre_finite_inputs

noncomputable section

namespace Cert.Proof.Parts

open Idealize.ShloMosaic Idealize.ShloMosaic.TcCoe Idealize.SL.Sem

/-- Both runs end, with equal results and unchanged arguments. -/
theorem algebraic : Cert.algebraic_KernelIdeal_ReferenceIdeal := by
  intro m ρ m' ρ' _ hagree
  refine ⟨fun c => kerNet
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    kernel_run m ρ, ?_⟩
  refine (θ_run (Cert.ReferenceIdeal.defs (F := Ideal)) _ _).mono (fun r h c => ⟨(h c).1.trans ?_, (h c).2⟩)
    (Cert.ReferenceIdeal.HandRun.run (F := Ideal) m' ρ')
  rw [Cert.ReferenceIdeal.HandRun.result_eq]
  obtain ⟨e0, e1, e2, e3, e4, e5, e6, e7⟩ := hagree c
  show _ = kerNet _ _ _ _ _ _ _ _
  rw [← e0, ← e1, ← e2, ← e3, ← e4, ← e5, ← e6, ← e7]
  exact Cert.Bridge.net_eq _ _ _ _ _ _ _ _

end Cert.Proof.Parts

end
-- ==== Proof.lean ====
/-
  The certificate of a three-layer graph convolution: a kernel of six tiled regions against its array-level reference.

  A layer multiplies the node features by its weight matrix, sends every row along the edges (self loops appended)
  scaled by the symmetric degree normalisation, sums it at the edge's destination, and adds a bias; the first two layers
  end in the exponential linear unit. The kernel computes the dense parts - products of row blocks in reduced-precision
  format, bias and unit on row blocks - in tiled regions and leaves gather and scatter-addition to the host; the reference
  is one host program. On the extended reals a change of float format is the identity, so:

  * the frames (Proof/KernelFrames.lean, Proof/RefFrame.lean): each program terminates without a fault and keeps its
    arguments - the kernels' by the several-region frame certificate, the reference's by its run written out;
  * the idealization rewrote no operation;
  * the results agree (Proof/Algebraic.lean): the kernel's result is `kerNet` of the arguments (Proof/KernelValue.lean,
    from the regions' arrays in Proof/Region0 … Region5 and the host stretches in Proof/KWalk.lean), the reference's
    reads back as the same layers in whole-array spelling (Proof/RefResult.lean), and the two spellings are one function
    (Proof/Bridge.lean: a row block of a product is those rows of the whole product; the bias as a reshaped row is the
    broadcast bias; `select (v > 0) v (exp v - 1)` and `select (v > 0) v (1 · expm1 (select (v > 0) 0 v))` agree on
    every extended real; the edge bookkeeping is the same chain of operations). No step needs the inputs finite.
-/
import proofs.«104014_j18554258719469_1_alg».proof.Defs
import proofs.«104014_j18554258719469_1_alg».proof.Proof.KernelFrames
import proofs.«104014_j18554258719469_1_alg».proof.Proof.RefFrame
import proofs.«104014_j18554258719469_1_alg».proof.Proof.Algebraic
import proofs.«104014_j18554258719469_1_alg».proof.Proof.Gen.Kernel
import proofs.«104014_j18554258719469_1_alg».proof.Proof.Gen.KernelIdeal
import proofs.«104014_j18554258719469_1_alg».proof.Proof.Gen.ReferenceIdeal
import proofs.«104014_j18554258719469_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_reference, Parts.preserves, Parts.algebraic⟩

end Cert.Proof

end
